-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v183)) (v1 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_v172) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_v236) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S50000x16 : Shape := ⟨2, ![50000, 16]⟩
abbrev S128x128 : Shape := ⟨2, ![128, 128]⟩
abbrev S128 : Shape := ⟨1, ![128]⟩
abbrev S16x128 : Shape := ⟨2, ![16, 128]⟩
abbrev S1001x128 : Shape := ⟨2, ![1001, 128]⟩
abbrev S4x128x128 : Shape := ⟨3, ![4, 128, 128]⟩
abbrev S4x128 : Shape := ⟨2, ![4, 128]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S1001x128 : S_.BroadcastsInDim S1001x128 (![] : Fin 0 → Fin S1001x128.rank)
  reducesTo_S1001x128_S_d0_1 : S1001x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S4x128 .f32) (main_arg16 : FVec F S4x128 .f32) (main_arg17 : FVec F S4x128 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg15
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg16
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg17
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_v63 main_v67

def fn_part2 {F : FTy → Type} [FloatOps F] (main_arg11 : FVec F S4x128 .f32) (main_arg12 : FVec F S4x128x128 .f32) (main_arg13 : FVec F S4x128 .f32) (main_arg14 : FVec F S4x128 .f32) (main_arg15 : FVec F S4x128 .f32) (main_arg16 : FVec F S4x128 .f32) (main_arg17 : FVec F S4x128 .f32) (main_v33 : IVec S_ 1) : IVec S_ 1 :=
  let main_v34 : FVec F S4x128 .f32 := Host.absf main_arg11
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x128 .f32 := Host.absf main_arg12
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S4x128 .f32 := Host.absf main_arg13
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg14
  let main_cst_18 : FVec F S_ .f32 := constant S_ .f32 0x7F800000#32
  let main_v50 : FVec F S4x128 .f32 := broadcastInDim S4x128 ![] bcast_S_S4x128 main_cst_18
  fn_part3 (F := F) main_arg15 main_arg16 main_arg17 main_v48 main_v49 main_v50

def fn_part1 {F : FTy → Type} [FloatOps F] (main_arg8 : FVec F S128 .f32) (main_arg9 : FVec F S1001x128 .f32) (main_arg10 : FVec F S4x128x128 .f32) (main_arg11 : FVec F S4x128 .f32) (main_arg12 : FVec F S4x128x128 .f32) (main_arg13 : FVec F S4x128 .f32) (main_arg14 : FVec F S4x128 .f32) (main_arg15 : FVec F S4x128 .f32) (main_arg16 : FVec F S4x128 .f32) (main_arg17 : FVec F S4x128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1001x128 .f32 := Host.absf main_arg9
  let main_cst_8 : FVec F S_ .f32 := constant S_ .f32 0x7F800000#32
  let main_v25 : FVec F S1001x128 .f32 := broadcastInDim S1001x128 ![] bcast_S_S1001x128 main_cst_8
  let main_v26 : IVec S1001x128 1 := cmpf .olt main_v24 main_v25
  let main_c_9 : IVec S_ 1 := constantI S_ 1 1#1
  let main_v27 : IVec S_ 1 := (fun x v => Host.reduce IntOp.andi x v reducesTo_S1001x128_S_d0_1 h_S_) main_v26 main_c_9
  let main_v28 : IVec S_ 1 := andi main_v23 main_v27
  let main_v29 : FVec F S4x128x128 .f32 := Host.absf main_arg10
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : IVec S50000 32) (main_arg1 : IVec S2x600000 32) (main_arg2 : IVec S50000 32) (main_arg3 : FVec F S50000x16 .f32) (main_arg4 : IVec S50000 32) (main_arg5 : FVec F S128x128 .f32) (main_arg6 : FVec F S128 .f32) (main_arg7 : FVec F S16x128 .f32) (main_arg8 : FVec F S128 .f32) (main_arg9 : FVec F S1001x128 .f32) (main_arg10 : FVec F S4x128x128 .f32) (main_arg11 : FVec F S4x128 .f32) (main_arg12 : FVec F S4x128x128 .f32) (main_arg13 : FVec F S4x128 .f32) (main_arg14 : FVec F S4x128 .f32) (main_arg15 : FVec F S4x128 .f32) (main_arg16 : FVec F S4x128 .f32) (main_arg17 : FVec F S4x128 .f32) : IVec S_ 1 :=
  let main_v0 : FVec F S50000x16 .f32 := Host.absf main_arg3
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x128 .f32 := Host.absf main_arg7
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg8 main_arg9 main_arg10 main_arg11 main_arg12 main_arg13 main_arg14 main_arg15 main_arg16 main_arg17 main_v13 main_v16
-- ==== Kernel.lean ====
abbrev S50000 : Shape := ⟨1, ![50000]⟩
abbrev S2x600000 : Shape := ⟨2, ![2, 600000]⟩
abbrev S50000x16 : Shape := ⟨2, ![50000, 16]⟩
abbrev S128x128 : Shape := ⟨2, ![128, 128]⟩
abbrev S128 : Shape := ⟨1, ![128]⟩
abbrev S16x128 : Shape := ⟨2, ![16, 128]⟩
abbrev S1001x128 : Shape := ⟨2, ![1001, 128]⟩
abbrev S4x128x128 : Shape := ⟨3, ![4, 128, 128]⟩
abbrev S4x128 : Shape := ⟨2, ![4, 128]⟩
abbrev S_ : Shape := ⟨0, ![]⟩
abbrev S50000x1 : Shape := ⟨2, ![50000, 1]⟩
abbrev S50000x128 : Shape := ⟨2, ![50000, 128]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128x128 : Shape := ⟨3, ![1, 128, 128]⟩
abbrev S5000x128 : Shape := ⟨2, ![5000, 128]⟩
abbrev S128x1 : Shape := ⟨2, ![128, 1]⟩

abbrev nBuf : Space → Nat
  | .hbm => 254
  | .vmem => 48
  | .smem => 0
  | _ => 0

abbrev hbmTy0_0 (i : Nat) : BufTy := match i % 128 with
  | 0 => ⟨S50000, .i32⟩
  | 1 => ⟨S2x600000, .i32⟩
  | 2 => ⟨S50000, .i32⟩
  | 3 => ⟨S50000x16, .f32⟩
  | 4 => ⟨S50000, .i32⟩
  | 5 => ⟨S128x128, .f32⟩
  | 6 => ⟨S128, .f32⟩
  | 7 => ⟨S16x128, .f32⟩
  | 8 => ⟨S128, .f32⟩
  | 9 => ⟨S1001x128, .f32⟩
  | 10 => ⟨S4x128x128, .f32⟩
  | 11 => ⟨S4x128, .f32⟩
  | 12 => ⟨S4x128x128, .f32⟩
  | 13 => ⟨S4x128, .f32⟩
  | 14 => ⟨S4x128, .f32⟩
  | 15 => ⟨S4x128, .f32⟩
  | 16 => ⟨S4x128, .f32⟩
  | 17 => ⟨S4x128, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S50000, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i1⟩
  | 32 => ⟨S_, .i32⟩
  | 33 => ⟨S_, .i1⟩
  | 34 => ⟨S50000, .i1⟩
  | 35 => ⟨S50000, .i1⟩
  | 36 => ⟨S50000, .i1⟩
  | 37 => ⟨S50000, .i32⟩
  | 38 => ⟨S50000, .i32⟩
  | 39 => ⟨S50000, .i32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .i32⟩
  | 58 => ⟨S_, .i32⟩
  | 59 => ⟨S_, .i32⟩
  | 60 => ⟨S50000, .i32⟩
  | 61 => ⟨S50000, .i32⟩
  | 62 => ⟨S_, .i32⟩
  | 63 => ⟨S50000, .i32⟩
  | 64 => ⟨S50000, .i32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S50000x128, .f32⟩
  | 74 => ⟨S50000x128, .f32⟩
  | 75 => ⟨S1x600000, .i32⟩
  | 76 => ⟨S600000, .i32⟩
  | 77 => ⟨S1x600000, .i32⟩
  | 78 => ⟨S600000, .i32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S1x128x128, .f32⟩
  | 97 => ⟨S128x128, .f32⟩
  | 98 => ⟨S1x128, .f32⟩
  | 99 => ⟨S128, .f32⟩
  | 100 => ⟨S1x128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S1x128, .f32⟩
  | 107 => ⟨S128, .f32⟩
  | 108 => ⟨S1x128, .f32⟩
  | 109 => ⟨S1x128, .f32⟩
  | 110 => ⟨S128, .f32⟩
  | 111 => ⟨S1x128, .f32⟩
  | 112 => ⟨S1x128, .f32⟩
  | 113 => ⟨S128, .f32⟩
  | 114 => ⟨S1x128, .f32⟩
  | 115 => ⟨S1x128, .f32⟩
  | 116 => ⟨S128, .f32⟩
  | 117 => ⟨S1x128, .f32⟩
  | 118 => ⟨S50000x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S50000, .i32⟩

abbrev hbmTy0_1 (i : Nat) : BufTy := match i % 128 with
  | 0 => ⟨S_, .f32⟩
  | 1 => ⟨S50000x128, .f32⟩
  | 2 => ⟨S600000x1, .i32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S1x128x128, .f32⟩
  | 9 => ⟨S128x128, .f32⟩
  | 10 => ⟨S1x128, .f32⟩
  | 11 => ⟨S128, .f32⟩
  | 12 => ⟨S1x128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S1x128, .f32⟩
  | 25 => ⟨S128, .f32⟩
  | 26 => ⟨S1x128, .f32⟩
  | 27 => ⟨S1x128, .f32⟩
  | 28 => ⟨S128, .f32⟩
  | 29 => ⟨S1x128, .f32⟩
  | 30 => ⟨S50000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .f32⟩
  | 41 => ⟨S50000x128, .f32⟩
  | 42 => ⟨S600000x1, .i32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S1x128x128, .f32⟩
  | 49 => ⟨S128x128, .f32⟩
  | 50 => ⟨S1x128, .f32⟩
  | 51 => ⟨S128, .f32⟩
  | 52 => ⟨S1x128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S1x128, .f32⟩
  | 59 => ⟨S128, .f32⟩
  | 60 => ⟨S1x128, .f32⟩
  | 61 => ⟨S1x128, .f32⟩
  | 62 => ⟨S128, .f32⟩
  | 63 => ⟨S1x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S50000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S_, .f32⟩
  | 81 => ⟨S50000x128, .f32⟩
  | 82 => ⟨S600000x1, .i32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S1x128, .f32⟩
  | 99 => ⟨S128, .f32⟩
  | 100 => ⟨S1x128, .f32⟩
  | 101 => ⟨S1x128, .f32⟩
  | 102 => ⟨S128, .f32⟩
  | 103 => ⟨S1x128, .f32⟩
  | 104 => ⟨S1x128, .f32⟩
  | 105 => ⟨S128, .f32⟩
  | 106 => ⟨S1x128, .f32⟩
  | 107 => ⟨S1x128, .f32⟩
  | 108 => ⟨S128, .f32⟩
  | 109 => ⟨S1x128, .f32⟩
  | 110 => ⟨S50000x128, .f32⟩
  | 111 => ⟨S_, .f32⟩
  | 112 => ⟨S128x128, .f32⟩
  | 113 => ⟨S50000x1, .i32⟩
  | 114 => ⟨S128x128, .f32⟩
  | 115 => ⟨S_, .f32⟩
  | 116 => ⟨S50000x1, .f32⟩
  | 117 => ⟨S_, .f32⟩
  | 118 => ⟨S128x1, .f32⟩
  | 119 => ⟨S50000x1, .i32⟩
  | 120 => ⟨S128x1, .f32⟩
  | 121 => ⟨S_, .f32⟩
  | 122 => ⟨S128x1, .f32⟩
  | 123 => ⟨S128x1, .f32⟩
  | 124 => ⟨S128x128, .f32⟩
  | 125 => ⟨S128x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v0 : Ref sig .tc := ⟨.hbm, 39, rfl⟩
abbrev main_c_0 : Ref sig .tc := ⟨.hbm, 40, rfl⟩
abbrev main_v1 : Ref sig .tc := ⟨.hbm, 41, rfl⟩
abbrev main_v2 : Ref sig .tc := ⟨.hbm, 42, rfl⟩
abbrev main_c_1 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_2 : Ref sig .tc := ⟨.hbm, 57, rfl⟩
abbrev main_c_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v16 : Ref sig .tc := ⟨.hbm, 64, rfl⟩
abbrev main_c_4 : Ref sig .tc := ⟨.hbm, 65, rfl⟩
abbrev main_v17 : Ref sig .tc := ⟨.hbm, 66, rfl⟩
abbrev main_v18 : Ref sig .tc := ⟨.hbm, 67, rfl⟩
abbrev main_c_5 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_6 : Ref sig .tc := ⟨.hbm, 79, rfl⟩
abbrev main_v29 : Ref sig .tc := ⟨.hbm, 80, rfl⟩
abbrev main_v30 : Ref sig .tc := ⟨.hbm, 81, rfl⟩
abbrev main_c_7 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_8 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_c_9 : Ref sig .tc := ⟨.hbm, 119, rfl⟩
abbrev main_v65 : Ref sig .tc := ⟨.hbm, 120, rfl⟩
abbrev main_v66 : Ref sig .tc := ⟨.hbm, 121, rfl⟩
abbrev main_c_10 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_11 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_cst_12 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_c_13 : Ref sig .tc := ⟨.hbm, 159, rfl⟩
abbrev main_v101 : Ref sig .tc := ⟨.hbm, 160, rfl⟩
abbrev main_v102 : Ref sig .tc := ⟨.hbm, 161, rfl⟩
abbrev main_c_14 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_15 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_16 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_c_17 : Ref sig .tc := ⟨.hbm, 199, rfl⟩
abbrev main_v137 : Ref sig .tc := ⟨.hbm, 200, rfl⟩
abbrev main_v138 : Ref sig .tc := ⟨.hbm, 201, rfl⟩
abbrev main_c_18 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_cst_19 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_cst_20 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_cst_21 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_22 : Ref sig .tc := ⟨.hbm, 243, rfl⟩
abbrev main_v176 : Ref sig .tc := ⟨.hbm, 244, rfl⟩
abbrev main_cst_23 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_24 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S_S50000x1 : S_.BroadcastsInDim S50000x1 (![] : Fin 0 → Fin S50000x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  gather_S128x128_S50000x1_S50000x128_1_0_n_n_0_1_1128_wf : GatherDims.WF S128x128 S50000x1 S50000x128 [1] [0] [] [0] [] 1 ![1, 128]
  dot_S50000x16_S16x128_S50000x128_1_0_0_1_n_n_wf : DotDims.WF S50000x16 S16x128 S50000x128 [1] [0] [0] [1] [] []
  gather_S1001x128_S50000x1_S50000x128_1_0_n_n_0_1_1128_wf : GatherDims.WF S1001x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S128x128_S50000x1_S50000x128_1_0_0_1_wf : ScatterDims.WF S128x128 S50000x1 S50000x128 [1] [0] [0] 1
  scatter_S128x1_S50000x1_S50000x1_1_0_0_1_wf : ScatterDims.WF S128x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)

variable [Facts₀]

def gather_S128x128_S50000x1_S50000x128_1_0_n_n_0_1_1128 : GatherDims S128x128 S50000x1 S50000x128 where
  offsetDims := [1]
  collapsedSliceDims := [0]
  operandBatchingDims := []
  startIndicesBatchingDims := []
  startIndexMap := [0]
  indexVectorDim := 1
  sliceSizes := ![1, 128]
  wf := gather_S128x128_S50000x1_S50000x128_1_0_n_n_0_1_1128_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def gather_S1001x128_S50000x1_S50000x128_1_0_n_n_0_1_1128 : GatherDims S1001x128 S50000x1 S50000x128 where
  offsetDims := [1]
  collapsedSliceDims := [0]
  operandBatchingDims := []
  startIndicesBatchingDims := []
  startIndexMap := [0]
  indexVectorDim := 1
  sliceSizes := ![1, 128]
  wf := gather_S1001x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf

abbrev win0_0 : Pipeline.Window sig grid0 :=
  Pipeline.Window.ofSpec (Memref.whole main_v41) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v54) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v60) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v63) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v64) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v77) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v82) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v84) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v90) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v93) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v96) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v99) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v100) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v113) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v115) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v118) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v120) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v123) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v126) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v129) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v132) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v135) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v136) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v149) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v151) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v154) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v156) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v159) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v162) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v165) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v168) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v171) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v172) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000 : Shape := ⟨1, ![50000]⟩
abbrev S2x600000 : Shape := ⟨2, ![2, 600000]⟩
abbrev S50000x16 : Shape := ⟨2, ![50000, 16]⟩
abbrev S128x128 : Shape := ⟨2, ![128, 128]⟩
abbrev S128 : Shape := ⟨1, ![128]⟩
abbrev S16x128 : Shape := ⟨2, ![16, 128]⟩
abbrev S1001x128 : Shape := ⟨2, ![1001, 128]⟩
abbrev S4x128x128 : Shape := ⟨3, ![4, 128, 128]⟩
abbrev S4x128 : Shape := ⟨2, ![4, 128]⟩
abbrev S_ : Shape := ⟨0, ![]⟩
abbrev S50000x1 : Shape := ⟨2, ![50000, 1]⟩
abbrev S50000x128 : Shape := ⟨2, ![50000, 128]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128x128 : Shape := ⟨3, ![1, 128, 128]⟩
abbrev S128x1 : Shape := ⟨2, ![128, 1]⟩

abbrev nBuf : Space → Nat
  | .hbm => 338
  | .vmem => 0
  | .smem => 0
  | _ => 0

abbrev hbmTy0_0 (i : Nat) : BufTy := match i % 128 with
  | 0 => ⟨S50000, .i32⟩
  | 1 => ⟨S2x600000, .i32⟩
  | 2 => ⟨S50000, .i32⟩
  | 3 => ⟨S50000x16, .f32⟩
  | 4 => ⟨S50000, .i32⟩
  | 5 => ⟨S128x128, .f32⟩
  | 6 => ⟨S128, .f32⟩
  | 7 => ⟨S16x128, .f32⟩
  | 8 => ⟨S128, .f32⟩
  | 9 => ⟨S1001x128, .f32⟩
  | 10 => ⟨S4x128x128, .f32⟩
  | 11 => ⟨S4x128, .f32⟩
  | 12 => ⟨S4x128x128, .f32⟩
  | 13 => ⟨S4x128, .f32⟩
  | 14 => ⟨S4x128, .f32⟩
  | 15 => ⟨S4x128, .f32⟩
  | 16 => ⟨S4x128, .f32⟩
  | 17 => ⟨S4x128, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S50000, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i1⟩
  | 32 => ⟨S_, .i32⟩
  | 33 => ⟨S_, .i1⟩
  | 34 => ⟨S50000, .i1⟩
  | 35 => ⟨S50000, .i1⟩
  | 36 => ⟨S50000, .i1⟩
  | 37 => ⟨S50000, .i32⟩
  | 38 => ⟨S50000, .i32⟩
  | 39 => ⟨S50000, .i32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .i32⟩
  | 58 => ⟨S_, .i32⟩
  | 59 => ⟨S_, .i32⟩
  | 60 => ⟨S50000, .i32⟩
  | 61 => ⟨S50000, .i32⟩
  | 62 => ⟨S_, .i32⟩
  | 63 => ⟨S50000, .i32⟩
  | 64 => ⟨S50000, .i32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S50000x128, .f32⟩
  | 74 => ⟨S50000x128, .f32⟩
  | 75 => ⟨S1x600000, .i32⟩
  | 76 => ⟨S600000, .i32⟩
  | 77 => ⟨S1x600000, .i32⟩
  | 78 => ⟨S600000, .i32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S128, .f32⟩
  | 121 => ⟨S128, .f32⟩
  | 122 => ⟨S128, .f32⟩
  | 123 => ⟨S128, .f32⟩
  | 124 => ⟨S1x128, .f32⟩
  | 125 => ⟨S128, .f32⟩
  | 126 => ⟨S1x128, .f32⟩
  | 127 => ⟨S50000x128, .f32⟩
  | _ => ⟨S50000, .i32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S1x128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S_, .f32⟩
  | 22 => ⟨S50000x128, .f32⟩
  | 23 => ⟨S600000x1, .i32⟩
  | 24 => ⟨S50000x128, .f32⟩
  | 25 => ⟨S_, .f32⟩
  | 26 => ⟨S50000x128, .f32⟩
  | 27 => ⟨S50000x128, .f32⟩
  | 28 => ⟨S50000x128, .f32⟩
  | 29 => ⟨S1x128x128, .f32⟩
  | 30 => ⟨S128x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S128, .f32⟩
  | 52 => ⟨S_, .f32⟩
  | 53 => ⟨S128, .f32⟩
  | 54 => ⟨S128, .f32⟩
  | 55 => ⟨S128, .f32⟩
  | 56 => ⟨S128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S_, .f32⟩
  | 83 => ⟨S50000x128, .f32⟩
  | 84 => ⟨S600000x1, .i32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S128, .f32⟩
  | 113 => ⟨S_, .f32⟩
  | 114 => ⟨S128, .f32⟩
  | 115 => ⟨S128, .f32⟩
  | 116 => ⟨S128, .f32⟩
  | 117 => ⟨S128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S1x128, .f32⟩
  | 127 => ⟨S128, .f32⟩
  | _ => ⟨S50000, .i32⟩

abbrev hbmTy0_2 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S_, .f32⟩
  | 16 => ⟨S50000x128, .f32⟩
  | 17 => ⟨S600000x1, .i32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S1x128x128, .f32⟩
  | 24 => ⟨S128x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S128, .f32⟩
  | 46 => ⟨S_, .f32⟩
  | 47 => ⟨S128, .f32⟩
  | 48 => ⟨S128, .f32⟩
  | 49 => ⟨S128, .f32⟩
  | 50 => ⟨S128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S_, .f32⟩
  | 68 => ⟨S128x128, .f32⟩
  | 69 => ⟨S50000x1, .i32⟩
  | 70 => ⟨S128x128, .f32⟩
  | 71 => ⟨S_, .f32⟩
  | 72 => ⟨S50000x1, .f32⟩
  | 73 => ⟨S_, .f32⟩
  | 74 => ⟨S128x1, .f32⟩
  | 75 => ⟨S50000x1, .i32⟩
  | 76 => ⟨S128x1, .f32⟩
  | 77 => ⟨S_, .f32⟩
  | 78 => ⟨S128x1, .f32⟩
  | 79 => ⟨S128x1, .f32⟩
  | 80 => ⟨S128x128, .f32⟩
  | 81 => ⟨S128x128, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v0 : Ref sig .tc := ⟨.hbm, 39, rfl⟩
abbrev main_c_0 : Ref sig .tc := ⟨.hbm, 40, rfl⟩
abbrev main_v1 : Ref sig .tc := ⟨.hbm, 41, rfl⟩
abbrev main_v2 : Ref sig .tc := ⟨.hbm, 42, rfl⟩
abbrev main_c_1 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_2 : Ref sig .tc := ⟨.hbm, 57, rfl⟩
abbrev main_c_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v16 : Ref sig .tc := ⟨.hbm, 64, rfl⟩
abbrev main_c_4 : Ref sig .tc := ⟨.hbm, 65, rfl⟩
abbrev main_v17 : Ref sig .tc := ⟨.hbm, 66, rfl⟩
abbrev main_v18 : Ref sig .tc := ⟨.hbm, 67, rfl⟩
abbrev main_c_5 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_6 : Ref sig .tc := ⟨.hbm, 79, rfl⟩
abbrev main_v29 : Ref sig .tc := ⟨.hbm, 80, rfl⟩
abbrev main_v30 : Ref sig .tc := ⟨.hbm, 81, rfl⟩
abbrev main_c_7 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_8 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_call2_cst : Ref sig .tc := ⟨.hbm, 104, rfl⟩
abbrev main_call2_v0 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst_9 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_call3_cst : Ref sig .tc := ⟨.hbm, 137, rfl⟩
abbrev main_call3_v0 : Ref sig .tc := ⟨.hbm, 138, rfl⟩
abbrev main_v80 : Ref sig .tc := ⟨.hbm, 139, rfl⟩
abbrev main_c_10 : Ref sig .tc := ⟨.hbm, 140, rfl⟩
abbrev main_v81 : Ref sig .tc := ⟨.hbm, 141, rfl⟩
abbrev main_v82 : Ref sig .tc := ⟨.hbm, 142, rfl⟩
abbrev main_c_11 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_12 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_13 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_call4_cst : Ref sig .tc := ⟨.hbm, 165, rfl⟩
abbrev main_call4_v0 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_14 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_call5_cst : Ref sig .tc := ⟨.hbm, 198, rfl⟩
abbrev main_call5_v0 : Ref sig .tc := ⟨.hbm, 199, rfl⟩
abbrev main_v132 : Ref sig .tc := ⟨.hbm, 200, rfl⟩
abbrev main_c_15 : Ref sig .tc := ⟨.hbm, 201, rfl⟩
abbrev main_v133 : Ref sig .tc := ⟨.hbm, 202, rfl⟩
abbrev main_v134 : Ref sig .tc := ⟨.hbm, 203, rfl⟩
abbrev main_c_16 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_cst_17 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_cst_18 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_call6_cst : Ref sig .tc := ⟨.hbm, 226, rfl⟩
abbrev main_call6_v0 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_cst_19 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_call7_cst : Ref sig .tc := ⟨.hbm, 259, rfl⟩
abbrev main_call7_v0 : Ref sig .tc := ⟨.hbm, 260, rfl⟩
abbrev main_v184 : Ref sig .tc := ⟨.hbm, 261, rfl⟩
abbrev main_c_20 : Ref sig .tc := ⟨.hbm, 262, rfl⟩
abbrev main_v185 : Ref sig .tc := ⟨.hbm, 263, rfl⟩
abbrev main_v186 : Ref sig .tc := ⟨.hbm, 264, rfl⟩
abbrev main_c_21 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_cst_22 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_cst_23 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_call8_cst : Ref sig .tc := ⟨.hbm, 287, rfl⟩
abbrev main_call8_v0 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_cst_24 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_call9_cst : Ref sig .tc := ⟨.hbm, 320, rfl⟩
abbrev main_call9_v0 : Ref sig .tc := ⟨.hbm, 321, rfl⟩
abbrev main_v236 : Ref sig .tc := ⟨.hbm, 322, rfl⟩
abbrev main_cst_25 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_cst_26 : Ref sig .tc := ⟨.hbm, 327, rfl⟩
abbrev main_v240 : Ref sig .tc := ⟨.hbm, 328, rfl⟩
abbrev main_cst_27 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_cst_28 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S_S50000x1 : S_.BroadcastsInDim S50000x1 (![] : Fin 0 → Fin S50000x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  gather_S128x128_S50000x1_S50000x128_1_0_n_n_0_1_1128_wf : GatherDims.WF S128x128 S50000x1 S50000x128 [1] [0] [] [0] [] 1 ![1, 128]
  dot_S50000x16_S16x128_S50000x128_1_0_0_1_n_n_wf : DotDims.WF S50000x16 S16x128 S50000x128 [1] [0] [0] [1] [] []
  gather_S1001x128_S50000x1_S50000x128_1_0_n_n_0_1_1128_wf : GatherDims.WF S1001x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128x1_S50000x1_S50000x1_1_0_0_1_wf : ScatterDims.WF S128x1 S50000x1 S50000x1 [1] [0] [0] 1

variable [Facts₀]

def gather_S128x128_S50000x1_S50000x128_1_0_n_n_0_1_1128 : GatherDims S128x128 S50000x1 S50000x128 where
  offsetDims := [1]
  collapsedSliceDims := [0]
  operandBatchingDims := []
  startIndicesBatchingDims := []
  startIndexMap := [0]
  indexVectorDim := 1
  sliceSizes := ![1, 128]
  wf := gather_S128x128_S50000x1_S50000x128_1_0_n_n_0_1_1128_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def gather_S1001x128_S50000x1_S50000x128_1_0_n_n_0_1_1128 : GatherDims S1001x128 S50000x1 S50000x128 where
  offsetDims := [1]
  collapsedSliceDims := [0]
  operandBatchingDims := []
  startIndicesBatchingDims := []
  startIndexMap := [0]
  indexVectorDim := 1
  sliceSizes := ![1, 128]
  wf := gather_S1001x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf

class Facts : Prop extends Facts₀ where

variable [Facts]
-- ==== Proof.Stages.lean ====
/-
  The layer both programs apply four times, as ONE function of whole arrays.

  A GIN block's dense stage maps the aggregated node features `agg` (50000 nodes by 128 channels) through
  `relu (agg · W₁ + b₁) · W₂ + b₂`, then through inference batch normalisation
  `(· − mean) · (gamma · rsqrt (var + ε)) + beta` and a final `relu`. The definition below spells it with the
  host operations of the reference program, in the reference's order, so that the reference's own term for a
  layer is this function by unfolding, and the tiled kernel's output array is proved equal to it entry by entry.
-/
import proofs.«112971_j66340064854633_1_alg».proof.Defs

noncomputable section

namespace Cert.Stages

open Idealize.ShloMosaic Cert.ReferenceIdeal

-- the reference program's stated side conditions (shape arithmetic of its broadcasts, slices and reshapes)
variable [Cert.ReferenceIdeal.Facts]
open Cert.ReferenceIdeal.Facts₀ Cert.ReferenceIdeal.Facts

/-- Float arrays of a shape, at the exact instance: functions from the shape's indices to the extended reals. -/
abbrev A (S : Shape) := FVec Ideal S .f32
/-- Integer (32-bit) arrays of a shape. -/
abbrev I (S : Shape) := IVec S 32

/-- A per-channel vector repeated along every node: `[128] → [1, 128] → [50000, 128]`. -/
def rows (v : A S128) : A S50000x128 :=
  broadcastInDim S50000x128 ![0, 1] bcast_S1x128_S50000x128_0_1 (broadcastInDim S1x128 ![1] bcast_S128_S1x128_1 v)

/-- `max · 0` entry by entry on node-by-channel arrays. -/
def relu (x : A S50000x128) : A S50000x128 :=
  maximumf x (broadcastInDim S50000x128 ![] bcast_S_S50000x128 (constant (F := Ideal) S_ .f32 0x00000000#32))

/-- Node features times a 128 × 128 weight matrix: entry `(i, j)` is `∑ k, x (i, k) · w (k, j)`. -/
def mm (x : A S50000x128) (w : A S128x128) : A S50000x128 :=
  ((fun l r => Host.dotGeneral dot_S50000x128_S128x128_S50000x128_1_0_0_1_n_n none l r) : A S50000x128 → A S128x128 → A S50000x128) x w

/-- The batch-norm scale per channel: `gamma · rsqrt (var + ε)`, `ε` the f32 nearest `1e-5`. -/
def bnScale (g var : A S128) : A S128 :=
  mulf g ((Host.rsqrt : A S128 → A S128) (addf var (broadcastInDim S128 ![] bcast_S_S128 (constant (F := Ideal) S_ .f32 0x3727C5AC#32))))

/-- One GIN block's dense stage on whole arrays:
    `relu ((relu (agg · W₁ + b₁) · W₂ + b₂ − mean) · (gamma · rsqrt (var + ε)) + beta)`. -/
def layerHost (agg : A S50000x128) (w1 : A S128x128) (b1 : A S128) (w2 : A S128x128) (b2 g be mu var : A S128) :
    A S50000x128 :=
  relu (addf (mulf (subf (addf (mm (relu (addf (mm agg w1) (rows b1))) w2) (rows b2)) (rows mu)) (rows (bnScale g var)))
    (rows be))

/-! ## The host stages both programs share

Everything around the four dense stages is the same host computation in both programs: the initial node
features, the two index rows of the edge list, the neighbourhood aggregation before each dense stage, the slices
of the stacked parameters, and the mean pooling at the end. Each is named once here. -/

/-- Truth-value arrays of a shape. -/
abbrev B (S : Shape) := IVec S 1

/-- The divisor `128` as the remainder routine normalises it: `1` if it were `0`, else itself. -/
def divisor : I S_ :=
  select (cmpi .eq (id (constantI S_ 32 128#32 : I S_)) (constantI S_ 32 0#32 : I S_) : B S_) (constantI S_ 32 1#32 : I S_)
    (id (constantI S_ 32 128#32 : I S_))

/-- `x mod 128` with the sign of the divisor (the floor-style remainder): the truncated remainder, shifted by the
    divisor where it is non-zero and its sign differs from the divisor's. -/
def remainder128 (a0 : I S50000) : I S50000 :=
  select
    (andi
      (cmpi .ne
        (cmpi .slt (Host.remsi a0 (broadcastInDim S50000 ![] bcast_S_S50000 divisor))
          (broadcastInDim S50000 ![] bcast_S_S50000 (constantI S_ 32 0#32 : I S_)) : B S50000)
        (broadcastInDim S50000 ![] bcast_S_S50000 (cmpi .slt divisor (constantI S_ 32 0#32 : I S_) : B S_)) : B S50000)
      (cmpi .ne (Host.remsi a0 (broadcastInDim S50000 ![] bcast_S_S50000 divisor))
        (broadcastInDim S50000 ![] bcast_S_S50000 (constantI S_ 32 0#32 : I S_)) : B S50000))
    (addi (Host.remsi a0 (broadcastInDim S50000 ![] bcast_S_S50000 divisor)) (broadcastInDim S50000 ![] bcast_S_S50000 divisor))
    (Host.remsi a0 (broadcastInDim S50000 ![] bcast_S_S50000 divisor))

/-- A per-node index made non-negative the way array indexing does: `x + n` where `x < 0`, else `x`. -/
def wrapNode (n : BitVec 32) (x : I S50000) : I S50000 :=
  select (cmpi .slt x (broadcastInDim S50000 ![] bcast_S_S50000 (constantI S_ 32 0#32 : I S_)) : B S50000)
    (addi x (broadcastInDim S50000 ![] bcast_S_S50000 (constantI S_ 32 n : I S_))) x

/-- The same for a per-edge index into the 50000 nodes. -/
def wrapEdge (x : I S600000) : I S600000 :=
  select (cmpi .slt x (broadcastInDim S600000 ![] bcast_S_S600000 (constantI S_ 32 0#32 : I S_)) : B S600000)
    (addi x (broadcastInDim S600000 ![] bcast_S_S600000 (constantI S_ 32 50000#32 : I S_))) x

/-- A per-node index vector as a one-column index array. -/
def colNode (x : I S50000) : I S50000x1 := broadcastInDim S50000x1 ![0] bcast_S50000_S50000x1_0 x
/-- A per-edge index vector as a one-column index array. -/
def colEdge (x : I S600000) : I S600000x1 := broadcastInDim S600000x1 ![0] bcast_S600000_S600000x1_0 x

/-- The in-degree clamped to `[0, 1000]`. -/
def clipDeg (a4 : I S50000) : I S50000 :=
  minsi (broadcastInDim S50000 ![] bcast_S_S50000 (id (constantI S_ 32 1000#32 : I S_)))
    (maxsi (broadcastInDim S50000 ![] bcast_S_S50000 (id (constantI S_ 32 0#32 : I S_))) a4)

/-- The initial node features: the value-table row of `feat_id mod 128`, plus its bias, plus the projected
    random-walk encoding and its bias, plus the degree-table row of the clamped in-degree. -/
def head (a0 : I S50000) (a3 : A S50000x16) (a4 : I S50000) (a5 : A S128x128) (a6 : A S128) (a7 : A S16x128)
    (a8 : A S128) (a9 : A S1001x128) : A S50000x128 :=
  addf
    (addf
      (addf
        (addf (((fun x i => Host.gather gather_S128x128_S50000x1_S50000x128_1_0_n_n_0_1_1128 x i) : A S128x128 → I S50000x1 → A S50000x128) a5 (colNode (wrapNode 128#32 (remainder128 a0))))
          (rows a6))
        (((fun l r => Host.dotGeneral dot_S50000x16_S16x128_S50000x128_1_0_0_1_n_n none l r) : A S50000x16 → A S16x128 → A S50000x128) a3 a7))
      (rows a8))
    (((fun x i => Host.gather gather_S1001x128_S50000x1_S50000x128_1_0_n_n_0_1_1128 x i) : A S1001x128 → I S50000x1 → A S50000x128) a9 (colNode (wrapNode 1001#32 (clipDeg a4))))

/-- Row `0` of the edge list (the sources) as a vector over the edges. -/
def srcIdx (a1 : I S2x600000) : I S600000 :=
  shapeCast S600000 (extractStridedSlice S1x600000 ![0, 0] a1 slices_S2x600000_S1x600000_0_0) shapeCasts_S1x600000_S600000
/-- Row `1` of the edge list (the destinations). -/
def dstIdx (a1 : I S2x600000) : I S600000 :=
  shapeCast S600000 (extractStridedSlice S1x600000 ![1, 0] a1 slices_S2x600000_S1x600000_1_0) shapeCasts_S1x600000_S600000

/-- The neighbourhood aggregation: the features of each edge's source summed into its destination, plus the
    node's own features (times the literal `1`). -/
def aggF (h : A S50000x128) (s d : I S600000) : A S50000x128 :=
  addf
    (((fun x i u => Host.scatterAdd scatter_S50000x128_S600000x1_S600000x128_1_0_0_1 x i u) : A S50000x128 → I S600000x1 → A S600000x128 → A S50000x128)
      (broadcastInDim S50000x128 ![] bcast_S_S50000x128 (constant (F := Ideal) S_ .f32 0x00000000#32)) (colEdge d)
      (((fun x i => Host.gather gather_S50000x128_S600000x1_S600000x128_1_0_n_n_0_1_1128 x i) : A S50000x128 → I S600000x1 → A S600000x128) h (colEdge (wrapEdge s))))
    (mulf (broadcastInDim S50000x128 ![] bcast_S_S50000x128 (constant (F := Ideal) S_ .f32 0x3F800000#32)) h)

/-- Layer `0`'s matrix of a stacked `[4, 128, 128]` parameter (and layers 1, 2, 3 below). -/
def paramW0 (a : A S4x128x128) : A S128x128 :=
  shapeCast S128x128 (extractStridedSlice S1x128x128 ![0, 0, 0] a slices_S4x128x128_S1x128x128_0_0_0) shapeCasts_S1x128x128_S128x128
def paramW1 (a : A S4x128x128) : A S128x128 :=
  shapeCast S128x128 (extractStridedSlice S1x128x128 ![1, 0, 0] a slices_S4x128x128_S1x128x128_1_0_0) shapeCasts_S1x128x128_S128x128
def paramW2 (a : A S4x128x128) : A S128x128 :=
  shapeCast S128x128 (extractStridedSlice S1x128x128 ![2, 0, 0] a slices_S4x128x128_S1x128x128_2_0_0) shapeCasts_S1x128x128_S128x128
def paramW3 (a : A S4x128x128) : A S128x128 :=
  shapeCast S128x128 (extractStridedSlice S1x128x128 ![3, 0, 0] a slices_S4x128x128_S1x128x128_3_0_0) shapeCasts_S1x128x128_S128x128
/-- Layer `0`'s vector of a stacked `[4, 128]` parameter (and layers 1, 2, 3 below). -/
def paramV0 (a : A S4x128) : A S128 :=
  shapeCast S128 (extractStridedSlice S1x128 ![0, 0] a slices_S4x128_S1x128_0_0) shapeCasts_S1x128_S128
def paramV1 (a : A S4x128) : A S128 :=
  shapeCast S128 (extractStridedSlice S1x128 ![1, 0] a slices_S4x128_S1x128_1_0) shapeCasts_S1x128_S128
def paramV2 (a : A S4x128) : A S128 :=
  shapeCast S128 (extractStridedSlice S1x128 ![2, 0] a slices_S4x128_S1x128_2_0) shapeCasts_S1x128_S128
def paramV3 (a : A S4x128) : A S128 :=
  shapeCast S128 (extractStridedSlice S1x128 ![3, 0] a slices_S4x128_S1x128_3_0) shapeCasts_S1x128_S128

/-- Mean pooling over the graphs: the node features summed per graph, divided by `max (count, 1)`. -/
def tailF (h : A S50000x128) (a2 : I S50000) : A S128x128 :=
  (Host.divf : A S128x128 → A S128x128 → A S128x128)
    (((fun x i u => Host.scatterAdd scatter_S128x128_S50000x1_S50000x128_1_0_0_1 x i u) : A S128x128 → I S50000x1 → A S50000x128 → A S128x128)
      (broadcastInDim S128x128 ![] bcast_S_S128x128 (constant (F := Ideal) S_ .f32 0x00000000#32)) (colNode a2) h)
    (broadcastInDim S128x128 ![0, 1] bcast_S128x1_S128x128_0_1
      (maximumf
        (((fun x i u => Host.scatterAdd scatter_S128x1_S50000x1_S50000x1_1_0_0_1 x i u) : A S128x1 → I S50000x1 → A S50000x1 → A S128x1)
          (broadcastInDim S128x1 ![] bcast_S_S128x1 (constant (F := Ideal) S_ .f32 0x00000000#32)) (colNode a2)
          (broadcastInDim S50000x1 ![] bcast_S_S50000x1 (constant (F := Ideal) S_ .f32 0x3F800000#32)))
        (broadcastInDim S128x1 ![] bcast_S_S128x1 (constant (F := Ideal) S_ .f32 0x3F800000#32))))

/-- The node features after each of the four blocks, as functions of the eighteen arguments. -/
structure Args where
  a0 : I S50000
  a1 : I S2x600000
  a2 : I S50000
  a3 : A S50000x16
  a4 : I S50000
  a5 : A S128x128
  a6 : A S128
  a7 : A S16x128
  a8 : A S128
  a9 : A S1001x128
  a10 : A S4x128x128
  a11 : A S4x128
  a12 : A S4x128x128
  a13 : A S4x128
  a14 : A S4x128
  a15 : A S4x128
  a16 : A S4x128
  a17 : A S4x128

def h0 (x : Args) : A S50000x128 := head x.a0 x.a3 x.a4 x.a5 x.a6 x.a7 x.a8 x.a9
def h1 (x : Args) : A S50000x128 :=
  layerHost (aggF (h0 x) (srcIdx x.a1) (dstIdx x.a1)) (paramW0 x.a10) (paramV0 x.a11) (paramW0 x.a12) (paramV0 x.a13)
    (paramV0 x.a14) (paramV0 x.a15) (paramV0 x.a16) (paramV0 x.a17)
def h2 (x : Args) : A S50000x128 :=
  layerHost (aggF (h1 x) (srcIdx x.a1) (dstIdx x.a1)) (paramW1 x.a10) (paramV1 x.a11) (paramW1 x.a12) (paramV1 x.a13)
    (paramV1 x.a14) (paramV1 x.a15) (paramV1 x.a16) (paramV1 x.a17)
def h3 (x : Args) : A S50000x128 :=
  layerHost (aggF (h2 x) (srcIdx x.a1) (dstIdx x.a1)) (paramW2 x.a10) (paramV2 x.a11) (paramW2 x.a12) (paramV2 x.a13)
    (paramV2 x.a14) (paramV2 x.a15) (paramV2 x.a16) (paramV2 x.a17)
/-- The second result: the node features after the fourth block. -/
def h4 (x : Args) : A S50000x128 :=
  layerHost (aggF (h3 x) (srcIdx x.a1) (dstIdx x.a1)) (paramW3 x.a10) (paramV3 x.a11) (paramW3 x.a12) (paramV3 x.a13)
    (paramV3 x.a14) (paramV3 x.a15) (paramV3 x.a16) (paramV3 x.a17)
/-- The first result: the pooled graph features. -/
def pooled (x : Args) : A S128x128 := tailF (h4 x) x.a2

end Cert.Stages

end
-- ==== Proof.KernelRun.lean ====
/-
  The idealized kernel program's run with its final memory NAMED.

  The program is four tiled regions among stretches of host operations. Its run from the launch memory
  terminates without a fault, and at the end every unscoped buffer of each core holds the value of the fold
  `W13`: the launch memory pushed through each stretch of host operations in order and, at each region, through
  "every array of the region at what its write-backs leave, every other buffer untouched". The frame statement
  keeps of this only the argument buffers; the value statement needs the two result buffers too, so the launch
  theorem over the program's segments is applied once more with the whole final valuation as its conclusion.
-/
import proofs.«112971_j66340064854633_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the fold `W13` of the launch memory through the program's segments. -/
theorem run_W13 : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.Run

end
-- ==== Proof.KS0.lean ====
import proofs.«112971_j66340064854633_1_alg».proof.Proof.Gen.KernelIdeal.Launch
import proofs.«112971_j66340064854633_1_alg».proof.Proof.Gen.ReferenceIdeal
import proofs.«112971_j66340064854633_1_alg».proof.Proof.Stages
import Idealize.ShloMosaic.Lib.StableHlo.Run

set_option maxRecDepth 16384

noncomputable section

namespace Cert.KernelIdeal.KS0

open Cert.KernelIdeal Cert.KernelIdeal.Gen Idealize.ShloMosaic Idealize.ShloMosaic.TcCoe Idealize.SL.Sem Idealize.ShloMosaic.StableHlo

/-! The host operations before region 0 (five consecutive stretches), read at the buffers region 0 and the later
    stretches use, from ANY contents `W`: the aggregation of the initial node features, the two index rows of the edge
    list, the first block's parameter slices, and the argument buffers the stretches do not write. -/

set_option maxHeartbeats 4000000 in
theorem agg (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v41)
      = Cert.Stages.aggF (Cert.Stages.head (W (Proc.devRef .tc main_arg0)) (W (Proc.devRef .tc main_arg3)) (W (Proc.devRef .tc main_arg4)) (W (Proc.devRef .tc main_arg5))
          (W (Proc.devRef .tc main_arg6)) (W (Proc.devRef .tc main_arg7)) (W (Proc.devRef .tc main_arg8)) (W (Proc.devRef .tc main_arg9)))
        (Cert.Stages.srcIdx (W (Proc.devRef .tc main_arg1))) (Cert.Stages.dstIdx (W (Proc.devRef .tc main_arg1))) := by
  after_results_simp
  rfl

theorem src (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v26) = Cert.Stages.srcIdx (W (Proc.devRef .tc main_arg1)) := by
  after_results_simp
  rfl

theorem dst (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v28) = Cert.Stages.dstIdx (W (Proc.devRef .tc main_arg1)) := by
  after_results_simp
  rfl

theorem w1 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v43) = Cert.Stages.paramW0 (W (Proc.devRef .tc main_arg10)) := by
  after_results_simp
  rfl

theorem w2 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v48) = Cert.Stages.paramW0 (W (Proc.devRef .tc main_arg12)) := by
  after_results_simp
  rfl

theorem b1 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v46)
      = shapeCast S1x128 (Cert.Stages.paramV0 (W (Proc.devRef .tc main_arg11))) Facts₀.shapeCasts_S128_S1x128 := by
  after_results_simp
  rfl

theorem b2 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v51)
      = shapeCast S1x128 (Cert.Stages.paramV0 (W (Proc.devRef .tc main_arg13))) Facts₀.shapeCasts_S128_S1x128 := by
  after_results_simp
  rfl

theorem g (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v54)
      = shapeCast S1x128 (Cert.Stages.paramV0 (W (Proc.devRef .tc main_arg14))) Facts₀.shapeCasts_S128_S1x128 := by
  after_results_simp
  rfl

theorem be (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v57)
      = shapeCast S1x128 (Cert.Stages.paramV0 (W (Proc.devRef .tc main_arg15))) Facts₀.shapeCasts_S128_S1x128 := by
  after_results_simp
  rfl

theorem mu (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v60)
      = shapeCast S1x128 (Cert.Stages.paramV0 (W (Proc.devRef .tc main_arg16))) Facts₀.shapeCasts_S128_S1x128 := by
  after_results_simp
  rfl

theorem var (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_v63)
      = shapeCast S1x128 (Cert.Stages.paramV0 (W (Proc.devRef .tc main_arg17))) Facts₀.shapeCasts_S128_S1x128 := by
  after_results_simp
  rfl

theorem keep_arg2 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_arg2) = W (Proc.devRef .tc main_arg2) := by
  after_results_simp

theorem keep_arg10 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_arg10) = W (Proc.devRef .tc main_arg10) := by
  after_results_simp

theorem keep_arg11 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_arg11) = W (Proc.devRef .tc main_arg11) := by
  after_results_simp

theorem keep_arg12 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_arg12) = W (Proc.devRef .tc main_arg12) := by
  after_results_simp

theorem keep_arg13 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_arg13) = W (Proc.devRef .tc main_arg13) := by
  after_results_simp

theorem keep_arg14 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_arg14) = W (Proc.devRef .tc main_arg14) := by
  after_results_simp

theorem keep_arg15 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_arg15) = W (Proc.devRef .tc main_arg15) := by
  after_results_simp

theorem keep_arg16 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_arg16) = W (Proc.devRef .tc main_arg16) := by
  after_results_simp

theorem keep_arg17 (W : Valuation τ sig (Elt Ideal)) :
    after (hostOps0_4 (F := Ideal)) (after (hostOps0_3 (F := Ideal)) (after (hostOps0_2 (F := Ideal)) (after (hostOps0_1 (F := Ideal)) (after (hostOps0 (F := Ideal)) W)))) (Proc.devRef .tc main_arg17) = W (Proc.devRef .tc main_arg17) := by
  after_results_simp

end Cert.KernelIdeal.KS0

end
-- ==== Proof.KS1.lean ====
import proofs.«112971_j66340064854633_1_alg».proof.Proof.Gen.KernelIdeal.Launch
import proofs.«112971_j66340064854633_1_alg».proof.Proof.Gen.ReferenceIdeal
import proofs.«112971_j66340064854633_1_alg».proof.Proof.Stages
import Idealize.ShloMosaic.Lib.StableHlo.Run

set_option maxRecDepth 16384

noncomputable section

namespace Cert.KernelIdeal.KS1

open Cert.KernelIdeal Cert.KernelIdeal.Gen Idealize.ShloMosaic Idealize.ShloMosaic.TcCoe Idealize.SL.Sem Idealize.ShloMosaic.StableHlo

/-! The stretch of host operations before region 1, read at the buffers the region and the later stretches use, from
    ANY contents `W`: the aggregation of the previous block's features, the block's parameter slices, and the buffers
    the stretch does not write. -/

set_option maxHeartbeats 1000000 in
theorem agg (W : Valuation τ sig (Elt Ideal)) :
    after (hostOps1 (F := Ideal)) W (Proc.devRef .tc main_v77)
      = Cert.Stages.aggF (W (Proc.devRef .tc main_v64)) (W (Proc.devRef .tc main_v26)) (W (Proc.devRef .tc main_v28)) := by
  after_results_simp
  rfl

theorem w1 (W : Valuation τ sig (Elt Ideal)) :
    after (hostOps1 (F := Ideal)) W (Proc.devRef .tc main_v79) = Cert.Stages.paramW1 (W (Proc.devRef .tc main_arg10)) := by
  after_results_simp
  rfl

theorem w2 (W : Valuation τ sig (Elt Ideal)) :
    after (hostOps1 (F := Ideal)) W (Proc.devRef .tc main_v84) = Cert.Stages.paramW1 (W (Proc.devRef .tc main_arg12)) := by
  after_results_simp
  rfl

theorem b1 (W : Valuation τ sig (Elt Ideal)) :
    after (hostOps1 (F := Ideal)) W (Proc.devRef .tc main_v82)
      = shapeCast S1x128 (Cert.Stages.paramV1 (W (Proc.devRef .tc main_arg11))) Facts₀.shapeCasts_S128_S1x128 := by
  after_results_simp
  rfl

theorem b2 (W : Valuation τ sig (Elt Ideal)) :
    after (hostOps1 (F := Ideal)) W (Proc.devRef .tc main_v87)
      = shapeCast S1x128 (Cert.Stages.paramV1 (W (Proc.devRef .tc main_arg13))) Facts₀.shapeCasts_S128_S1x128 := by
  after_results_simp
  rfl

theorem g (W : Valuation τ sig (Elt Ideal)) :
    after (hostOps1 (F := Ideal)) W (Proc.devRef .tc main_v90)
      = shapeCast S1x128 (Cert.Stages.paramV1 (W (Proc.devRef .tc main_arg14))) Facts₀.shapeCasts_S128_S1x128 := by
  after_results_simp
  rfl

theorem be (W : Valuation τ sig (Elt Ideal)) :
    after (hostOps1 (F := Ideal)) W (Proc.devRef .tc main_v93)
      = shapeCast S1x128 (Cert.Stages.paramV1 (W (Proc.devRef .tc main_arg15))) Facts₀.shapeCasts_S128_S1x128 := by
  after_results_simp
  rfl

theorem mu (W : Valuation τ sig (Elt Ideal)) :
    after (hostOps1 (F := Ideal)) W (Proc.devRef .tc main_v96)
      = shapeCast S1x128 (Cert.Stages.paramV1 (W (Proc.devRef .tc main_arg16))) Facts₀.shapeCasts_S128_S1x128 := by
  after_results_simp
  rfl

theorem var (W : Valuation τ sig (Elt Ideal)) :
    after (hostOps1 (F := Ideal)) W (Proc.devRef .tc main_v99)
      = shapeCast S1x128 (Cert.Stages.paramV1 (W (Proc.devRef .tc main_arg17))) Facts₀.shapeCasts_S128_S1x128 := by
  after_results_simp
  rfl

theorem keep_v26 (W : Valuation τ sig (Elt Ideal)) :
    after (hostOps1 (F := Ideal)) W (Proc.devRef .tc main_v26) = W (Proc.devRef .tc main_v26) := by
  after_results_simp

theorem keep_v28 (W : Valuation τ sig (Elt Ideal)) :
    after (hostOps1 (F := Ideal)) W (Proc.devRef .tc main_v28) = W (Proc.devRef .tc main_v28) := by
  after_results_simp

theorem keep_arg2 (W : Valuation τ sig (Elt Ideal)) :
    after (hostOps1 (F := Ideal)) W (Proc.devRef .tc main_arg2) = W (Proc.devRef .tc main_arg2) := by
  after_results_simp

theorem keep_arg10 (W : Valuation τ sig (Elt Ideal)) :
    after (hostOps1 (F := Ideal)) W (Proc.devRef .tc main_arg10) = W (Proc.devRef .tc main_arg10) := by
  after_results_simp

theorem keep_arg11 (W : Valuation τ sig (Elt Ideal)) :
    after (hostOps1 (F := Ideal)) W (Proc.devRef .tc main_arg11) = W (Proc.devRef .tc main_arg11) := by
  after_results_simp

theorem keep_arg12 (W : Valuation τ sig (Elt Ideal)) :
    after (hostOps1 (F := Ideal)) W (Proc.devRef .tc main_arg12) = W (Proc.devRef .tc main_arg12) := by
  after_results_simp

theorem keep_arg13 (W : Valuation τ sig (Elt Ideal)) :
    after (hostOps1 (F := Ideal)) W (Proc.devRef .tc main_arg13) = W (Proc.devRef .tc main_arg13) := by
  after_results_simp

theorem keep_arg14 (W : Valuation τ sig (Elt Ideal)) :
    after (hostOps1 (F := Ideal)) W (Proc.devRef .tc main_arg14) = W (Proc.devRef .tc main_arg14) := by
  after_results_simp

theorem keep_arg15 (W : Valuation τ sig (Elt Ideal)) :
    after (hostOps1 (F := Ideal)) W (Proc.devRef .tc main_arg15) = W (Proc.devRef .tc main_arg15) := by
  after_results_simp

theorem keep_arg16 (W : Valuation τ sig (Elt Ideal)) :
    after (hostOps1 (F := Ideal)) W (Proc.devRef .tc main_arg16) = W (Proc.devRef .tc main_arg16) := by
  after_results_simp

theorem keep_arg17 (W : Valuation τ sig (Elt Ideal)) :
    after (hostOps1 (F := Ideal)) W (Proc.devRef .tc main_arg17) = W (Proc.devRef .tc main_arg17) := by
  after_results_simp

end Cert.KernelIdeal.KS1

end
-- ==== Proof.KS2.lean ====
import proofs.«112971_j66340064854633_1_alg».proof.Proof.Gen.KernelIdeal.Launch
import proofs.«112971_j66340064854633_1_alg».proof.Proof.Gen.ReferenceIdeal
import proofs.«112971_j66340064854633_1_alg».proof.Proof.Stages
import Idealize.ShloMosaic.Lib.StableHlo.Run

set_option maxRecDepth 16384

noncomputable section

namespace Cert.KernelIdeal.KS2

open Cert.KernelIdeal Cert.KernelIdeal.Gen Idealize.ShloMosaic Idealize.ShloMosaic.TcCoe Idealize.SL.Sem Idealize.ShloMosaic.StableHlo

/-! The stretch of host operations before region 2, read at the buffers the region and the later stretches use, from
    ANY contents `W`: the aggregation of the previous block's features, the block's parameter slices, and the buffers
    the stretch does not write. -/

set_option maxHeartbeats 1000000 in
theorem agg (W : Valuation τ sig (Elt Ideal)) :
    after (hostOps2 (F := Ideal)) W (Proc.devRef .tc main_v113)
      = Cert.Stages.aggF (W (Proc.devRef .tc main_v100)) (W (Proc.devRef .tc main_v26)) (W (Proc.devRef .tc main_v28)) := by
  after_results_simp
  rfl

theorem w1 (W : Valuation τ sig (Elt Ideal)) :
    after (hostOps2 (F := Ideal)) W (Proc.devRef .tc main_v115) = Cert.Stages.paramW2 (W (Proc.devRef .tc main_arg10)) := by
  after_results_simp
  rfl

theorem w2 (W : Valuation τ sig (Elt Ideal)) :
    after (hostOps2 (F := Ideal)) W (Proc.devRef .tc main_v120) = Cert.Stages.paramW2 (W (Proc.devRef .tc main_arg12)) := by
  after_results_simp
  rfl

theorem b1 (W : Valuation τ sig (Elt Ideal)) :
    after (hostOps2 (F := Ideal)) W (Proc.devRef .tc main_v118)
      = shapeCast S1x128 (Cert.Stages.paramV2 (W (Proc.devRef .tc main_arg11))) Facts₀.shapeCasts_S128_S1x128 := by
  after_results_simp
  rfl

theorem b2 (W : Valuation τ sig (Elt Ideal)) :
    after (hostOps2 (F := Ideal)) W (Proc.devRef .tc main_v123)
      = shapeCast S1x128 (Cert.Stages.paramV2 (W (Proc.devRef .tc main_arg13))) Facts₀.shapeCasts_S128_S1x128 := by
  after_results_simp
  rfl

theorem g (W : Valuation τ sig (Elt Ideal)) :
    after (hostOps2 (F := Ideal)) W (Proc.devRef .tc main_v126)
      = shapeCast S1x128 (Cert.Stages.paramV2 (W (Proc.devRef .tc main_arg14))) Facts₀.shapeCasts_S128_S1x128 := by
  after_results_simp
  rfl

theorem be (W : Valuation τ sig (Elt Ideal)) :
    after (hostOps2 (F := Ideal)) W (Proc.devRef .tc main_v129)
      = shapeCast S1x128 (Cert.Stages.paramV2 (W (Proc.devRef .tc main_arg15))) Facts₀.shapeCasts_S128_S1x128 := by
  after_results_simp
  rfl

theorem mu (W : Valuation τ sig (Elt Ideal)) :
    after (hostOps2 (F := Ideal)) W (Proc.devRef .tc main_v132)
      = shapeCast S1x128 (Cert.Stages.paramV2 (W (Proc.devRef .tc main_arg16))) Facts₀.shapeCasts_S128_S1x128 := by
  after_results_simp
  rfl

theorem var (W : Valuation τ sig (Elt Ideal)) :
    after (hostOps2 (F := Ideal)) W (Proc.devRef .tc main_v135)
      = shapeCast S1x128 (Cert.Stages.paramV2 (W (Proc.devRef .tc main_arg17))) Facts₀.shapeCasts_S128_S1x128 := by
  after_results_simp
  rfl

theorem keep_v26 (W : Valuation τ sig (Elt Ideal)) :
    after (hostOps2 (F := Ideal)) W (Proc.devRef .tc main_v26) = W (Proc.devRef .tc main_v26) := by
  after_results_simp

theorem keep_v28 (W : Valuation τ sig (Elt Ideal)) :
    after (hostOps2 (F := Ideal)) W (Proc.devRef .tc main_v28) = W (Proc.devRef .tc main_v28) := by
  after_results_simp

theorem keep_arg2 (W : Valuation τ sig (Elt Ideal)) :
    after (hostOps2 (F := Ideal)) W (Proc.devRef .tc main_arg2) = W (Proc.devRef .tc main_arg2) := by
  after_results_simp

theorem keep_arg10 (W : Valuation τ sig (Elt Ideal)) :
    after (hostOps2 (F := Ideal)) W (Proc.devRef .tc main_arg10) = W (Proc.devRef .tc main_arg10) := by
  after_results_simp

theorem keep_arg11 (W : Valuation τ sig (Elt Ideal)) :
    after (hostOps2 (F := Ideal)) W (Proc.devRef .tc main_arg11) = W (Proc.devRef .tc main_arg11) := by
  after_results_simp

theorem keep_arg12 (W : Valuation τ sig (Elt Ideal)) :
    after (hostOps2 (F := Ideal)) W (Proc.devRef .tc main_arg12) = W (Proc.devRef .tc main_arg12) := by
  after_results_simp

theorem keep_arg13 (W : Valuation τ sig (Elt Ideal)) :
    after (hostOps2 (F := Ideal)) W (Proc.devRef .tc main_arg13) = W (Proc.devRef .tc main_arg13) := by
  after_results_simp

theorem keep_arg14 (W : Valuation τ sig (Elt Ideal)) :
    after (hostOps2 (F := Ideal)) W (Proc.devRef .tc main_arg14) = W (Proc.devRef .tc main_arg14) := by
  after_results_simp

theorem keep_arg15 (W : Valuation τ sig (Elt Ideal)) :
    after (hostOps2 (F := Ideal)) W (Proc.devRef .tc main_arg15) = W (Proc.devRef .tc main_arg15) := by
  after_results_simp

theorem keep_arg16 (W : Valuation τ sig (Elt Ideal)) :
    after (hostOps2 (F := Ideal)) W (Proc.devRef .tc main_arg16) = W (Proc.devRef .tc main_arg16) := by
  after_results_simp

theorem keep_arg17 (W : Valuation τ sig (Elt Ideal)) :
    after (hostOps2 (F := Ideal)) W (Proc.devRef .tc main_arg17) = W (Proc.devRef .tc main_arg17) := by
  after_results_simp

end Cert.KernelIdeal.KS2

end
-- ==== Proof.KS3.lean ====
import proofs.«112971_j66340064854633_1_alg».proof.Proof.Gen.KernelIdeal.Launch
import proofs.«112971_j66340064854633_1_alg».proof.Proof.Gen.ReferenceIdeal
import proofs.«112971_j66340064854633_1_alg».proof.Proof.Stages
import Idealize.ShloMosaic.Lib.StableHlo.Run

set_option maxRecDepth 16384

noncomputable section

namespace Cert.KernelIdeal.KS3

open Cert.KernelIdeal Cert.KernelIdeal.Gen Idealize.ShloMosaic Idealize.ShloMosaic.TcCoe Idealize.SL.Sem Idealize.ShloMosaic.StableHlo

/-! The stretch of host operations before region 3, read at the buffers the region and the later stretches use, from
    ANY contents `W`: the aggregation of the previous block's features, the block's parameter slices, and the buffers
    the stretch does not write. -/

set_option maxHeartbeats 1000000 in
theorem agg (W : Valuation τ sig (Elt Ideal)) :
    after (hostOps3 (F := Ideal)) W (Proc.devRef .tc main_v149)
      = Cert.Stages.aggF (W (Proc.devRef .tc main_v136)) (W (Proc.devRef .tc main_v26)) (W (Proc.devRef .tc main_v28)) := by
  after_results_simp
  rfl

theorem w1 (W : Valuation τ sig (Elt Ideal)) :
    after (hostOps3 (F := Ideal)) W (Proc.devRef .tc main_v151) = Cert.Stages.paramW3 (W (Proc.devRef .tc main_arg10)) := by
  after_results_simp
  rfl

theorem w2 (W : Valuation τ sig (Elt Ideal)) :
    after (hostOps3 (F := Ideal)) W (Proc.devRef .tc main_v156) = Cert.Stages.paramW3 (W (Proc.devRef .tc main_arg12)) := by
  after_results_simp
  rfl

theorem b1 (W : Valuation τ sig (Elt Ideal)) :
    after (hostOps3 (F := Ideal)) W (Proc.devRef .tc main_v154)
      = shapeCast S1x128 (Cert.Stages.paramV3 (W (Proc.devRef .tc main_arg11))) Facts₀.shapeCasts_S128_S1x128 := by
  after_results_simp
  rfl

theorem b2 (W : Valuation τ sig (Elt Ideal)) :
    after (hostOps3 (F := Ideal)) W (Proc.devRef .tc main_v159)
      = shapeCast S1x128 (Cert.Stages.paramV3 (W (Proc.devRef .tc main_arg13))) Facts₀.shapeCasts_S128_S1x128 := by
  after_results_simp
  rfl

theorem g (W : Valuation τ sig (Elt Ideal)) :
    after (hostOps3 (F := Ideal)) W (Proc.devRef .tc main_v162)
      = shapeCast S1x128 (Cert.Stages.paramV3 (W (Proc.devRef .tc main_arg14))) Facts₀.shapeCasts_S128_S1x128 := by
  after_results_simp
  rfl

theorem be (W : Valuation τ sig (Elt Ideal)) :
    after (hostOps3 (F := Ideal)) W (Proc.devRef .tc main_v165)
      = shapeCast S1x128 (Cert.Stages.paramV3 (W (Proc.devRef .tc main_arg15))) Facts₀.shapeCasts_S128_S1x128 := by
  after_results_simp
  rfl

theorem mu (W : Valuation τ sig (Elt Ideal)) :
    after (hostOps3 (F := Ideal)) W (Proc.devRef .tc main_v168)
      = shapeCast S1x128 (Cert.Stages.paramV3 (W (Proc.devRef .tc main_arg16))) Facts₀.shapeCasts_S128_S1x128 := by
  after_results_simp
  rfl

theorem var (W : Valuation τ sig (Elt Ideal)) :
    after (hostOps3 (F := Ideal)) W (Proc.devRef .tc main_v171)
      = shapeCast S1x128 (Cert.Stages.paramV3 (W (Proc.devRef .tc main_arg17))) Facts₀.shapeCasts_S128_S1x128 := by
  after_results_simp
  rfl

theorem keep_v26 (W : Valuation τ sig (Elt Ideal)) :
    after (hostOps3 (F := Ideal)) W (Proc.devRef .tc main_v26) = W (Proc.devRef .tc main_v26) := by
  after_results_simp

theorem keep_v28 (W : Valuation τ sig (Elt Ideal)) :
    after (hostOps3 (F := Ideal)) W (Proc.devRef .tc main_v28) = W (Proc.devRef .tc main_v28) := by
  after_results_simp

theorem keep_arg2 (W : Valuation τ sig (Elt Ideal)) :
    after (hostOps3 (F := Ideal)) W (Proc.devRef .tc main_arg2) = W (Proc.devRef .tc main_arg2) := by
  after_results_simp

theorem keep_arg10 (W : Valuation τ sig (Elt Ideal)) :
    after (hostOps3 (F := Ideal)) W (Proc.devRef .tc main_arg10) = W (Proc.devRef .tc main_arg10) := by
  after_results_simp

theorem keep_arg11 (W : Valuation τ sig (Elt Ideal)) :
    after (hostOps3 (F := Ideal)) W (Proc.devRef .tc main_arg11) = W (Proc.devRef .tc main_arg11) := by
  after_results_simp

theorem keep_arg12 (W : Valuation τ sig (Elt Ideal)) :
    after (hostOps3 (F := Ideal)) W (Proc.devRef .tc main_arg12) = W (Proc.devRef .tc main_arg12) := by
  after_results_simp

theorem keep_arg13 (W : Valuation τ sig (Elt Ideal)) :
    after (hostOps3 (F := Ideal)) W (Proc.devRef .tc main_arg13) = W (Proc.devRef .tc main_arg13) := by
  after_results_simp

theorem keep_arg14 (W : Valuation τ sig (Elt Ideal)) :
    after (hostOps3 (F := Ideal)) W (Proc.devRef .tc main_arg14) = W (Proc.devRef .tc main_arg14) := by
  after_results_simp

theorem keep_arg15 (W : Valuation τ sig (Elt Ideal)) :
    after (hostOps3 (F := Ideal)) W (Proc.devRef .tc main_arg15) = W (Proc.devRef .tc main_arg15) := by
  after_results_simp

theorem keep_arg16 (W : Valuation τ sig (Elt Ideal)) :
    after (hostOps3 (F := Ideal)) W (Proc.devRef .tc main_arg16) = W (Proc.devRef .tc main_arg16) := by
  after_results_simp

theorem keep_arg17 (W : Valuation τ sig (Elt Ideal)) :
    after (hostOps3 (F := Ideal)) W (Proc.devRef .tc main_arg17) = W (Proc.devRef .tc main_arg17) := by
  after_results_simp

end Cert.KernelIdeal.KS3

end
-- ==== Proof.KS4.lean ====
import proofs.«112971_j66340064854633_1_alg».proof.Proof.Gen.KernelIdeal.Launch
import proofs.«112971_j66340064854633_1_alg».proof.Proof.Gen.ReferenceIdeal
import proofs.«112971_j66340064854633_1_alg».proof.Proof.Stages
import Idealize.ShloMosaic.Lib.StableHlo.Run

set_option maxRecDepth 16384

noncomputable section

namespace Cert.KernelIdeal.KS4

open Cert.KernelIdeal Cert.KernelIdeal.Gen Idealize.ShloMosaic Idealize.ShloMosaic.TcCoe Idealize.SL.Sem Idealize.ShloMosaic.StableHlo

/-! The host operations after the last region, from ANY contents `W`: the pooled mean of the last block's node features,
    which the stretch itself leaves untouched. -/

theorem out0 (W : Valuation τ sig (Elt Ideal)) :
    after (hostOps4 (F := Ideal)) W (Proc.devRef .tc main_v183) = Cert.Stages.tailF (W (Proc.devRef .tc main_v172)) (W (Proc.devRef .tc main_arg2)) := by
  after_results_simp
  rfl

theorem keep_v172 (W : Valuation τ sig (Elt Ideal)) :
    after (hostOps4 (F := Ideal)) W (Proc.devRef .tc main_v172) = W (Proc.devRef .tc main_v172) := by
  after_results_simp

end Cert.KernelIdeal.KS4

end
-- ==== Proof.LayerAt.lean ====
/-
  One GIN block's dense stage, entry by entry.

  `layerAt` is the value of the stage at channel `j` of one node, as a function of that node's row of aggregated
  features, the two weight matrices and the per-channel vectors:
  `max ((∑ k, max (∑ l, a l · W₁ l k + b₁ k) 0 · W₂ k j + b₂ j − mean j) · (gamma j · rsqrt (var j + ε)) + beta j) 0`.
  This module proves that the whole-array function `layerHost` read at node `i`, channel `j` is `layerAt` of row `i`:
  a product of matrices at an index is the sum over the contracted axis, a per-channel vector repeated along the nodes
  reads its channel, and the remaining operations act entry by entry.
-/
import proofs.«112971_j66340064854633_1_alg».proof.Proof.Stages
import Idealize.ShloMosaic.Lib.ValueIdx
import Idealize.ShloMosaic.Lib.ValueLayout
import Idealize.ShloMosaic.PureOps.Ideal.Laws

noncomputable section

open scoped BigOperators

namespace Cert.Stages

open Idealize.ShloMosaic Idealize.ShloMosaic.ValueIdx Cert.ReferenceIdeal

/-- The f32 zero, as an extended real. -/
abbrev zeroE : EReal := Ideal.ofBits .f32 0x00000000#32
/-- The f32 nearest `1e-5`, as an extended real. -/
abbrev epsE : EReal := Ideal.ofBits .f32 0x3727C5AC#32

/-- The hidden activation at channel `k`: `max (∑ l, a l · W₁ l k + b₁ k) 0`. -/
def hiddenAt (a : Fin 128 → EReal) (w1 : Fin 128 → Fin 128 → EReal) (b1 : Fin 128 → EReal) (k : Fin 128) : EReal :=
  max ((∑ l : Fin 128, a l * w1 l k) + b1 k) zeroE

/-- The stage's output at channel `j` of a node whose aggregated features are the row `a`. -/
def layerAt (a : Fin 128 → EReal) (w1 w2 : Fin 128 → Fin 128 → EReal) (b1 b2 g be mu var : Fin 128 → EReal) (j : Fin 128) : EReal :=
  max (((((∑ k : Fin 128, hiddenAt a w1 b1 k * w2 k j) + b2 j) - mu j) * (g j * Ideal.rsqrt (var j + epsE))) + be j) zeroE

/-- Two rank-2 indices with equal coordinates are equal. -/
theorem ext2 {n0 n1 : Nat} (x y : (⟨2, ![n0, n1]⟩ : Shape).Idx) (h0 : (x 0).val = (y 0).val) (h1 : (x 1).val = (y 1).val) :
    x = y :=
  funext fun a => Fin.ext (match a with | ⟨0, _⟩ => h0 | ⟨1, _⟩ => h1)

/-- `layerAt` depends on its arguments only through their values. -/
theorem layerAt_congr {a a' : Fin 128 → EReal} {w1 w1' w2 w2' : Fin 128 → Fin 128 → EReal}
    {b1 b1' b2 b2' g g' be be' mu mu' var var' : Fin 128 → EReal}
    (ha : ∀ l, a l = a' l) (hw1 : ∀ l k, w1 l k = w1' l k) (hw2 : ∀ l k, w2 l k = w2' l k) (hb1 : ∀ k, b1 k = b1' k)
    (hb2 : ∀ k, b2 k = b2' k) (hg : ∀ k, g k = g' k) (hbe : ∀ k, be k = be' k) (hmu : ∀ k, mu k = mu' k)
    (hvar : ∀ k, var k = var' k) (j : Fin 128) :
    layerAt a w1 w2 b1 b2 g be mu var j = layerAt a' w1' w2' b1' b2' g' be' mu' var' j := by
  rw [funext ha, funext fun l => funext (hw1 l), funext fun l => funext (hw2 l), funext hb1, funext hb2, funext hg,
    funext hbe, funext hmu, funext hvar]

variable [Cert.ReferenceIdeal.Facts]

/-- A per-channel vector repeated along the nodes reads its channel. -/
theorem rows_apply (v : A S128) (i : Fin 50000) (j : Fin 128) : rows v (ix2 i j) = v (ix1 j) := by
  unfold rows
  refine (broadcastInDim_apply _ _ _ (ix2 i j) (ix2 (0 : Fin 1) j) fun ax => ?_).trans ?_
  · match ax with
    | ⟨0, _⟩ => rfl
    | ⟨1, _⟩ => rfl
  · refine broadcastInDim_apply _ _ _ (ix2 (0 : Fin 1) j) (ix1 j) fun ax => ?_
    match ax with
    | ⟨0, _⟩ => rfl

/-- `relu` at an entry. -/
theorem relu_apply (x : A S50000x128) (y : S50000x128.Idx) : relu x y = max (x y) zeroE := rfl

/-- The left operand's index of the [50000,128] × [128,128] product at output `(i, j)`, contraction position `l`: `(i, l)`. -/
theorem dotH_lhs (i : Fin 50000) (j l : Fin 128) :
    dot_S50000x128_S128x128_S50000x128_1_0_0_1_n_n.lhsIdx (ix2 i j)
      ((contrEquiv1 dot_S50000x128_S128x128_S50000x128_1_0_0_1_n_n 128 rfl rfl).symm l) = ix2 i l := by
  refine ext2 _ _ ?_ ?_
  · simp [DotDims.lhsIdx, dot_S50000x128_S128x128_S50000x128_1_0_0_1_n_n]; rfl
  · rw [dot_S50000x128_S128x128_S50000x128_1_0_0_1_n_n.lhsIdx_val_of_single (cl := 1) rfl]
    exact contrEquiv1_symm_val _ 128 rfl rfl l

/-- The right operand's index there: `(l, j)`. -/
theorem dotH_rhs (i : Fin 50000) (j l : Fin 128) :
    dot_S50000x128_S128x128_S50000x128_1_0_0_1_n_n.rhsIdx (ix2 i j)
      ((contrEquiv1 dot_S50000x128_S128x128_S50000x128_1_0_0_1_n_n 128 rfl rfl).symm l) = ix2 l j := by
  refine ext2 _ _ ?_ ?_
  · rw [dot_S50000x128_S128x128_S50000x128_1_0_0_1_n_n.rhsIdx_val_of_single (cr := 0) rfl]
    exact contrEquiv1_symm_val _ 128 rfl rfl l
  · simp [DotDims.rhsIdx, dot_S50000x128_S128x128_S50000x128_1_0_0_1_n_n]; rfl

/-- The product of node features and a weight matrix at node `i`, channel `j`. -/
theorem mm_apply (x : A S50000x128) (w : A S128x128) (i : Fin 50000) (j : Fin 128) :
    mm x w (ix2 i j) = ∑ l : Fin 128, x (ix2 i l) * w (ix2 l j) := by
  unfold mm
  simp only [Host.dotGeneral]
  rw [Ideal.dotGeneral_apply]
  rw [← Equiv.sum_comp (contrEquiv1 dot_S50000x128_S128x128_S50000x128_1_0_0_1_n_n 128 rfl rfl).symm]
  refine Finset.sum_congr rfl fun l _ => ?_
  rw [dotH_lhs, dotH_rhs]

/-- The batch-norm scale at channel `j`. -/
theorem bnScale_apply (g var : A S128) (j : Fin 128) :
    bnScale g var (ix1 j) = g (ix1 j) * Ideal.rsqrt (var (ix1 j) + epsE) := rfl

/-- The hidden activation of node `i` at channel `k`, read off the whole arrays. -/
theorem hidden_apply (agg : A S50000x128) (w1 : A S128x128) (b1 : A S128) (i : Fin 50000) (k : Fin 128) :
    relu (addf (mm agg w1) (rows b1)) (ix2 i k)
      = hiddenAt (fun l => agg (ix2 i l)) (fun l k => w1 (ix2 l k)) (fun k => b1 (ix1 k)) k := by
  rw [relu_apply]
  show max (mm agg w1 (ix2 i k) + rows b1 (ix2 i k)) zeroE = _
  rw [mm_apply, rows_apply]
  rfl

/-- THE WHOLE-ARRAY STAGE AT AN ENTRY: `layerHost` at node `i`, channel `j` is `layerAt` of row `i` of the aggregated
    features, the weights and the per-channel vectors read entry by entry. -/
theorem layerHost_apply (agg : A S50000x128) (w1 : A S128x128) (b1 : A S128) (w2 : A S128x128) (b2 g be mu var : A S128)
    (i : Fin 50000) (j : Fin 128) :
    layerHost agg w1 b1 w2 b2 g be mu var (ix2 i j)
      = layerAt (fun l => agg (ix2 i l)) (fun l k => w1 (ix2 l k)) (fun l k => w2 (ix2 l k)) (fun k => b1 (ix1 k))
          (fun k => b2 (ix1 k)) (fun k => g (ix1 k)) (fun k => be (ix1 k)) (fun k => mu (ix1 k)) (fun k => var (ix1 k)) j := by
  unfold layerHost layerAt
  rw [relu_apply]
  show max ((((mm (relu (addf (mm agg w1) (rows b1))) w2 (ix2 i j) + rows b2 (ix2 i j)) - rows mu (ix2 i j))
      * rows (bnScale g var) (ix2 i j)) + rows be (ix2 i j)) zeroE = _
  rw [mm_apply, rows_apply, rows_apply, rows_apply, rows_apply, bnScale_apply]
  refine congrArg (fun s : EReal => max ((((s + b2 (ix1 j)) - mu (ix1 j)) * (g (ix1 j) * Ideal.rsqrt (var (ix1 j) + epsE)))
      + be (ix1 j)) zeroE) ?_
  refine Finset.sum_congr rfl fun k _ => ?_
  rw [hidden_apply]

end Cert.Stages

end
-- ==== Proof.Pay.lean ====
/-
  The kernel body's arithmetic, entry by entry.

  Each of the four regions runs the same body: its stored value is one pure term of the blocks it loads (the node block
  `x0`, the weights `x1`, `x3`, and the one-row per-channel vectors `x2`, `x4` … `x8`). This module proves that the
  term read at row `p`, channel `q` of the block is `layerAt` of row `p` of `x0`: the matrix unit's product into a zero
  accumulator is the sum over the contracted axis, a one-row vector broadcast over the rows reads its channel, and
  rounding to a narrower format is the identity on exact values.
-/
import proofs.«112971_j66340064854633_1_alg».proof.Proof.Gen.KernelIdeal.Skeleton
import proofs.«112971_j66340064854633_1_alg».proof.Proof.LayerAt

noncomputable section

open scoped BigOperators

namespace Cert.KernelIdeal.Pay

open Idealize.ShloMosaic Idealize.ShloMosaic.ValueIdx Cert.KernelIdeal Cert.KernelIdeal.Gen
open Cert.Stages (layerAt hiddenAt zeroE epsE ext2)

/-- The left operand's index of the [5000,128] × [128,128] product at output `(p, q)`, contraction position `l`: `(p, l)`. -/
theorem dotK_lhs (p : Fin 5000) (q l : Fin 128) :
    dot_S5000x128_S128x128_S5000x128_1_0_0_1_n_n.lhsIdx (ix2 p q)
      ((contrEquiv1 dot_S5000x128_S128x128_S5000x128_1_0_0_1_n_n 128 rfl rfl).symm l) = ix2 p l := by
  refine ext2 _ _ ?_ ?_
  · simp [DotDims.lhsIdx, dot_S5000x128_S128x128_S5000x128_1_0_0_1_n_n]; rfl
  · rw [dot_S5000x128_S128x128_S5000x128_1_0_0_1_n_n.lhsIdx_val_of_single (cl := 1) rfl]
    exact contrEquiv1_symm_val _ 128 rfl rfl l

/-- The right operand's index there: `(l, q)`. -/
theorem dotK_rhs (p : Fin 5000) (q l : Fin 128) :
    dot_S5000x128_S128x128_S5000x128_1_0_0_1_n_n.rhsIdx (ix2 p q)
      ((contrEquiv1 dot_S5000x128_S128x128_S5000x128_1_0_0_1_n_n 128 rfl rfl).symm l) = ix2 l q := by
  refine ext2 _ _ ?_ ?_
  · rw [dot_S5000x128_S128x128_S5000x128_1_0_0_1_n_n.rhsIdx_val_of_single (cr := 0) rfl]
    exact contrEquiv1_symm_val _ 128 rfl rfl l
  · simp [DotDims.rhsIdx, dot_S5000x128_S128x128_S5000x128_1_0_0_1_n_n]; rfl

/-- The matrix unit's product into the zero accumulator at row `p`, channel `q`: the sum over the contracted axis. -/
theorem mmK_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ l : Fin 128, x (ix2 p l) * w (ix2 l q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun l _ => ?_
  rw [dotK_lhs, dotK_rhs]

/-- A one-row vector broadcast over the block's rows reads its channel. -/
theorem rowB_apply (v : FVec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_1b_ab_apply v _ p q

/-- The body's hidden block: `max (x0 · x1 + rows x2) 0`, as the body computes it. -/
def hidK (x0 : Vec Ideal S5000x128 .f32) (x1 : Vec Ideal S128x128 .f32) (x2 : Vec Ideal S1x128 .f32) : FVec Ideal S5000x128 .f32 :=
  maximumf
    (addf
      (matmul dot_S5000x128_S128x128_S5000x128_1_0_0_1_n_n none
        (truncf .bf16 (shapeCast S5000x128 x0 shapeCasts_S5000x128_S5000x128) bitsLt_bf16_f32)
        (truncf .bf16 (shapeCast S128x128 x1 shapeCasts_S128x128_S128x128) bitsLt_bf16_f32)
        (constant (F := Ideal) S5000x128 .f32 0x00000000#32))
      (broadcastTo S5000x128 (shapeCast S1x128 x2 shapeCasts_S1x128_S1x128) broadcasts_S1x128_S5000x128))
    (broadcast S5000x128 (Scalar.ofBits (F := Ideal) .f32 0x00000000#32))

/-- The hidden block at row `p`, channel `k`. -/
theorem hidK_apply (x0 : Vec Ideal S5000x128 .f32) (x1 : Vec Ideal S128x128 .f32) (x2 : Vec Ideal S1x128 .f32)
    (p : Fin 5000) (k : Fin 128) :
    hidK x0 x1 x2 (ix2 p k)
      = hiddenAt (fun l => x0 (ix2 p l)) (fun l k => x1 (ix2 l k)) (fun k => x2 (ix2 (0 : Fin 1) k)) k := by
  unfold hidK hiddenAt
  show max (matmul dot_S5000x128_S128x128_S5000x128_1_0_0_1_n_n none
        (truncf .bf16 (shapeCast S5000x128 x0 shapeCasts_S5000x128_S5000x128) bitsLt_bf16_f32)
        (truncf .bf16 (shapeCast S128x128 x1 shapeCasts_S128x128_S128x128) bitsLt_bf16_f32)
        (constant (F := Ideal) S5000x128 .f32 0x00000000#32) (ix2 p k)
      + broadcastTo S5000x128 (shapeCast S1x128 x2 shapeCasts_S1x128_S1x128) broadcasts_S1x128_S5000x128 (ix2 p k)) zeroE = _
  rw [mmK_apply, rowB_apply]
  simp only [shapeCast_self]
  rfl

/-- THE BODY'S STORED VALUE AT AN ENTRY (region 0's payload names): `layerAt` of row `p` of the node block. The
    arguments are the blocks in window order: `x0` nodes, `x1`, `x3` weights, `x2`, `x4` biases, `x5` gamma, `x6` beta,
    `x7` mean, `x8` variance. -/
theorem pay0_apply (x0 : Vec Ideal S5000x128 .f32) (x1 : Vec Ideal S128x128 .f32) (x2 : Vec Ideal S1x128 .f32)
    (x3 : Vec Ideal S128x128 .f32) (x4 x5 x6 x7 x8 : Vec Ideal S1x128 .f32) (p : Fin 5000) (q : Fin 128) :
    k0_pay1 (k0_pay2 x0 x1 x2 x3 x4 x5 x8 x7) x6 (ix2 p q)
      = layerAt (fun l => x0 (ix2 p l)) (fun l k => x1 (ix2 l k)) (fun l k => x3 (ix2 l k))
          (fun k => x2 (ix2 (0 : Fin 1) k)) (fun k => x4 (ix2 (0 : Fin 1) k)) (fun k => x5 (ix2 (0 : Fin 1) k))
          (fun k => x6 (ix2 (0 : Fin 1) k)) (fun k => x7 (ix2 (0 : Fin 1) k)) (fun k => x8 (ix2 (0 : Fin 1) k)) q := by
  unfold layerAt
  show max ((((matmul dot_S5000x128_S128x128_S5000x128_1_0_0_1_n_n none
          (truncf .bf16 (hidK x0 x1 x2) bitsLt_bf16_f32)
          (truncf .bf16 (shapeCast S128x128 x3 shapeCasts_S128x128_S128x128) bitsLt_bf16_f32)
          (constant (F := Ideal) S5000x128 .f32 0x00000000#32) (ix2 p q)
        + broadcastTo S5000x128 (shapeCast S1x128 x4 shapeCasts_S1x128_S1x128) broadcasts_S1x128_S5000x128 (ix2 p q))
        - broadcastTo S5000x128 (shapeCast S1x128 x7 shapeCasts_S1x128_S1x128) broadcasts_S1x128_S5000x128 (ix2 p q))
        * broadcastTo S5000x128
            (mulf (shapeCast S1x128 x5 shapeCasts_S1x128_S1x128)
              (rsqrt (addf (shapeCast S1x128 x8 shapeCasts_S1x128_S1x128)
                (broadcast S1x128 (Scalar.ofBits (F := Ideal) .f32 0x3727C5AC#32)))))
            broadcasts_S1x128_S5000x128 (ix2 p q))
        + broadcastTo S5000x128 (shapeCast S1x128 x6 shapeCasts_S1x128_S1x128) broadcasts_S1x128_S5000x128 (ix2 p q)) zeroE = _
  rw [mmK_apply, rowB_apply, rowB_apply, rowB_apply, broadcastTo_1b_ab_apply]
  simp only [shapeCast_self]
  have hsum : (∑ l : Fin 128, truncf .bf16 (hidK x0 x1 x2) bitsLt_bf16_f32 (ix2 p l)
        * truncf .bf16 x3 bitsLt_bf16_f32 (ix2 l q))
      = ∑ k : Fin 128, hiddenAt (fun l => x0 (ix2 p l)) (fun l k => x1 (ix2 l k)) (fun k => x2 (ix2 (0 : Fin 1) k)) k
          * x3 (ix2 k q) :=
    Finset.sum_congr rfl fun k _ => by rw [← hidK_apply]; rfl
  rw [hsum]
  rfl

/-- The other regions' payloads are the same term under other names. -/
theorem pay1_eq (x0 : Vec Ideal S5000x128 .f32) (x1 : Vec Ideal S128x128 .f32) (x2 : Vec Ideal S1x128 .f32)
    (x3 : Vec Ideal S128x128 .f32) (x4 x5 x6 x7 x8 : Vec Ideal S1x128 .f32) :
    k1_pay1 (k1_pay2 x0 x1 x2 x3 x4 x5 x8 x7) x6 = k0_pay1 (k0_pay2 x0 x1 x2 x3 x4 x5 x8 x7) x6 := rfl
theorem pay2_eq (x0 : Vec Ideal S5000x128 .f32) (x1 : Vec Ideal S128x128 .f32) (x2 : Vec Ideal S1x128 .f32)
    (x3 : Vec Ideal S128x128 .f32) (x4 x5 x6 x7 x8 : Vec Ideal S1x128 .f32) :
    k2_pay1 (k2_pay2 x0 x1 x2 x3 x4 x5 x8 x7) x6 = k0_pay1 (k0_pay2 x0 x1 x2 x3 x4 x5 x8 x7) x6 := rfl
theorem pay3_eq (x0 : Vec Ideal S5000x128 .f32) (x1 : Vec Ideal S128x128 .f32) (x2 : Vec Ideal S1x128 .f32)
    (x3 : Vec Ideal S128x128 .f32) (x4 x5 x6 x7 x8 : Vec Ideal S1x128 .f32) :
    k3_pay1 (k3_pay2 x0 x1 x2 x3 x4 x5 x8 x7) x6 = k0_pay1 (k0_pay2 x0 x1 x2 x3 x4 x5 x8 x7) x6 := rfl

/-- Region 1's stored value at an entry. -/
theorem pay1_apply (x0 : Vec Ideal S5000x128 .f32) (x1 : Vec Ideal S128x128 .f32) (x2 : Vec Ideal S1x128 .f32)
    (x3 : Vec Ideal S128x128 .f32) (x4 x5 x6 x7 x8 : Vec Ideal S1x128 .f32) (p : Fin 5000) (q : Fin 128) :
    k1_pay1 (k1_pay2 x0 x1 x2 x3 x4 x5 x8 x7) x6 (ix2 p q)
      = layerAt (fun l => x0 (ix2 p l)) (fun l k => x1 (ix2 l k)) (fun l k => x3 (ix2 l k))
          (fun k => x2 (ix2 (0 : Fin 1) k)) (fun k => x4 (ix2 (0 : Fin 1) k)) (fun k => x5 (ix2 (0 : Fin 1) k))
          (fun k => x6 (ix2 (0 : Fin 1) k)) (fun k => x7 (ix2 (0 : Fin 1) k)) (fun k => x8 (ix2 (0 : Fin 1) k)) q :=
  (congrFun (pay1_eq x0 x1 x2 x3 x4 x5 x6 x7 x8) (ix2 p q)).trans (pay0_apply x0 x1 x2 x3 x4 x5 x6 x7 x8 p q)
/-- Region 2's stored value at an entry. -/
theorem pay2_apply (x0 : Vec Ideal S5000x128 .f32) (x1 : Vec Ideal S128x128 .f32) (x2 : Vec Ideal S1x128 .f32)
    (x3 : Vec Ideal S128x128 .f32) (x4 x5 x6 x7 x8 : Vec Ideal S1x128 .f32) (p : Fin 5000) (q : Fin 128) :
    k2_pay1 (k2_pay2 x0 x1 x2 x3 x4 x5 x8 x7) x6 (ix2 p q)
      = layerAt (fun l => x0 (ix2 p l)) (fun l k => x1 (ix2 l k)) (fun l k => x3 (ix2 l k))
          (fun k => x2 (ix2 (0 : Fin 1) k)) (fun k => x4 (ix2 (0 : Fin 1) k)) (fun k => x5 (ix2 (0 : Fin 1) k))
          (fun k => x6 (ix2 (0 : Fin 1) k)) (fun k => x7 (ix2 (0 : Fin 1) k)) (fun k => x8 (ix2 (0 : Fin 1) k)) q :=
  (congrFun (pay2_eq x0 x1 x2 x3 x4 x5 x6 x7 x8) (ix2 p q)).trans (pay0_apply x0 x1 x2 x3 x4 x5 x6 x7 x8 p q)
/-- Region 3's stored value at an entry. -/
theorem pay3_apply (x0 : Vec Ideal S5000x128 .f32) (x1 : Vec Ideal S128x128 .f32) (x2 : Vec Ideal S1x128 .f32)
    (x3 : Vec Ideal S128x128 .f32) (x4 x5 x6 x7 x8 : Vec Ideal S1x128 .f32) (p : Fin 5000) (q : Fin 128) :
    k3_pay1 (k3_pay2 x0 x1 x2 x3 x4 x5 x8 x7) x6 (ix2 p q)
      = layerAt (fun l => x0 (ix2 p l)) (fun l k => x1 (ix2 l k)) (fun l k => x3 (ix2 l k))
          (fun k => x2 (ix2 (0 : Fin 1) k)) (fun k => x4 (ix2 (0 : Fin 1) k)) (fun k => x5 (ix2 (0 : Fin 1) k))
          (fun k => x6 (ix2 (0 : Fin 1) k)) (fun k => x7 (ix2 (0 : Fin 1) k)) (fun k => x8 (ix2 (0 : Fin 1) k)) q :=
  (congrFun (pay3_eq x0 x1 x2 x3 x4 x5 x6 x7 x8) (ix2 p q)).trans (pay0_apply x0 x1 x2 x3 x4 x5 x6 x7 x8 p q)

end Cert.KernelIdeal.Pay

end
-- ==== Proof.Region0.lean ====
/-
  Region 0's output array is the dense stage of its input arrays.

  The region runs the body at ten grid points; point `t` loads rows `5000 t … 5000 t + 4999` of the node array and the
  whole of every other array, and writes back rows `5000 t … 5000 t + 4999` of the output. By the entry-by-entry value of
  the body's stored term (`layerAt` of the row) and of the whole-array function `layerHost` (`layerAt` of the same row),
  what point `t` writes back is block `t` of `layerHost` of the region-entry arrays; the ten blocks cover the output
  array, so the array ends holding `layerHost` of them.
-/
import proofs.«112971_j66340064854633_1_alg».proof.Proof.Gen.KernelIdeal.Frame
import proofs.«112971_j66340064854633_1_alg».proof.Proof.Pay
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.Stages (layerAt layerHost layerHost_apply)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node window and the output window are at block `(t, 0)` at point
    `t`; every other window is at block `(0, 0)`. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The grid has ten points. -/
theorem t_lt (t : Fin cfg0.N) : t.val < 10 := lt_of_lt_of_eq t.isLt N_0

/-- The node window's block at point `t` is rows `5000 t …` of its array. -/
theorem blk0_apply (c : Dev nD) (t : Fin cfg0.N) (p : Fin 5000) (l : Fin 128) (hb : 5000 * t.val + p.val < 50000) :
    (iblk0 V c 0 t : Vec Ideal S5000x128 .f32) (ix2 p l)
      = (V c (Pipeline.arrRef spec0 0) : S50000x128.Idx → Elt Ideal .f32) (ix2 ⟨5000 * t.val + p.val, hb⟩ l) := by
  have e0 : win0_0.index t (0 : Fin 2) = t.val := (idx_facts t).1
  have e1 : win0_0.index t (1 : Fin 2) = 0 := (idx_facts t).2.1
  unfold iblk0
  rw [View.read_apply]
  show V c (Pipeline.arrRef spec0 0) _ = V c (Pipeline.arrRef spec0 0) _
  refine congrArg (V c (Pipeline.arrRef spec0 0)) ?_
  funext a; apply Fin.ext
  match a with
  | ⟨0, _⟩ => show win0_0.index t (0 : Fin 2) * 5000 + 1 * p.val = 5000 * t.val + p.val; rw [e0]; omega
  | ⟨1, _⟩ => show win0_0.index t (1 : Fin 2) * 128 + 1 * l.val = l.val; rw [e1]; omega

/-- Window 1's block at every point is its whole array. -/
theorem blk1_apply (c : Dev nD) (t : Fin cfg0.N) (y : S128x128.Idx) :
    (iblk0 V c 1 t : Vec Ideal S128x128 .f32) y = (V c (Pipeline.arrRef spec0 1) : S128x128.Idx → Elt Ideal .f32) y := by
  have e0 : win0_1.index t (0 : Fin 2) = 0 := (idx_facts t).2.2.2.2.1
  have e1 : win0_1.index t (1 : Fin 2) = 0 := (idx_facts t).2.2.2.2.2.1
  unfold iblk0
  rw [View.read_apply]
  show V c (Pipeline.arrRef spec0 1) _ = V c (Pipeline.arrRef spec0 1) _
  refine congrArg (V c (Pipeline.arrRef spec0 1)) ?_
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Window 2's block at every point is its whole array. -/
theorem blk2_apply (c : Dev nD) (t : Fin cfg0.N) (y : S1x128.Idx) :
    (iblk0 V c 2 t : Vec Ideal S1x128 .f32) y = (V c (Pipeline.arrRef spec0 2) : S1x128.Idx → Elt Ideal .f32) y := by
  have e0 : win0_2.index t (0 : Fin 2) = 0 := (idx_facts t).2.2.2.2.2.2.1
  have e1 : win0_2.index t (1 : Fin 2) = 0 := (idx_facts t).2.2.2.2.2.2.2.1
  unfold iblk0
  rw [View.read_apply]
  show V c (Pipeline.arrRef spec0 2) _ = V c (Pipeline.arrRef spec0 2) _
  refine congrArg (V c (Pipeline.arrRef spec0 2)) ?_
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Window 3's block at every point is its whole array. -/
theorem blk3_apply (c : Dev nD) (t : Fin cfg0.N) (y : S128x128.Idx) :
    (iblk0 V c 3 t : Vec Ideal S128x128 .f32) y = (V c (Pipeline.arrRef spec0 3) : S128x128.Idx → Elt Ideal .f32) y := by
  have e0 : win0_3.index t (0 : Fin 2) = 0 := (idx_facts t).2.2.2.2.2.2.2.2.1
  have e1 : win0_3.index t (1 : Fin 2) = 0 := (idx_facts t).2.2.2.2.2.2.2.2.2.1
  unfold iblk0
  rw [View.read_apply]
  show V c (Pipeline.arrRef spec0 3) _ = V c (Pipeline.arrRef spec0 3) _
  refine congrArg (V c (Pipeline.arrRef spec0 3)) ?_
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4's block at every point is its whole array. -/
theorem blk4_apply (c : Dev nD) (t : Fin cfg0.N) (y : S1x128.Idx) :
    (iblk0 V c 4 t : Vec Ideal S1x128 .f32) y = (V c (Pipeline.arrRef spec0 4) : S1x128.Idx → Elt Ideal .f32) y := by
  have e0 : win0_4.index t (0 : Fin 2) = 0 := (idx_facts t).2.2.2.2.2.2.2.2.2.2.1
  have e1 : win0_4.index t (1 : Fin 2) = 0 := (idx_facts t).2.2.2.2.2.2.2.2.2.2.2.1
  unfold iblk0
  rw [View.read_apply]
  show V c (Pipeline.arrRef spec0 4) _ = V c (Pipeline.arrRef spec0 4) _
  refine congrArg (V c (Pipeline.arrRef spec0 4)) ?_
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Window 5's block at every point is its whole array. -/
theorem blk5_apply (c : Dev nD) (t : Fin cfg0.N) (y : S1x128.Idx) :
    (iblk0 V c 5 t : Vec Ideal S1x128 .f32) y = (V c (Pipeline.arrRef spec0 5) : S1x128.Idx → Elt Ideal .f32) y := by
  have e0 : win0_5.index t (0 : Fin 2) = 0 := (idx_facts t).2.2.2.2.2.2.2.2.2.2.2.2.1
  have e1 : win0_5.index t (1 : Fin 2) = 0 := (idx_facts t).2.2.2.2.2.2.2.2.2.2.2.2.2.1
  unfold iblk0
  rw [View.read_apply]
  show V c (Pipeline.arrRef spec0 5) _ = V c (Pipeline.arrRef spec0 5) _
  refine congrArg (V c (Pipeline.arrRef spec0 5)) ?_
  funext a; apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6's block at every point is its whole array. -/
theorem blk6_apply (c : Dev nD) (t : Fin cfg0.N) (y : S1x128.Idx) :
    (iblk0 V c 6 t : Vec Ideal S1x128 .f32) y = (V c (Pipeline.arrRef spec0 6) : S1x128.Idx → Elt Ideal .f32) y := by
  have e0 : win0_6.index t (0 : Fin 2) = 0 := (idx_facts t).2.2.2.2.2.2.2.2.2.2.2.2.2.2.1
  have e1 : win0_6.index t (1 : Fin 2) = 0 := (idx_facts t).2.2.2.2.2.2.2.2.2.2.2.2.2.2.2.1
  unfold iblk0
  rw [View.read_apply]
  show V c (Pipeline.arrRef spec0 6) _ = V c (Pipeline.arrRef spec0 6) _
  refine congrArg (V c (Pipeline.arrRef spec0 6)) ?_
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7's block at every point is its whole array. -/
theorem blk7_apply (c : Dev nD) (t : Fin cfg0.N) (y : S1x128.Idx) :
    (iblk0 V c 7 t : Vec Ideal S1x128 .f32) y = (V c (Pipeline.arrRef spec0 7) : S1x128.Idx → Elt Ideal .f32) y := by
  have e0 : win0_7.index t (0 : Fin 2) = 0 := (idx_facts t).2.2.2.2.2.2.2.2.2.2.2.2.2.2.2.2.1
  have e1 : win0_7.index t (1 : Fin 2) = 0 := (idx_facts t).2.2.2.2.2.2.2.2.2.2.2.2.2.2.2.2.2.1
  unfold iblk0
  rw [View.read_apply]
  show V c (Pipeline.arrRef spec0 7) _ = V c (Pipeline.arrRef spec0 7) _
  refine congrArg (V c (Pipeline.arrRef spec0 7)) ?_
  funext a; apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- Window 8's block at every point is its whole array. -/
theorem blk8_apply (c : Dev nD) (t : Fin cfg0.N) (y : S1x128.Idx) :
    (iblk0 V c 8 t : Vec Ideal S1x128 .f32) y = (V c (Pipeline.arrRef spec0 8) : S1x128.Idx → Elt Ideal .f32) y := by
  have e0 : win0_8.index t (0 : Fin 2) = 0 := (idx_facts t).2.2.2.2.2.2.2.2.2.2.2.2.2.2.2.2.2.2.1
  have e1 : win0_8.index t (1 : Fin 2) = 0 := (idx_facts t).2.2.2.2.2.2.2.2.2.2.2.2.2.2.2.2.2.2.2
  unfold iblk0
  rw [View.read_apply]
  show V c (Pipeline.arrRef spec0 8) _ = V c (Pipeline.arrRef spec0 8) _
  refine congrArg (V c (Pipeline.arrRef spec0 8)) ?_
  funext a; apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- The output window's block at point `t` sits at rows `5000 t …` of its array. -/
theorem emb9 (t : Fin cfg0.N) (p : Fin 5000) (q : Fin 128) (hb : 5000 * t.val + p.val < 50000) :
    (((cfg0.win 9).blk t).view.emb (ix2 p q) : S50000x128.Idx) = ix2 ⟨5000 * t.val + p.val, hb⟩ q := by
  have e0 : win0_9.index t (0 : Fin 2) = t.val := (idx_facts t).2.2.1
  have e1 : win0_9.index t (1 : Fin 2) = 0 := (idx_facts t).2.2.2.1
  funext a; apply Fin.ext
  match a with
  | ⟨0, _⟩ => show win0_9.index t (0 : Fin 2) * 5000 + 1 * p.val = 5000 * t.val + p.val; rw [e0]; omega
  | ⟨1, _⟩ => show win0_9.index t (1 : Fin 2) * 128 + 1 * q.val = q.val; rw [e1]; omega

/-- An index of the output array is in point `t`'s block iff each coordinate is in the block's range on its axis. -/
theorem mem_blk (t : Fin cfg0.N) (i : S50000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v64).slice (win0_9.rect t)).set ↔ _
  rw [View.set_slice_whole, Rect.mem_set_unit]
  exact Iff.rfl

/-- THE COVER: row `r` of the output array is in the block of point `r / 5000`. -/
theorem cover (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 10 := N_0
  have ht : (i 0).val / 5000 < cfg0.N := by rw [hN]; omega
  refine ⟨⟨(i 0).val / 5000, ht⟩, flush0_9 _, ?_⟩
  have e0 : win0_9.index ⟨(i 0).val / 5000, ht⟩ (0 : Fin 2) = (i 0).val / 5000 := (idx_facts ⟨(i 0).val / 5000, ht⟩).2.2.1
  have e1 : win0_9.index ⟨(i 0).val / 5000, ht⟩ (1 : Fin 2) = 0 := (idx_facts ⟨(i 0).val / 5000, ht⟩).2.2.2.1
  rw [mem_blk]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]; omega
  | ⟨1, _⟩ =>
    show win0_9.index ⟨(i 0).val / 5000, ht⟩ (1 : Fin 2) * 128 ≤ (i 1).val
      ∧ (i 1).val < win0_9.index ⟨(i 0).val / 5000, ht⟩ (1 : Fin 2) * 128 + 128
    rw [e1]; omega

section Value

variable (c : Dev nD) (b1 b2 g be mu var : Cert.Stages.A Cert.ReferenceIdeal.S128)

/-- The whole-array function the output array ends holding. -/
abbrev G : Cert.Stages.A Cert.ReferenceIdeal.S50000x128 :=
  layerHost (V c (Pipeline.arrRef spec0 0)) (V c (Pipeline.arrRef spec0 1)) b1 (V c (Pipeline.arrRef spec0 3)) b2 g be mu var

variable
  (h2 : ∀ j : Fin 128, (V c (Pipeline.arrRef spec0 2) : S1x128.Idx → Elt Ideal .f32) (ix2 (0 : Fin 1) j) = b1 (ix1 j))
  (h4 : ∀ j : Fin 128, (V c (Pipeline.arrRef spec0 4) : S1x128.Idx → Elt Ideal .f32) (ix2 (0 : Fin 1) j) = b2 (ix1 j))
  (h5 : ∀ j : Fin 128, (V c (Pipeline.arrRef spec0 5) : S1x128.Idx → Elt Ideal .f32) (ix2 (0 : Fin 1) j) = g (ix1 j))
  (h6 : ∀ j : Fin 128, (V c (Pipeline.arrRef spec0 6) : S1x128.Idx → Elt Ideal .f32) (ix2 (0 : Fin 1) j) = be (ix1 j))
  (h7 : ∀ j : Fin 128, (V c (Pipeline.arrRef spec0 7) : S1x128.Idx → Elt Ideal .f32) (ix2 (0 : Fin 1) j) = mu (ix1 j))
  (h8 : ∀ j : Fin 128, (V c (Pipeline.arrRef spec0 8) : S1x128.Idx → Elt Ideal .f32) (ix2 (0 : Fin 1) j) = var (ix1 j))

include h2 h4 h5 h6 h7 h8 in
set_option maxHeartbeats 1000000 in
/-- WHAT POINT `t` WRITES BACK is block `t` of `G`. -/
theorem flushed_eq (t : Fin cfg0.N) :
    (dat0 (F := Ideal) V c).flushed 9 t = ((cfg0.win 9).blk t).view.read (Elt Ideal) (G V c b1 b2 g be mu var) := by
  show (cfg0.win 9).cut (grid0.coords t) ((dat0 (F := Ideal) V c).after 9 t) = _
  rw [after0_9]
  unfold out0_9
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  have hb : 5000 * t.val + p.val < 50000 := by have := t_lt t; have := p.isLt; omega
  show k0_pay1 (k0_pay2 (iblk0 V c 0 t) (iblk0 V c 1 t) (iblk0 V c 2 t) (iblk0 V c 3 t) (iblk0 V c 4 t) (iblk0 V c 5 t)
      (iblk0 V c 8 t) (iblk0 V c 7 t)) (iblk0 V c 6 t) (ix2 p q)
    = G V c b1 b2 g be mu var (((cfg0.win 9).blk t).view.emb (ix2 p q))
  refine (Pay.pay0_apply _ _ _ _ _ _ _ _ _ p q).trans ?_
  rw [emb9 t p q hb]
  refine Eq.trans ?_ (layerHost_apply _ _ _ _ _ _ _ _ _ ⟨5000 * t.val + p.val, hb⟩ q).symm
  exact Cert.Stages.layerAt_congr (fun l => blk0_apply V c t p l hb) (fun l k => blk1_apply V c t _)
    (fun l k => blk3_apply V c t _) (fun k => (blk2_apply V c t _).trans (h2 k)) (fun k => (blk4_apply V c t _).trans (h4 k))
    (fun k => (blk5_apply V c t _).trans (h5 k)) (fun k => (blk6_apply V c t _).trans (h6 k))
    (fun k => (blk7_apply V c t _).trans (h7 k)) (fun k => (blk8_apply V c t _).trans (h8 k)) q

include h2 h4 h5 h6 h7 h8 in
/-- REGION 0'S OUTPUT ARRAY, as the frame's proof data names it, is the dense stage `layerHost` of the region-entry
    arrays (the per-channel vectors read off their one-row arrays). -/
theorem value :
    (dat0 (F := Ideal) V c).arrAt 9 cfg0.N
      = layerHost (V c (Pipeline.arrRef spec0 0)) (V c (Pipeline.arrRef spec0 1)) b1 (V c (Pipeline.arrRef spec0 3)) b2 g be mu var :=
  (dat0 (F := Ideal) V c).arrAt_eq_of_cover 9 (G V c b1 b2 g be mu var)
    (fun t _ => flushed_eq V c b1 b2 g be mu var h2 h4 h5 h6 h7 h8 t) cover

end Value

end Cert.KernelIdeal.Region0

end
-- ==== Proof.Region1.lean ====
/-
  Region 1's output array is the dense stage of its input arrays.

  The region runs the body at ten grid points; point `t` loads rows `5000 t … 5000 t + 4999` of the node array and the
  whole of every other array, and writes back rows `5000 t … 5000 t + 4999` of the output. By the entry-by-entry value of
  the body's stored term (`layerAt` of the row) and of the whole-array function `layerHost` (`layerAt` of the same row),
  what point `t` writes back is block `t` of `layerHost` of the region-entry arrays; the ten blocks cover the output
  array, so the array ends holding `layerHost` of them.
-/
import proofs.«112971_j66340064854633_1_alg».proof.Proof.Gen.KernelIdeal.Frame
import proofs.«112971_j66340064854633_1_alg».proof.Proof.Pay
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.Stages (layerAt layerHost layerHost_apply)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node window and the output window are at block `(t, 0)` at point
    `t`; every other window is at block `(0, 0)`. -/
theorem idx_facts : ∀ t : Fin cfg1.N,
    win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The grid has ten points. -/
theorem t_lt (t : Fin cfg1.N) : t.val < 10 := lt_of_lt_of_eq t.isLt N_1

/-- The node window's block at point `t` is rows `5000 t …` of its array. -/
theorem blk0_apply (c : Dev nD) (t : Fin cfg1.N) (p : Fin 5000) (l : Fin 128) (hb : 5000 * t.val + p.val < 50000) :
    (iblk1 V c 0 t : Vec Ideal S5000x128 .f32) (ix2 p l)
      = (V c (Pipeline.arrRef spec1 0) : S50000x128.Idx → Elt Ideal .f32) (ix2 ⟨5000 * t.val + p.val, hb⟩ l) := by
  have e0 : win1_0.index t (0 : Fin 2) = t.val := (idx_facts t).1
  have e1 : win1_0.index t (1 : Fin 2) = 0 := (idx_facts t).2.1
  unfold iblk1
  rw [View.read_apply]
  show V c (Pipeline.arrRef spec1 0) _ = V c (Pipeline.arrRef spec1 0) _
  refine congrArg (V c (Pipeline.arrRef spec1 0)) ?_
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * l.val = l.val; rw [e1]; omega

/-- Window 1's block at every point is its whole array. -/
theorem blk1_apply (c : Dev nD) (t : Fin cfg1.N) (y : S128x128.Idx) :
    (iblk1 V c 1 t : Vec Ideal S128x128 .f32) y = (V c (Pipeline.arrRef spec1 1) : S128x128.Idx → Elt Ideal .f32) y := by
  have e0 : win1_1.index t (0 : Fin 2) = 0 := (idx_facts t).2.2.2.2.1
  have e1 : win1_1.index t (1 : Fin 2) = 0 := (idx_facts t).2.2.2.2.2.1
  unfold iblk1
  rw [View.read_apply]
  show V c (Pipeline.arrRef spec1 1) _ = V c (Pipeline.arrRef spec1 1) _
  refine congrArg (V c (Pipeline.arrRef spec1 1)) ?_
  funext a; apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- Window 2's block at every point is its whole array. -/
theorem blk2_apply (c : Dev nD) (t : Fin cfg1.N) (y : S1x128.Idx) :
    (iblk1 V c 2 t : Vec Ideal S1x128 .f32) y = (V c (Pipeline.arrRef spec1 2) : S1x128.Idx → Elt Ideal .f32) y := by
  have e0 : win1_2.index t (0 : Fin 2) = 0 := (idx_facts t).2.2.2.2.2.2.1
  have e1 : win1_2.index t (1 : Fin 2) = 0 := (idx_facts t).2.2.2.2.2.2.2.1
  unfold iblk1
  rw [View.read_apply]
  show V c (Pipeline.arrRef spec1 2) _ = V c (Pipeline.arrRef spec1 2) _
  refine congrArg (V c (Pipeline.arrRef spec1 2)) ?_
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- Window 3's block at every point is its whole array. -/
theorem blk3_apply (c : Dev nD) (t : Fin cfg1.N) (y : S128x128.Idx) :
    (iblk1 V c 3 t : Vec Ideal S128x128 .f32) y = (V c (Pipeline.arrRef spec1 3) : S128x128.Idx → Elt Ideal .f32) y := by
  have e0 : win1_3.index t (0 : Fin 2) = 0 := (idx_facts t).2.2.2.2.2.2.2.2.1
  have e1 : win1_3.index t (1 : Fin 2) = 0 := (idx_facts t).2.2.2.2.2.2.2.2.2.1
  unfold iblk1
  rw [View.read_apply]
  show V c (Pipeline.arrRef spec1 3) _ = V c (Pipeline.arrRef spec1 3) _
  refine congrArg (V c (Pipeline.arrRef spec1 3)) ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Window 4's block at every point is its whole array. -/
theorem blk4_apply (c : Dev nD) (t : Fin cfg1.N) (y : S1x128.Idx) :
    (iblk1 V c 4 t : Vec Ideal S1x128 .f32) y = (V c (Pipeline.arrRef spec1 4) : S1x128.Idx → Elt Ideal .f32) y := by
  have e0 : win1_4.index t (0 : Fin 2) = 0 := (idx_facts t).2.2.2.2.2.2.2.2.2.2.1
  have e1 : win1_4.index t (1 : Fin 2) = 0 := (idx_facts t).2.2.2.2.2.2.2.2.2.2.2.1
  unfold iblk1
  rw [View.read_apply]
  show V c (Pipeline.arrRef spec1 4) _ = V c (Pipeline.arrRef spec1 4) _
  refine congrArg (V c (Pipeline.arrRef spec1 4)) ?_
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Window 5's block at every point is its whole array. -/
theorem blk5_apply (c : Dev nD) (t : Fin cfg1.N) (y : S1x128.Idx) :
    (iblk1 V c 5 t : Vec Ideal S1x128 .f32) y = (V c (Pipeline.arrRef spec1 5) : S1x128.Idx → Elt Ideal .f32) y := by
  have e0 : win1_5.index t (0 : Fin 2) = 0 := (idx_facts t).2.2.2.2.2.2.2.2.2.2.2.2.1
  have e1 : win1_5.index t (1 : Fin 2) = 0 := (idx_facts t).2.2.2.2.2.2.2.2.2.2.2.2.2.1
  unfold iblk1
  rw [View.read_apply]
  show V c (Pipeline.arrRef spec1 5) _ = V c (Pipeline.arrRef spec1 5) _
  refine congrArg (V c (Pipeline.arrRef spec1 5)) ?_
  funext a; apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Window 6's block at every point is its whole array. -/
theorem blk6_apply (c : Dev nD) (t : Fin cfg1.N) (y : S1x128.Idx) :
    (iblk1 V c 6 t : Vec Ideal S1x128 .f32) y = (V c (Pipeline.arrRef spec1 6) : S1x128.Idx → Elt Ideal .f32) y := by
  have e0 : win1_6.index t (0 : Fin 2) = 0 := (idx_facts t).2.2.2.2.2.2.2.2.2.2.2.2.2.2.1
  have e1 : win1_6.index t (1 : Fin 2) = 0 := (idx_facts t).2.2.2.2.2.2.2.2.2.2.2.2.2.2.2.1
  unfold iblk1
  rw [View.read_apply]
  show V c (Pipeline.arrRef spec1 6) _ = V c (Pipeline.arrRef spec1 6) _
  refine congrArg (V c (Pipeline.arrRef spec1 6)) ?_
  funext a; apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- Window 7's block at every point is its whole array. -/
theorem blk7_apply (c : Dev nD) (t : Fin cfg1.N) (y : S1x128.Idx) :
    (iblk1 V c 7 t : Vec Ideal S1x128 .f32) y = (V c (Pipeline.arrRef spec1 7) : S1x128.Idx → Elt Ideal .f32) y := by
  have e0 : win1_7.index t (0 : Fin 2) = 0 := (idx_facts t).2.2.2.2.2.2.2.2.2.2.2.2.2.2.2.2.1
  have e1 : win1_7.index t (1 : Fin 2) = 0 := (idx_facts t).2.2.2.2.2.2.2.2.2.2.2.2.2.2.2.2.2.1
  unfold iblk1
  rw [View.read_apply]
  show V c (Pipeline.arrRef spec1 7) _ = V c (Pipeline.arrRef spec1 7) _
  refine congrArg (V c (Pipeline.arrRef spec1 7)) ?_
  funext a; apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- Window 8's block at every point is its whole array. -/
theorem blk8_apply (c : Dev nD) (t : Fin cfg1.N) (y : S1x128.Idx) :
    (iblk1 V c 8 t : Vec Ideal S1x128 .f32) y = (V c (Pipeline.arrRef spec1 8) : S1x128.Idx → Elt Ideal .f32) y := by
  have e0 : win1_8.index t (0 : Fin 2) = 0 := (idx_facts t).2.2.2.2.2.2.2.2.2.2.2.2.2.2.2.2.2.2.1
  have e1 : win1_8.index t (1 : Fin 2) = 0 := (idx_facts t).2.2.2.2.2.2.2.2.2.2.2.2.2.2.2.2.2.2.2
  unfold iblk1
  rw [View.read_apply]
  show V c (Pipeline.arrRef spec1 8) _ = V c (Pipeline.arrRef spec1 8) _
  refine congrArg (V c (Pipeline.arrRef spec1 8)) ?_
  funext a; apply Fin.ext
  match a with
  | ⟨0, _⟩ => show win1_8.index t (0 : Fin 2) * 1 + 1 * (y 0).val = (y 0).val; rw [e0]; omega
  | ⟨1, _⟩ => show win1_8.index t (1 : Fin 2) * 128 + 1 * (y 1).val = (y 1).val; rw [e1]; omega

/-- The output window's block at point `t` sits at rows `5000 t …` of its array. -/
theorem emb9 (t : Fin cfg1.N) (p : Fin 5000) (q : Fin 128) (hb : 5000 * t.val + p.val < 50000) :
    (((cfg1.win 9).blk t).view.emb (ix2 p q) : S50000x128.Idx) = ix2 ⟨5000 * t.val + p.val, hb⟩ q := by
  have e0 : win1_9.index t (0 : Fin 2) = t.val := (idx_facts t).2.2.1
  have e1 : win1_9.index t (1 : Fin 2) = 0 := (idx_facts t).2.2.2.1
  funext a; apply Fin.ext
  match a with
  | ⟨0, _⟩ => show win1_9.index t (0 : Fin 2) * 5000 + 1 * p.val = 5000 * t.val + p.val; rw [e0]; omega
  | ⟨1, _⟩ => show win1_9.index t (1 : Fin 2) * 128 + 1 * q.val = q.val; rw [e1]; omega

/-- An index of the output array is in point `t`'s block iff each coordinate is in the block's range on its axis. -/
theorem mem_blk (t : Fin cfg1.N) (i : S50000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v100).slice (win1_9.rect t)).set ↔ _
  rw [View.set_slice_whole, Rect.mem_set_unit]
  exact Iff.rfl

/-- THE COVER: row `r` of the output array is in the block of point `r / 5000`. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_9 _, ?_⟩
  have e0 : win1_9.index ⟨(i 0).val / 5000, ht⟩ (0 : Fin 2) = (i 0).val / 5000 := (idx_facts ⟨(i 0).val / 5000, ht⟩).2.2.1
  have e1 : win1_9.index ⟨(i 0).val / 5000, ht⟩ (1 : Fin 2) = 0 := (idx_facts ⟨(i 0).val / 5000, ht⟩).2.2.2.1
  rw [mem_blk]
  intro a
  match a with
  | ⟨0, _⟩ =>
    show win1_9.index ⟨(i 0).val / 5000, ht⟩ (0 : Fin 2) * 5000 ≤ (i 0).val
      ∧ (i 0).val < win1_9.index ⟨(i 0).val / 5000, ht⟩ (0 : Fin 2) * 5000 + 5000
    rw [e0]; omega
  | ⟨1, _⟩ =>
    show win1_9.index ⟨(i 0).val / 5000, ht⟩ (1 : Fin 2) * 128 ≤ (i 1).val
      ∧ (i 1).val < win1_9.index ⟨(i 0).val / 5000, ht⟩ (1 : Fin 2) * 128 + 128
    rw [e1]; omega

section Value

variable (c : Dev nD) (b1 b2 g be mu var : Cert.Stages.A Cert.ReferenceIdeal.S128)

/-- The whole-array function the output array ends holding. -/
abbrev G : Cert.Stages.A Cert.ReferenceIdeal.S50000x128 :=
  layerHost (V c (Pipeline.arrRef spec1 0)) (V c (Pipeline.arrRef spec1 1)) b1 (V c (Pipeline.arrRef spec1 3)) b2 g be mu var

variable
  (h2 : ∀ j : Fin 128, (V c (Pipeline.arrRef spec1 2) : S1x128.Idx → Elt Ideal .f32) (ix2 (0 : Fin 1) j) = b1 (ix1 j))
  (h4 : ∀ j : Fin 128, (V c (Pipeline.arrRef spec1 4) : S1x128.Idx → Elt Ideal .f32) (ix2 (0 : Fin 1) j) = b2 (ix1 j))
  (h5 : ∀ j : Fin 128, (V c (Pipeline.arrRef spec1 5) : S1x128.Idx → Elt Ideal .f32) (ix2 (0 : Fin 1) j) = g (ix1 j))
  (h6 : ∀ j : Fin 128, (V c (Pipeline.arrRef spec1 6) : S1x128.Idx → Elt Ideal .f32) (ix2 (0 : Fin 1) j) = be (ix1 j))
  (h7 : ∀ j : Fin 128, (V c (Pipeline.arrRef spec1 7) : S1x128.Idx → Elt Ideal .f32) (ix2 (0 : Fin 1) j) = mu (ix1 j))
  (h8 : ∀ j : Fin 128, (V c (Pipeline.arrRef spec1 8) : S1x128.Idx → Elt Ideal .f32) (ix2 (0 : Fin 1) j) = var (ix1 j))

include h2 h4 h5 h6 h7 h8 in
set_option maxHeartbeats 1000000 in
/-- WHAT POINT `t` WRITES BACK is block `t` of `G`. -/
theorem flushed_eq (t : Fin cfg1.N) :
    (dat1 (F := Ideal) V c).flushed 9 t = ((cfg1.win 9).blk t).view.read (Elt Ideal) (G V c b1 b2 g be mu var) := by
  show (cfg1.win 9).cut (grid1.coords t) ((dat1 (F := Ideal) V c).after 9 t) = _
  rw [after1_9]
  unfold out1_9
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  have hb : 5000 * t.val + p.val < 50000 := by have := t_lt t; have := p.isLt; omega
  show k1_pay1 (k1_pay2 (iblk1 V c 0 t) (iblk1 V c 1 t) (iblk1 V c 2 t) (iblk1 V c 3 t) (iblk1 V c 4 t) (iblk1 V c 5 t)
      (iblk1 V c 8 t) (iblk1 V c 7 t)) (iblk1 V c 6 t) (ix2 p q)
    = G V c b1 b2 g be mu var (((cfg1.win 9).blk t).view.emb (ix2 p q))
  refine (Pay.pay1_apply _ _ _ _ _ _ _ _ _ p q).trans ?_
  rw [emb9 t p q hb]
  refine Eq.trans ?_ (layerHost_apply _ _ _ _ _ _ _ _ _ ⟨5000 * t.val + p.val, hb⟩ q).symm
  exact Cert.Stages.layerAt_congr (fun l => blk0_apply V c t p l hb) (fun l k => blk1_apply V c t _)
    (fun l k => blk3_apply V c t _) (fun k => (blk2_apply V c t _).trans (h2 k)) (fun k => (blk4_apply V c t _).trans (h4 k))
    (fun k => (blk5_apply V c t _).trans (h5 k)) (fun k => (blk6_apply V c t _).trans (h6 k))
    (fun k => (blk7_apply V c t _).trans (h7 k)) (fun k => (blk8_apply V c t _).trans (h8 k)) q

include h2 h4 h5 h6 h7 h8 in
/-- REGION 1'S OUTPUT ARRAY, as the frame's proof data names it, is the dense stage `layerHost` of the region-entry
    arrays (the per-channel vectors read off their one-row arrays). -/
theorem value :
    (dat1 (F := Ideal) V c).arrAt 9 cfg1.N
      = layerHost (V c (Pipeline.arrRef spec1 0)) (V c (Pipeline.arrRef spec1 1)) b1 (V c (Pipeline.arrRef spec1 3)) b2 g be mu var :=
  (dat1 (F := Ideal) V c).arrAt_eq_of_cover 9 (G V c b1 b2 g be mu var)
    (fun t _ => flushed_eq V c b1 b2 g be mu var h2 h4 h5 h6 h7 h8 t) cover

end Value

end Cert.KernelIdeal.Region1

end
-- ==== Proof.Region2.lean ====
/-
  Region 2's output array is the dense stage of its input arrays.

  The region runs the body at ten grid points; point `t` loads rows `5000 t … 5000 t + 4999` of the node array and the
  whole of every other array, and writes back rows `5000 t … 5000 t + 4999` of the output. By the entry-by-entry value of
  the body's stored term (`layerAt` of the row) and of the whole-array function `layerHost` (`layerAt` of the same row),
  what point `t` writes back is block `t` of `layerHost` of the region-entry arrays; the ten blocks cover the output
  array, so the array ends holding `layerHost` of them.
-/
import proofs.«112971_j66340064854633_1_alg».proof.Proof.Gen.KernelIdeal.Frame
import proofs.«112971_j66340064854633_1_alg».proof.Proof.Pay
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.Stages (layerAt layerHost layerHost_apply)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node window and the output window are at block `(t, 0)` at point
    `t`; every other window is at block `(0, 0)`. -/
theorem idx_facts : ∀ t : Fin cfg2.N,
    win2_0.index t (0 : Fin 2) = t.val ∧ win2_0.index t (1 : Fin 2) = 0
    ∧ win2_9.index t (0 : Fin 2) = t.val ∧ win2_9.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The grid has ten points. -/
theorem t_lt (t : Fin cfg2.N) : t.val < 10 := lt_of_lt_of_eq t.isLt N_2

/-- The node window's block at point `t` is rows `5000 t …` of its array. -/
theorem blk0_apply (c : Dev nD) (t : Fin cfg2.N) (p : Fin 5000) (l : Fin 128) (hb : 5000 * t.val + p.val < 50000) :
    (iblk2 V c 0 t : Vec Ideal S5000x128 .f32) (ix2 p l)
      = (V c (Pipeline.arrRef spec2 0) : S50000x128.Idx → Elt Ideal .f32) (ix2 ⟨5000 * t.val + p.val, hb⟩ l) := by
  have e0 : win2_0.index t (0 : Fin 2) = t.val := (idx_facts t).1
  have e1 : win2_0.index t (1 : Fin 2) = 0 := (idx_facts t).2.1
  unfold iblk2
  rw [View.read_apply]
  show V c (Pipeline.arrRef spec2 0) _ = V c (Pipeline.arrRef spec2 0) _
  refine congrArg (V c (Pipeline.arrRef spec2 0)) ?_
  funext a; apply Fin.ext
  match a with
  | ⟨0, _⟩ => show win2_0.index t (0 : Fin 2) * 5000 + 1 * p.val = 5000 * t.val + p.val; rw [e0]; omega
  | ⟨1, _⟩ => show win2_0.index t (1 : Fin 2) * 128 + 1 * l.val = l.val; rw [e1]; omega

/-- Window 1's block at every point is its whole array. -/
theorem blk1_apply (c : Dev nD) (t : Fin cfg2.N) (y : S128x128.Idx) :
    (iblk2 V c 1 t : Vec Ideal S128x128 .f32) y = (V c (Pipeline.arrRef spec2 1) : S128x128.Idx → Elt Ideal .f32) y := by
  have e0 : win2_1.index t (0 : Fin 2) = 0 := (idx_facts t).2.2.2.2.1
  have e1 : win2_1.index t (1 : Fin 2) = 0 := (idx_facts t).2.2.2.2.2.1
  unfold iblk2
  rw [View.read_apply]
  show V c (Pipeline.arrRef spec2 1) _ = V c (Pipeline.arrRef spec2 1) _
  refine congrArg (V c (Pipeline.arrRef spec2 1)) ?_
  funext a; apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- Window 2's block at every point is its whole array. -/
theorem blk2_apply (c : Dev nD) (t : Fin cfg2.N) (y : S1x128.Idx) :
    (iblk2 V c 2 t : Vec Ideal S1x128 .f32) y = (V c (Pipeline.arrRef spec2 2) : S1x128.Idx → Elt Ideal .f32) y := by
  have e0 : win2_2.index t (0 : Fin 2) = 0 := (idx_facts t).2.2.2.2.2.2.1
  have e1 : win2_2.index t (1 : Fin 2) = 0 := (idx_facts t).2.2.2.2.2.2.2.1
  unfold iblk2
  rw [View.read_apply]
  show V c (Pipeline.arrRef spec2 2) _ = V c (Pipeline.arrRef spec2 2) _
  refine congrArg (V c (Pipeline.arrRef spec2 2)) ?_
  funext a; apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- Window 3's block at every point is its whole array. -/
theorem blk3_apply (c : Dev nD) (t : Fin cfg2.N) (y : S128x128.Idx) :
    (iblk2 V c 3 t : Vec Ideal S128x128 .f32) y = (V c (Pipeline.arrRef spec2 3) : S128x128.Idx → Elt Ideal .f32) y := by
  have e0 : win2_3.index t (0 : Fin 2) = 0 := (idx_facts t).2.2.2.2.2.2.2.2.1
  have e1 : win2_3.index t (1 : Fin 2) = 0 := (idx_facts t).2.2.2.2.2.2.2.2.2.1
  unfold iblk2
  rw [View.read_apply]
  show V c (Pipeline.arrRef spec2 3) _ = V c (Pipeline.arrRef spec2 3) _
  refine congrArg (V c (Pipeline.arrRef spec2 3)) ?_
  funext a; apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- Window 4's block at every point is its whole array. -/
theorem blk4_apply (c : Dev nD) (t : Fin cfg2.N) (y : S1x128.Idx) :
    (iblk2 V c 4 t : Vec Ideal S1x128 .f32) y = (V c (Pipeline.arrRef spec2 4) : S1x128.Idx → Elt Ideal .f32) y := by
  have e0 : win2_4.index t (0 : Fin 2) = 0 := (idx_facts t).2.2.2.2.2.2.2.2.2.2.1
  have e1 : win2_4.index t (1 : Fin 2) = 0 := (idx_facts t).2.2.2.2.2.2.2.2.2.2.2.1
  unfold iblk2
  rw [View.read_apply]
  show V c (Pipeline.arrRef spec2 4) _ = V c (Pipeline.arrRef spec2 4) _
  refine congrArg (V c (Pipeline.arrRef spec2 4)) ?_
  funext a; apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- Window 5's block at every point is its whole array. -/
theorem blk5_apply (c : Dev nD) (t : Fin cfg2.N) (y : S1x128.Idx) :
    (iblk2 V c 5 t : Vec Ideal S1x128 .f32) y = (V c (Pipeline.arrRef spec2 5) : S1x128.Idx → Elt Ideal .f32) y := by
  have e0 : win2_5.index t (0 : Fin 2) = 0 := (idx_facts t).2.2.2.2.2.2.2.2.2.2.2.2.1
  have e1 : win2_5.index t (1 : Fin 2) = 0 := (idx_facts t).2.2.2.2.2.2.2.2.2.2.2.2.2.1
  unfold iblk2
  rw [View.read_apply]
  show V c (Pipeline.arrRef spec2 5) _ = V c (Pipeline.arrRef spec2 5) _
  refine congrArg (V c (Pipeline.arrRef spec2 5)) ?_
  funext a; apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- Window 6's block at every point is its whole array. -/
theorem blk6_apply (c : Dev nD) (t : Fin cfg2.N) (y : S1x128.Idx) :
    (iblk2 V c 6 t : Vec Ideal S1x128 .f32) y = (V c (Pipeline.arrRef spec2 6) : S1x128.Idx → Elt Ideal .f32) y := by
  have e0 : win2_6.index t (0 : Fin 2) = 0 := (idx_facts t).2.2.2.2.2.2.2.2.2.2.2.2.2.2.1
  have e1 : win2_6.index t (1 : Fin 2) = 0 := (idx_facts t).2.2.2.2.2.2.2.2.2.2.2.2.2.2.2.1
  unfold iblk2
  rw [View.read_apply]
  show V c (Pipeline.arrRef spec2 6) _ = V c (Pipeline.arrRef spec2 6) _
  refine congrArg (V c (Pipeline.arrRef spec2 6)) ?_
  funext a; apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- Window 7's block at every point is its whole array. -/
theorem blk7_apply (c : Dev nD) (t : Fin cfg2.N) (y : S1x128.Idx) :
    (iblk2 V c 7 t : Vec Ideal S1x128 .f32) y = (V c (Pipeline.arrRef spec2 7) : S1x128.Idx → Elt Ideal .f32) y := by
  have e0 : win2_7.index t (0 : Fin 2) = 0 := (idx_facts t).2.2.2.2.2.2.2.2.2.2.2.2.2.2.2.2.1
  have e1 : win2_7.index t (1 : Fin 2) = 0 := (idx_facts t).2.2.2.2.2.2.2.2.2.2.2.2.2.2.2.2.2.1
  unfold iblk2
  rw [View.read_apply]
  show V c (Pipeline.arrRef spec2 7) _ = V c (Pipeline.arrRef spec2 7) _
  refine congrArg (V c (Pipeline.arrRef spec2 7)) ?_
  funext a; apply Fin.ext
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

/-- Window 8's block at every point is its whole array. -/
theorem blk8_apply (c : Dev nD) (t : Fin cfg2.N) (y : S1x128.Idx) :
    (iblk2 V c 8 t : Vec Ideal S1x128 .f32) y = (V c (Pipeline.arrRef spec2 8) : S1x128.Idx → Elt Ideal .f32) y := by
  have e0 : win2_8.index t (0 : Fin 2) = 0 := (idx_facts t).2.2.2.2.2.2.2.2.2.2.2.2.2.2.2.2.2.2.1
  have e1 : win2_8.index t (1 : Fin 2) = 0 := (idx_facts t).2.2.2.2.2.2.2.2.2.2.2.2.2.2.2.2.2.2.2
  unfold iblk2
  rw [View.read_apply]
  show V c (Pipeline.arrRef spec2 8) _ = V c (Pipeline.arrRef spec2 8) _
  refine congrArg (V c (Pipeline.arrRef spec2 8)) ?_
  funext a; apply Fin.ext
  match a with
  | ⟨0, _⟩ => show win2_8.index t (0 : Fin 2) * 1 + 1 * (y 0).val = (y 0).val; rw [e0]; omega
  | ⟨1, _⟩ => show win2_8.index t (1 : Fin 2) * 128 + 1 * (y 1).val = (y 1).val; rw [e1]; omega

/-- The output window's block at point `t` sits at rows `5000 t …` of its array. -/
theorem emb9 (t : Fin cfg2.N) (p : Fin 5000) (q : Fin 128) (hb : 5000 * t.val + p.val < 50000) :
    (((cfg2.win 9).blk t).view.emb (ix2 p q) : S50000x128.Idx) = ix2 ⟨5000 * t.val + p.val, hb⟩ q := by
  have e0 : win2_9.index t (0 : Fin 2) = t.val := (idx_facts t).2.2.1
  have e1 : win2_9.index t (1 : Fin 2) = 0 := (idx_facts t).2.2.2.1
  funext a; apply Fin.ext
  match a with
  | ⟨0, _⟩ => show win2_9.index t (0 : Fin 2) * 5000 + 1 * p.val = 5000 * t.val + p.val; rw [e0]; omega
  | ⟨1, _⟩ => show win2_9.index t (1 : Fin 2) * 128 + 1 * q.val = q.val; rw [e1]; omega

/-- An index of the output array is in point `t`'s block iff each coordinate is in the block's range on its axis. -/
theorem mem_blk (t : Fin cfg2.N) (i : S50000x128.Idx) :
    i ∈ ((cfg2.win 9).blk t).view.set ↔ ∀ a : Fin 2, win2_9.index t a * S5000x128.size a ≤ (i a).val
      ∧ (i a).val < win2_9.index t a * S5000x128.size a + S5000x128.size a := by
  show i ∈ ((View.whole main_v136).slice (win2_9.rect t)).set ↔ _
  rw [View.set_slice_whole, Rect.mem_set_unit]
  exact Iff.rfl

/-- THE COVER: row `r` of the output array is in the block of point `r / 5000`. -/
theorem cover (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 10 := N_2
  have ht : (i 0).val / 5000 < cfg2.N := by rw [hN]; omega
  refine ⟨⟨(i 0).val / 5000, ht⟩, flush2_9 _, ?_⟩
  have e0 : win2_9.index ⟨(i 0).val / 5000, ht⟩ (0 : Fin 2) = (i 0).val / 5000 := (idx_facts ⟨(i 0).val / 5000, ht⟩).2.2.1
  have e1 : win2_9.index ⟨(i 0).val / 5000, ht⟩ (1 : Fin 2) = 0 := (idx_facts ⟨(i 0).val / 5000, ht⟩).2.2.2.1
  rw [mem_blk]
  intro a
  match a with
  | ⟨0, _⟩ =>
    show win2_9.index ⟨(i 0).val / 5000, ht⟩ (0 : Fin 2) * 5000 ≤ (i 0).val
      ∧ (i 0).val < win2_9.index ⟨(i 0).val / 5000, ht⟩ (0 : Fin 2) * 5000 + 5000
    rw [e0]; omega
  | ⟨1, _⟩ =>
    show win2_9.index ⟨(i 0).val / 5000, ht⟩ (1 : Fin 2) * 128 ≤ (i 1).val
      ∧ (i 1).val < win2_9.index ⟨(i 0).val / 5000, ht⟩ (1 : Fin 2) * 128 + 128
    rw [e1]; omega

section Value

variable (c : Dev nD) (b1 b2 g be mu var : Cert.Stages.A Cert.ReferenceIdeal.S128)

/-- The whole-array function the output array ends holding. -/
abbrev G : Cert.Stages.A Cert.ReferenceIdeal.S50000x128 :=
  layerHost (V c (Pipeline.arrRef spec2 0)) (V c (Pipeline.arrRef spec2 1)) b1 (V c (Pipeline.arrRef spec2 3)) b2 g be mu var

variable
  (h2 : ∀ j : Fin 128, (V c (Pipeline.arrRef spec2 2) : S1x128.Idx → Elt Ideal .f32) (ix2 (0 : Fin 1) j) = b1 (ix1 j))
  (h4 : ∀ j : Fin 128, (V c (Pipeline.arrRef spec2 4) : S1x128.Idx → Elt Ideal .f32) (ix2 (0 : Fin 1) j) = b2 (ix1 j))
  (h5 : ∀ j : Fin 128, (V c (Pipeline.arrRef spec2 5) : S1x128.Idx → Elt Ideal .f32) (ix2 (0 : Fin 1) j) = g (ix1 j))
  (h6 : ∀ j : Fin 128, (V c (Pipeline.arrRef spec2 6) : S1x128.Idx → Elt Ideal .f32) (ix2 (0 : Fin 1) j) = be (ix1 j))
  (h7 : ∀ j : Fin 128, (V c (Pipeline.arrRef spec2 7) : S1x128.Idx → Elt Ideal .f32) (ix2 (0 : Fin 1) j) = mu (ix1 j))
  (h8 : ∀ j : Fin 128, (V c (Pipeline.arrRef spec2 8) : S1x128.Idx → Elt Ideal .f32) (ix2 (0 : Fin 1) j) = var (ix1 j))

include h2 h4 h5 h6 h7 h8 in
set_option maxHeartbeats 1000000 in
/-- WHAT POINT `t` WRITES BACK is block `t` of `G`. -/
theorem flushed_eq (t : Fin cfg2.N) :
    (dat2 (F := Ideal) V c).flushed 9 t = ((cfg2.win 9).blk t).view.read (Elt Ideal) (G V c b1 b2 g be mu var) := by
  show (cfg2.win 9).cut (grid2.coords t) ((dat2 (F := Ideal) V c).after 9 t) = _
  rw [after2_9]
  unfold out2_9
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  have hb : 5000 * t.val + p.val < 50000 := by have := t_lt t; have := p.isLt; omega
  show k2_pay1 (k2_pay2 (iblk2 V c 0 t) (iblk2 V c 1 t) (iblk2 V c 2 t) (iblk2 V c 3 t) (iblk2 V c 4 t) (iblk2 V c 5 t)
      (iblk2 V c 8 t) (iblk2 V c 7 t)) (iblk2 V c 6 t) (ix2 p q)
    = G V c b1 b2 g be mu var (((cfg2.win 9).blk t).view.emb (ix2 p q))
  refine (Pay.pay2_apply _ _ _ _ _ _ _ _ _ p q).trans ?_
  rw [emb9 t p q hb]
  refine Eq.trans ?_ (layerHost_apply _ _ _ _ _ _ _ _ _ ⟨5000 * t.val + p.val, hb⟩ q).symm
  exact Cert.Stages.layerAt_congr (fun l => blk0_apply V c t p l hb) (fun l k => blk1_apply V c t _)
    (fun l k => blk3_apply V c t _) (fun k => (blk2_apply V c t _).trans (h2 k)) (fun k => (blk4_apply V c t _).trans (h4 k))
    (fun k => (blk5_apply V c t _).trans (h5 k)) (fun k => (blk6_apply V c t _).trans (h6 k))
    (fun k => (blk7_apply V c t _).trans (h7 k)) (fun k => (blk8_apply V c t _).trans (h8 k)) q

include h2 h4 h5 h6 h7 h8 in
/-- REGION 2'S OUTPUT ARRAY, as the frame's proof data names it, is the dense stage `layerHost` of the region-entry
    arrays (the per-channel vectors read off their one-row arrays). -/
theorem value :
    (dat2 (F := Ideal) V c).arrAt 9 cfg2.N
      = layerHost (V c (Pipeline.arrRef spec2 0)) (V c (Pipeline.arrRef spec2 1)) b1 (V c (Pipeline.arrRef spec2 3)) b2 g be mu var :=
  (dat2 (F := Ideal) V c).arrAt_eq_of_cover 9 (G V c b1 b2 g be mu var)
    (fun t _ => flushed_eq V c b1 b2 g be mu var h2 h4 h5 h6 h7 h8 t) cover

end Value

end Cert.KernelIdeal.Region2

end
-- ==== Proof.Region3.lean ====
/-
  Region 3's output array is the dense stage of its input arrays.

  The region runs the body at ten grid points; point `t` loads rows `5000 t … 5000 t + 4999` of the node array and the
  whole of every other array, and writes back rows `5000 t … 5000 t + 4999` of the output. By the entry-by-entry value of
  the body's stored term (`layerAt` of the row) and of the whole-array function `layerHost` (`layerAt` of the same row),
  what point `t` writes back is block `t` of `layerHost` of the region-entry arrays; the ten blocks cover the output
  array, so the array ends holding `layerHost` of them.
-/
import proofs.«112971_j66340064854633_1_alg».proof.Proof.Gen.KernelIdeal.Frame
import proofs.«112971_j66340064854633_1_alg».proof.Proof.Pay
import Idealize.ShloMosaic.Lib.Pipeline.Value

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.Stages (layerAt layerHost layerHost_apply)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node window and the output window are at block `(t, 0)` at point
    `t`; every other window is at block `(0, 0)`. -/
theorem idx_facts : ∀ t : Fin cfg3.N,
    win3_0.index t (0 : Fin 2) = t.val ∧ win3_0.index t (1 : Fin 2) = 0
    ∧ win3_9.index t (0 : Fin 2) = t.val ∧ win3_9.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- The grid has ten points. -/
theorem t_lt (t : Fin cfg3.N) : t.val < 10 := lt_of_lt_of_eq t.isLt N_3

/-- The node window's block at point `t` is rows `5000 t …` of its array. -/
theorem blk0_apply (c : Dev nD) (t : Fin cfg3.N) (p : Fin 5000) (l : Fin 128) (hb : 5000 * t.val + p.val < 50000) :
    (iblk3 V c 0 t : Vec Ideal S5000x128 .f32) (ix2 p l)
      = (V c (Pipeline.arrRef spec3 0) : S50000x128.Idx → Elt Ideal .f32) (ix2 ⟨5000 * t.val + p.val, hb⟩ l) := by
  have e0 : win3_0.index t (0 : Fin 2) = t.val := (idx_facts t).1
  have e1 : win3_0.index t (1 : Fin 2) = 0 := (idx_facts t).2.1
  unfold iblk3
  rw [View.read_apply]
  show V c (Pipeline.arrRef spec3 0) _ = V c (Pipeline.arrRef spec3 0) _
  refine congrArg (V c (Pipeline.arrRef spec3 0)) ?_
  funext a; apply Fin.ext
  match a with
  | ⟨0, _⟩ => show win3_0.index t (0 : Fin 2) * 5000 + 1 * p.val = 5000 * t.val + p.val; rw [e0]; omega
  | ⟨1, _⟩ => show win3_0.index t (1 : Fin 2) * 128 + 1 * l.val = l.val; rw [e1]; omega

/-- Window 1's block at every point is its whole array. -/
theorem blk1_apply (c : Dev nD) (t : Fin cfg3.N) (y : S128x128.Idx) :
    (iblk3 V c 1 t : Vec Ideal S128x128 .f32) y = (V c (Pipeline.arrRef spec3 1) : S128x128.Idx → Elt Ideal .f32) y := by
  have e0 : win3_1.index t (0 : Fin 2) = 0 := (idx_facts t).2.2.2.2.1
  have e1 : win3_1.index t (1 : Fin 2) = 0 := (idx_facts t).2.2.2.2.2.1
  unfold iblk3
  rw [View.read_apply]
  show V c (Pipeline.arrRef spec3 1) _ = V c (Pipeline.arrRef spec3 1) _
  refine congrArg (V c (Pipeline.arrRef spec3 1)) ?_
  funext a; apply Fin.ext
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- Window 2's block at every point is its whole array. -/
theorem blk2_apply (c : Dev nD) (t : Fin cfg3.N) (y : S1x128.Idx) :
    (iblk3 V c 2 t : Vec Ideal S1x128 .f32) y = (V c (Pipeline.arrRef spec3 2) : S1x128.Idx → Elt Ideal .f32) y := by
  have e0 : win3_2.index t (0 : Fin 2) = 0 := (idx_facts t).2.2.2.2.2.2.1
  have e1 : win3_2.index t (1 : Fin 2) = 0 := (idx_facts t).2.2.2.2.2.2.2.1
  unfold iblk3
  rw [View.read_apply]
  show V c (Pipeline.arrRef spec3 2) _ = V c (Pipeline.arrRef spec3 2) _
  refine congrArg (V c (Pipeline.arrRef spec3 2)) ?_
  funext a; apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- Window 3's block at every point is its whole array. -/
theorem blk3_apply (c : Dev nD) (t : Fin cfg3.N) (y : S128x128.Idx) :
    (iblk3 V c 3 t : Vec Ideal S128x128 .f32) y = (V c (Pipeline.arrRef spec3 3) : S128x128.Idx → Elt Ideal .f32) y := by
  have e0 : win3_3.index t (0 : Fin 2) = 0 := (idx_facts t).2.2.2.2.2.2.2.2.1
  have e1 : win3_3.index t (1 : Fin 2) = 0 := (idx_facts t).2.2.2.2.2.2.2.2.2.1
  unfold iblk3
  rw [View.read_apply]
  show V c (Pipeline.arrRef spec3 3) _ = V c (Pipeline.arrRef spec3 3) _
  refine congrArg (V c (Pipeline.arrRef spec3 3)) ?_
  funext a; apply Fin.ext
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- Window 4's block at every point is its whole array. -/
theorem blk4_apply (c : Dev nD) (t : Fin cfg3.N) (y : S1x128.Idx) :
    (iblk3 V c 4 t : Vec Ideal S1x128 .f32) y = (V c (Pipeline.arrRef spec3 4) : S1x128.Idx → Elt Ideal .f32) y := by
  have e0 : win3_4.index t (0 : Fin 2) = 0 := (idx_facts t).2.2.2.2.2.2.2.2.2.2.1
  have e1 : win3_4.index t (1 : Fin 2) = 0 := (idx_facts t).2.2.2.2.2.2.2.2.2.2.2.1
  unfold iblk3
  rw [View.read_apply]
  show V c (Pipeline.arrRef spec3 4) _ = V c (Pipeline.arrRef spec3 4) _
  refine congrArg (V c (Pipeline.arrRef spec3 4)) ?_
  funext a; apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- Window 5's block at every point is its whole array. -/
theorem blk5_apply (c : Dev nD) (t : Fin cfg3.N) (y : S1x128.Idx) :
    (iblk3 V c 5 t : Vec Ideal S1x128 .f32) y = (V c (Pipeline.arrRef spec3 5) : S1x128.Idx → Elt Ideal .f32) y := by
  have e0 : win3_5.index t (0 : Fin 2) = 0 := (idx_facts t).2.2.2.2.2.2.2.2.2.2.2.2.1
  have e1 : win3_5.index t (1 : Fin 2) = 0 := (idx_facts t).2.2.2.2.2.2.2.2.2.2.2.2.2.1
  unfold iblk3
  rw [View.read_apply]
  show V c (Pipeline.arrRef spec3 5) _ = V c (Pipeline.arrRef spec3 5) _
  refine congrArg (V c (Pipeline.arrRef spec3 5)) ?_
  funext a; apply Fin.ext
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- Window 6's block at every point is its whole array. -/
theorem blk6_apply (c : Dev nD) (t : Fin cfg3.N) (y : S1x128.Idx) :
    (iblk3 V c 6 t : Vec Ideal S1x128 .f32) y = (V c (Pipeline.arrRef spec3 6) : S1x128.Idx → Elt Ideal .f32) y := by
  have e0 : win3_6.index t (0 : Fin 2) = 0 := (idx_facts t).2.2.2.2.2.2.2.2.2.2.2.2.2.2.1
  have e1 : win3_6.index t (1 : Fin 2) = 0 := (idx_facts t).2.2.2.2.2.2.2.2.2.2.2.2.2.2.2.1
  unfold iblk3
  rw [View.read_apply]
  show V c (Pipeline.arrRef spec3 6) _ = V c (Pipeline.arrRef spec3 6) _
  refine congrArg (V c (Pipeline.arrRef spec3 6)) ?_
  funext a; apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-- Window 7's block at every point is its whole array. -/
theorem blk7_apply (c : Dev nD) (t : Fin cfg3.N) (y : S1x128.Idx) :
    (iblk3 V c 7 t : Vec Ideal S1x128 .f32) y = (V c (Pipeline.arrRef spec3 7) : S1x128.Idx → Elt Ideal .f32) y := by
  have e0 : win3_7.index t (0 : Fin 2) = 0 := (idx_facts t).2.2.2.2.2.2.2.2.2.2.2.2.2.2.2.2.1
  have e1 : win3_7.index t (1 : Fin 2) = 0 := (idx_facts t).2.2.2.2.2.2.2.2.2.2.2.2.2.2.2.2.2.1
  unfold iblk3
  rw [View.read_apply]
  show V c (Pipeline.arrRef spec3 7) _ = V c (Pipeline.arrRef spec3 7) _
  refine congrArg (V c (Pipeline.arrRef spec3 7)) ?_
  funext a; apply Fin.ext
  match a with
  | ⟨0, _⟩ => show win3_7.index t (0 : Fin 2) * 1 + 1 * (y 0).val = (y 0).val; rw [e0]; omega
  | ⟨1, _⟩ => show win3_7.index t (1 : Fin 2) * 128 + 1 * (y 1).val = (y 1).val; rw [e1]; omega

/-- Window 8's block at every point is its whole array. -/
theorem blk8_apply (c : Dev nD) (t : Fin cfg3.N) (y : S1x128.Idx) :
    (iblk3 V c 8 t : Vec Ideal S1x128 .f32) y = (V c (Pipeline.arrRef spec3 8) : S1x128.Idx → Elt Ideal .f32) y := by
  have e0 : win3_8.index t (0 : Fin 2) = 0 := (idx_facts t).2.2.2.2.2.2.2.2.2.2.2.2.2.2.2.2.2.2.1
  have e1 : win3_8.index t (1 : Fin 2) = 0 := (idx_facts t).2.2.2.2.2.2.2.2.2.2.2.2.2.2.2.2.2.2.2
  unfold iblk3
  rw [View.read_apply]
  show V c (Pipeline.arrRef spec3 8) _ = V c (Pipeline.arrRef spec3 8) _
  refine congrArg (V c (Pipeline.arrRef spec3 8)) ?_
  funext a; apply Fin.ext
  match a with
  | ⟨0, _⟩ => show win3_8.index t (0 : Fin 2) * 1 + 1 * (y 0).val = (y 0).val; rw [e0]; omega
  | ⟨1, _⟩ => show win3_8.index t (1 : Fin 2) * 128 + 1 * (y 1).val = (y 1).val; rw [e1]; omega

/-- The output window's block at point `t` sits at rows `5000 t …` of its array. -/
theorem emb9 (t : Fin cfg3.N) (p : Fin 5000) (q : Fin 128) (hb : 5000 * t.val + p.val < 50000) :
    (((cfg3.win 9).blk t).view.emb (ix2 p q) : S50000x128.Idx) = ix2 ⟨5000 * t.val + p.val, hb⟩ q := by
  have e0 : win3_9.index t (0 : Fin 2) = t.val := (idx_facts t).2.2.1
  have e1 : win3_9.index t (1 : Fin 2) = 0 := (idx_facts t).2.2.2.1
  funext a; apply Fin.ext
  match a with
  | ⟨0, _⟩ => show win3_9.index t (0 : Fin 2) * 5000 + 1 * p.val = 5000 * t.val + p.val; rw [e0]; omega
  | ⟨1, _⟩ => show win3_9.index t (1 : Fin 2) * 128 + 1 * q.val = q.val; rw [e1]; omega

/-- An index of the output array is in point `t`'s block iff each coordinate is in the block's range on its axis. -/
theorem mem_blk (t : Fin cfg3.N) (i : S50000x128.Idx) :
    i ∈ ((cfg3.win 9).blk t).view.set ↔ ∀ a : Fin 2, win3_9.index t a * S5000x128.size a ≤ (i a).val
      ∧ (i a).val < win3_9.index t a * S5000x128.size a + S5000x128.size a := by
  show i ∈ ((View.whole main_v172).slice (win3_9.rect t)).set ↔ _
  rw [View.set_slice_whole, Rect.mem_set_unit]
  exact Iff.rfl

/-- THE COVER: row `r` of the output array is in the block of point `r / 5000`. -/
theorem cover (i : S50000x128.Idx) :
    ∃ t : Fin cfg3.N, (cfg3.win 9).flush t = true ∧ i ∈ ((cfg3.win 9).blk t).view.set := by
  have hi0 : (i 0).val < 50000 := (i 0).isLt
  have hi1 : (i 1).val < 128 := (i 1).isLt
  have hN : cfg3.N = 10 := N_3
  have ht : (i 0).val / 5000 < cfg3.N := by rw [hN]; omega
  refine ⟨⟨(i 0).val / 5000, ht⟩, flush3_9 _, ?_⟩
  have e0 : win3_9.index ⟨(i 0).val / 5000, ht⟩ (0 : Fin 2) = (i 0).val / 5000 := (idx_facts ⟨(i 0).val / 5000, ht⟩).2.2.1
  have e1 : win3_9.index ⟨(i 0).val / 5000, ht⟩ (1 : Fin 2) = 0 := (idx_facts ⟨(i 0).val / 5000, ht⟩).2.2.2.1
  rw [mem_blk]
  intro a
  match a with
  | ⟨0, _⟩ =>
    show win3_9.index ⟨(i 0).val / 5000, ht⟩ (0 : Fin 2) * 5000 ≤ (i 0).val
      ∧ (i 0).val < win3_9.index ⟨(i 0).val / 5000, ht⟩ (0 : Fin 2) * 5000 + 5000
    rw [e0]; omega
  | ⟨1, _⟩ =>
    show win3_9.index ⟨(i 0).val / 5000, ht⟩ (1 : Fin 2) * 128 ≤ (i 1).val
      ∧ (i 1).val < win3_9.index ⟨(i 0).val / 5000, ht⟩ (1 : Fin 2) * 128 + 128
    rw [e1]; omega

section Value

variable (c : Dev nD) (b1 b2 g be mu var : Cert.Stages.A Cert.ReferenceIdeal.S128)

/-- The whole-array function the output array ends holding. -/
abbrev G : Cert.Stages.A Cert.ReferenceIdeal.S50000x128 :=
  layerHost (V c (Pipeline.arrRef spec3 0)) (V c (Pipeline.arrRef spec3 1)) b1 (V c (Pipeline.arrRef spec3 3)) b2 g be mu var

variable
  (h2 : ∀ j : Fin 128, (V c (Pipeline.arrRef spec3 2) : S1x128.Idx → Elt Ideal .f32) (ix2 (0 : Fin 1) j) = b1 (ix1 j))
  (h4 : ∀ j : Fin 128, (V c (Pipeline.arrRef spec3 4) : S1x128.Idx → Elt Ideal .f32) (ix2 (0 : Fin 1) j) = b2 (ix1 j))
  (h5 : ∀ j : Fin 128, (V c (Pipeline.arrRef spec3 5) : S1x128.Idx → Elt Ideal .f32) (ix2 (0 : Fin 1) j) = g (ix1 j))
  (h6 : ∀ j : Fin 128, (V c (Pipeline.arrRef spec3 6) : S1x128.Idx → Elt Ideal .f32) (ix2 (0 : Fin 1) j) = be (ix1 j))
  (h7 : ∀ j : Fin 128, (V c (Pipeline.arrRef spec3 7) : S1x128.Idx → Elt Ideal .f32) (ix2 (0 : Fin 1) j) = mu (ix1 j))
  (h8 : ∀ j : Fin 128, (V c (Pipeline.arrRef spec3 8) : S1x128.Idx → Elt Ideal .f32) (ix2 (0 : Fin 1) j) = var (ix1 j))

include h2 h4 h5 h6 h7 h8 in
set_option maxHeartbeats 1000000 in
/-- WHAT POINT `t` WRITES BACK is block `t` of `G`. -/
theorem flushed_eq (t : Fin cfg3.N) :
    (dat3 (F := Ideal) V c).flushed 9 t = ((cfg3.win 9).blk t).view.read (Elt Ideal) (G V c b1 b2 g be mu var) := by
  show (cfg3.win 9).cut (grid3.coords t) ((dat3 (F := Ideal) V c).after 9 t) = _
  rw [after3_9]
  unfold out3_9
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  have hb : 5000 * t.val + p.val < 50000 := by have := t_lt t; have := p.isLt; omega
  show k3_pay1 (k3_pay2 (iblk3 V c 0 t) (iblk3 V c 1 t) (iblk3 V c 2 t) (iblk3 V c 3 t) (iblk3 V c 4 t) (iblk3 V c 5 t)
      (iblk3 V c 8 t) (iblk3 V c 7 t)) (iblk3 V c 6 t) (ix2 p q)
    = G V c b1 b2 g be mu var (((cfg3.win 9).blk t).view.emb (ix2 p q))
  refine (Pay.pay3_apply _ _ _ _ _ _ _ _ _ p q).trans ?_
  rw [emb9 t p q hb]
  refine Eq.trans ?_ (layerHost_apply _ _ _ _ _ _ _ _ _ ⟨5000 * t.val + p.val, hb⟩ q).symm
  exact Cert.Stages.layerAt_congr (fun l => blk0_apply V c t p l hb) (fun l k => blk1_apply V c t _)
    (fun l k => blk3_apply V c t _) (fun k => (blk2_apply V c t _).trans (h2 k)) (fun k => (blk4_apply V c t _).trans (h4 k))
    (fun k => (blk5_apply V c t _).trans (h5 k)) (fun k => (blk6_apply V c t _).trans (h6 k))
    (fun k => (blk7_apply V c t _).trans (h7 k)) (fun k => (blk8_apply V c t _).trans (h8 k)) q

include h2 h4 h5 h6 h7 h8 in
/-- REGION 3'S OUTPUT ARRAY, as the frame's proof data names it, is the dense stage `layerHost` of the region-entry
    arrays (the per-channel vectors read off their one-row arrays). -/
theorem value :
    (dat3 (F := Ideal) V c).arrAt 9 cfg3.N
      = layerHost (V c (Pipeline.arrRef spec3 0)) (V c (Pipeline.arrRef spec3 1)) b1 (V c (Pipeline.arrRef spec3 3)) b2 g be mu var :=
  (dat3 (F := Ideal) V c).arrAt_eq_of_cover 9 (G V c b1 b2 g be mu var)
    (fun t _ => flushed_eq V c b1 b2 g be mu var h2 h4 h5 h6 h7 h8 t) cover

end Value

end Cert.KernelIdeal.Region3

end
-- ==== Proof.KernelValue.lean ====
/-
  What the idealized kernel program leaves in its two result buffers, as a function of its eighteen arguments.

  The program's final memory is the fold `W13` of the launch memory through its segments (five stretches of host
  operations, then four times a tiled region followed by a stretch). Walking the fold forwards, each boundary's
  contents are named at the few buffers later segments read: before region `K` the aggregated features
  `aggF (h_K) src dst` and the `K`-th slices of the stacked parameters; after it the region's output array, which
  is the dense stage `layerHost` of those (the region's value), i.e. `h_(K+1)`; the edge-index rows and the argument
  buffers are written by nobody. After the last stretch the second result buffer still holds `h_4` and the first
  holds its pooled mean.
-/
import proofs.«112971_j66340064854633_1_alg».proof.Proof.Gen.KernelIdeal.Frame
import proofs.«112971_j66340064854633_1_alg».proof.Proof.Gen.ReferenceIdeal
import proofs.«112971_j66340064854633_1_alg».proof.Proof.Stages
import proofs.«112971_j66340064854633_1_alg».proof.Proof.KernelRun
import proofs.«112971_j66340064854633_1_alg».proof.Proof.KS0
import proofs.«112971_j66340064854633_1_alg».proof.Proof.KS1
import proofs.«112971_j66340064854633_1_alg».proof.Proof.KS2
import proofs.«112971_j66340064854633_1_alg».proof.Proof.KS3
import proofs.«112971_j66340064854633_1_alg».proof.Proof.KS4
import proofs.«112971_j66340064854633_1_alg».proof.Proof.Region0
import proofs.«112971_j66340064854633_1_alg».proof.Proof.Region1
import proofs.«112971_j66340064854633_1_alg».proof.Proof.Region2
import proofs.«112971_j66340064854633_1_alg».proof.Proof.Region3
import Idealize.ShloMosaic.Lib.ValueLayout

set_option maxRecDepth 16384

noncomputable section

namespace Cert.KernelIdeal.KV

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The eighteen argument arrays of core `c` at launch. -/
def X : Cert.Stages.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)

/-! ## Before region 0 -/

theorem at5_agg : W5 m ρ c (Proc.devRef .tc main_v41) = Cert.Stages.aggF (Cert.Stages.h0 (X m c)) (Cert.Stages.srcIdx (X m c).a1) (Cert.Stages.dstIdx (X m c).a1) :=
  Cert.KernelIdeal.KS0.agg (W0 m ρ c)
theorem at5_w1 : W5 m ρ c (Proc.devRef .tc main_v43) = Cert.Stages.paramW0 (X m c).a10 := Cert.KernelIdeal.KS0.w1 (W0 m ρ c)
theorem at5_w2 : W5 m ρ c (Proc.devRef .tc main_v48) = Cert.Stages.paramW0 (X m c).a12 := Cert.KernelIdeal.KS0.w2 (W0 m ρ c)
theorem at5_b1 : W5 m ρ c (Proc.devRef .tc main_v46) = shapeCast S1x128 (Cert.Stages.paramV0 (X m c).a11) Facts₀.shapeCasts_S128_S1x128 :=
  Cert.KernelIdeal.KS0.b1 (W0 m ρ c)
theorem at5_b2 : W5 m ρ c (Proc.devRef .tc main_v51) = shapeCast S1x128 (Cert.Stages.paramV0 (X m c).a13) Facts₀.shapeCasts_S128_S1x128 :=
  Cert.KernelIdeal.KS0.b2 (W0 m ρ c)
theorem at5_g : W5 m ρ c (Proc.devRef .tc main_v54) = shapeCast S1x128 (Cert.Stages.paramV0 (X m c).a14) Facts₀.shapeCasts_S128_S1x128 :=
  Cert.KernelIdeal.KS0.g (W0 m ρ c)
theorem at5_be : W5 m ρ c (Proc.devRef .tc main_v57) = shapeCast S1x128 (Cert.Stages.paramV0 (X m c).a15) Facts₀.shapeCasts_S128_S1x128 :=
  Cert.KernelIdeal.KS0.be (W0 m ρ c)
theorem at5_mu : W5 m ρ c (Proc.devRef .tc main_v60) = shapeCast S1x128 (Cert.Stages.paramV0 (X m c).a16) Facts₀.shapeCasts_S128_S1x128 :=
  Cert.KernelIdeal.KS0.mu (W0 m ρ c)
theorem at5_var : W5 m ρ c (Proc.devRef .tc main_v63) = shapeCast S1x128 (Cert.Stages.paramV0 (X m c).a17) Facts₀.shapeCasts_S128_S1x128 :=
  Cert.KernelIdeal.KS0.var (W0 m ρ c)
theorem at5_v26 : W5 m ρ c (Proc.devRef .tc main_v26) = Cert.Stages.srcIdx (X m c).a1 := Cert.KernelIdeal.KS0.src (W0 m ρ c)
theorem at5_v28 : W5 m ρ c (Proc.devRef .tc main_v28) = Cert.Stages.dstIdx (X m c).a1 := Cert.KernelIdeal.KS0.dst (W0 m ρ c)
theorem at5_arg2 : W5 m ρ c (Proc.devRef .tc main_arg2) = (X m c).a2 := Cert.KernelIdeal.KS0.keep_arg2 (W0 m ρ c)
theorem at5_arg10 : W5 m ρ c (Proc.devRef .tc main_arg10) = (X m c).a10 := Cert.KernelIdeal.KS0.keep_arg10 (W0 m ρ c)
theorem at5_arg11 : W5 m ρ c (Proc.devRef .tc main_arg11) = (X m c).a11 := Cert.KernelIdeal.KS0.keep_arg11 (W0 m ρ c)
theorem at5_arg12 : W5 m ρ c (Proc.devRef .tc main_arg12) = (X m c).a12 := Cert.KernelIdeal.KS0.keep_arg12 (W0 m ρ c)
theorem at5_arg13 : W5 m ρ c (Proc.devRef .tc main_arg13) = (X m c).a13 := Cert.KernelIdeal.KS0.keep_arg13 (W0 m ρ c)
theorem at5_arg14 : W5 m ρ c (Proc.devRef .tc main_arg14) = (X m c).a14 := Cert.KernelIdeal.KS0.keep_arg14 (W0 m ρ c)
theorem at5_arg15 : W5 m ρ c (Proc.devRef .tc main_arg15) = (X m c).a15 := Cert.KernelIdeal.KS0.keep_arg15 (W0 m ρ c)
theorem at5_arg16 : W5 m ρ c (Proc.devRef .tc main_arg16) = (X m c).a16 := Cert.KernelIdeal.KS0.keep_arg16 (W0 m ρ c)
theorem at5_arg17 : W5 m ρ c (Proc.devRef .tc main_arg17) = (X m c).a17 := Cert.KernelIdeal.KS0.keep_arg17 (W0 m ρ c)

/-! ## After region 0 -/

set_option maxHeartbeats 4000000 in
theorem at6_h : W6 m ρ c (Proc.devRef .tc main_v64) = Cert.Stages.h1 (X m c) := by
  refine (W6_arr m ρ c 9).trans ?_
  refine (Cert.KernelIdeal.Region0.value (V5 m ρ) c (Cert.Stages.paramV0 (X m c).a11) (Cert.Stages.paramV0 (X m c).a13)
    (Cert.Stages.paramV0 (X m c).a14) (Cert.Stages.paramV0 (X m c).a15) (Cert.Stages.paramV0 (X m c).a16)
    (Cert.Stages.paramV0 (X m c).a17) ?_ ?_ ?_ ?_ ?_ ?_).trans ?_
  · intro j
    rw [show V5 m ρ c (Pipeline.arrRef spec0 2) = shapeCast S1x128 (Cert.Stages.paramV0 (X m c).a11) Facts₀.shapeCasts_S128_S1x128 from at5_b1 m ρ c]
    exact shapeCast_a_1a_apply _ _ 0 j
  · intro j
    rw [show V5 m ρ c (Pipeline.arrRef spec0 4) = shapeCast S1x128 (Cert.Stages.paramV0 (X m c).a13) Facts₀.shapeCasts_S128_S1x128 from at5_b2 m ρ c]
    exact shapeCast_a_1a_apply _ _ 0 j
  · intro j
    rw [show V5 m ρ c (Pipeline.arrRef spec0 5) = shapeCast S1x128 (Cert.Stages.paramV0 (X m c).a14) Facts₀.shapeCasts_S128_S1x128 from at5_g m ρ c]
    exact shapeCast_a_1a_apply _ _ 0 j
  · intro j
    rw [show V5 m ρ c (Pipeline.arrRef spec0 6) = shapeCast S1x128 (Cert.Stages.paramV0 (X m c).a15) Facts₀.shapeCasts_S128_S1x128 from at5_be m ρ c]
    exact shapeCast_a_1a_apply _ _ 0 j
  · intro j
    rw [show V5 m ρ c (Pipeline.arrRef spec0 7) = shapeCast S1x128 (Cert.Stages.paramV0 (X m c).a16) Facts₀.shapeCasts_S128_S1x128 from at5_mu m ρ c]
    exact shapeCast_a_1a_apply _ _ 0 j
  · intro j
    rw [show V5 m ρ c (Pipeline.arrRef spec0 8) = shapeCast S1x128 (Cert.Stages.paramV0 (X m c).a17) Facts₀.shapeCasts_S128_S1x128 from at5_var m ρ c]
    exact shapeCast_a_1a_apply _ _ 0 j
  · rw [show V5 m ρ c (Pipeline.arrRef spec0 0) = Cert.Stages.aggF (Cert.Stages.h0 (X m c)) (Cert.Stages.srcIdx (X m c).a1) (Cert.Stages.dstIdx (X m c).a1) from at5_agg m ρ c,
      show V5 m ρ c (Pipeline.arrRef spec0 1) = Cert.Stages.paramW0 (X m c).a10 from at5_w1 m ρ c,
      show V5 m ρ c (Pipeline.arrRef spec0 3) = Cert.Stages.paramW0 (X m c).a12 from at5_w2 m ρ c]
    rfl
theorem at6_v26 : W6 m ρ c (Proc.devRef .tc main_v26) = Cert.Stages.srcIdx (X m c).a1 :=
  (W6_of_ne m ρ c main_v26 (by decide)).trans (at5_v26 m ρ c)
theorem at6_v28 : W6 m ρ c (Proc.devRef .tc main_v28) = Cert.Stages.dstIdx (X m c).a1 :=
  (W6_of_ne m ρ c main_v28 (by decide)).trans (at5_v28 m ρ c)
theorem at6_arg2 : W6 m ρ c (Proc.devRef .tc main_arg2) = (X m c).a2 :=
  (W6_of_ne m ρ c main_arg2 (by decide)).trans (at5_arg2 m ρ c)
theorem at6_arg10 : W6 m ρ c (Proc.devRef .tc main_arg10) = (X m c).a10 :=
  (W6_of_ne m ρ c main_arg10 (by decide)).trans (at5_arg10 m ρ c)
theorem at6_arg11 : W6 m ρ c (Proc.devRef .tc main_arg11) = (X m c).a11 :=
  (W6_of_ne m ρ c main_arg11 (by decide)).trans (at5_arg11 m ρ c)
theorem at6_arg12 : W6 m ρ c (Proc.devRef .tc main_arg12) = (X m c).a12 :=
  (W6_of_ne m ρ c main_arg12 (by decide)).trans (at5_arg12 m ρ c)
theorem at6_arg13 : W6 m ρ c (Proc.devRef .tc main_arg13) = (X m c).a13 :=
  (W6_of_ne m ρ c main_arg13 (by decide)).trans (at5_arg13 m ρ c)
theorem at6_arg14 : W6 m ρ c (Proc.devRef .tc main_arg14) = (X m c).a14 :=
  (W6_of_ne m ρ c main_arg14 (by decide)).trans (at5_arg14 m ρ c)
theorem at6_arg15 : W6 m ρ c (Proc.devRef .tc main_arg15) = (X m c).a15 :=
  (W6_of_ne m ρ c main_arg15 (by decide)).trans (at5_arg15 m ρ c)
theorem at6_arg16 : W6 m ρ c (Proc.devRef .tc main_arg16) = (X m c).a16 :=
  (W6_of_ne m ρ c main_arg16 (by decide)).trans (at5_arg16 m ρ c)
theorem at6_arg17 : W6 m ρ c (Proc.devRef .tc main_arg17) = (X m c).a17 :=
  (W6_of_ne m ρ c main_arg17 (by decide)).trans (at5_arg17 m ρ c)

/-! ## Before region 1 -/

theorem at7_agg : W7 m ρ c (Proc.devRef .tc main_v77) = Cert.Stages.aggF (Cert.Stages.h1 (X m c)) (Cert.Stages.srcIdx (X m c).a1) (Cert.Stages.dstIdx (X m c).a1) :=
  (Cert.KernelIdeal.KS1.agg (W6 m ρ c)).trans (by rw [at6_h m ρ c, at6_v26 m ρ c, at6_v28 m ρ c])
theorem at7_w1 : W7 m ρ c (Proc.devRef .tc main_v79) = Cert.Stages.paramW1 (X m c).a10 :=
  (Cert.KernelIdeal.KS1.w1 (W6 m ρ c)).trans (by rw [at6_arg10 m ρ c])
theorem at7_w2 : W7 m ρ c (Proc.devRef .tc main_v84) = Cert.Stages.paramW1 (X m c).a12 :=
  (Cert.KernelIdeal.KS1.w2 (W6 m ρ c)).trans (by rw [at6_arg12 m ρ c])
theorem at7_b1 : W7 m ρ c (Proc.devRef .tc main_v82) = shapeCast S1x128 (Cert.Stages.paramV1 (X m c).a11) Facts₀.shapeCasts_S128_S1x128 :=
  (Cert.KernelIdeal.KS1.b1 (W6 m ρ c)).trans (by rw [at6_arg11 m ρ c])
theorem at7_b2 : W7 m ρ c (Proc.devRef .tc main_v87) = shapeCast S1x128 (Cert.Stages.paramV1 (X m c).a13) Facts₀.shapeCasts_S128_S1x128 :=
  (Cert.KernelIdeal.KS1.b2 (W6 m ρ c)).trans (by rw [at6_arg13 m ρ c])
theorem at7_g : W7 m ρ c (Proc.devRef .tc main_v90) = shapeCast S1x128 (Cert.Stages.paramV1 (X m c).a14) Facts₀.shapeCasts_S128_S1x128 :=
  (Cert.KernelIdeal.KS1.g (W6 m ρ c)).trans (by rw [at6_arg14 m ρ c])
theorem at7_be : W7 m ρ c (Proc.devRef .tc main_v93) = shapeCast S1x128 (Cert.Stages.paramV1 (X m c).a15) Facts₀.shapeCasts_S128_S1x128 :=
  (Cert.KernelIdeal.KS1.be (W6 m ρ c)).trans (by rw [at6_arg15 m ρ c])
theorem at7_mu : W7 m ρ c (Proc.devRef .tc main_v96) = shapeCast S1x128 (Cert.Stages.paramV1 (X m c).a16) Facts₀.shapeCasts_S128_S1x128 :=
  (Cert.KernelIdeal.KS1.mu (W6 m ρ c)).trans (by rw [at6_arg16 m ρ c])
theorem at7_var : W7 m ρ c (Proc.devRef .tc main_v99) = shapeCast S1x128 (Cert.Stages.paramV1 (X m c).a17) Facts₀.shapeCasts_S128_S1x128 :=
  (Cert.KernelIdeal.KS1.var (W6 m ρ c)).trans (by rw [at6_arg17 m ρ c])
theorem at7_v26 : W7 m ρ c (Proc.devRef .tc main_v26) = Cert.Stages.srcIdx (X m c).a1 :=
  (Cert.KernelIdeal.KS1.keep_v26 (W6 m ρ c)).trans (at6_v26 m ρ c)
theorem at7_v28 : W7 m ρ c (Proc.devRef .tc main_v28) = Cert.Stages.dstIdx (X m c).a1 :=
  (Cert.KernelIdeal.KS1.keep_v28 (W6 m ρ c)).trans (at6_v28 m ρ c)
theorem at7_arg2 : W7 m ρ c (Proc.devRef .tc main_arg2) = (X m c).a2 :=
  (Cert.KernelIdeal.KS1.keep_arg2 (W6 m ρ c)).trans (at6_arg2 m ρ c)
theorem at7_arg10 : W7 m ρ c (Proc.devRef .tc main_arg10) = (X m c).a10 :=
  (Cert.KernelIdeal.KS1.keep_arg10 (W6 m ρ c)).trans (at6_arg10 m ρ c)
theorem at7_arg11 : W7 m ρ c (Proc.devRef .tc main_arg11) = (X m c).a11 :=
  (Cert.KernelIdeal.KS1.keep_arg11 (W6 m ρ c)).trans (at6_arg11 m ρ c)
theorem at7_arg12 : W7 m ρ c (Proc.devRef .tc main_arg12) = (X m c).a12 :=
  (Cert.KernelIdeal.KS1.keep_arg12 (W6 m ρ c)).trans (at6_arg12 m ρ c)
theorem at7_arg13 : W7 m ρ c (Proc.devRef .tc main_arg13) = (X m c).a13 :=
  (Cert.KernelIdeal.KS1.keep_arg13 (W6 m ρ c)).trans (at6_arg13 m ρ c)
theorem at7_arg14 : W7 m ρ c (Proc.devRef .tc main_arg14) = (X m c).a14 :=
  (Cert.KernelIdeal.KS1.keep_arg14 (W6 m ρ c)).trans (at6_arg14 m ρ c)
theorem at7_arg15 : W7 m ρ c (Proc.devRef .tc main_arg15) = (X m c).a15 :=
  (Cert.KernelIdeal.KS1.keep_arg15 (W6 m ρ c)).trans (at6_arg15 m ρ c)
theorem at7_arg16 : W7 m ρ c (Proc.devRef .tc main_arg16) = (X m c).a16 :=
  (Cert.KernelIdeal.KS1.keep_arg16 (W6 m ρ c)).trans (at6_arg16 m ρ c)
theorem at7_arg17 : W7 m ρ c (Proc.devRef .tc main_arg17) = (X m c).a17 :=
  (Cert.KernelIdeal.KS1.keep_arg17 (W6 m ρ c)).trans (at6_arg17 m ρ c)

/-! ## After region 1 -/

set_option maxHeartbeats 4000000 in
theorem at8_h : W8 m ρ c (Proc.devRef .tc main_v100) = Cert.Stages.h2 (X m c) := by
  refine (W8_arr m ρ c 9).trans ?_
  refine (Cert.KernelIdeal.Region1.value (V7 m ρ) c (Cert.Stages.paramV1 (X m c).a11) (Cert.Stages.paramV1 (X m c).a13)
    (Cert.Stages.paramV1 (X m c).a14) (Cert.Stages.paramV1 (X m c).a15) (Cert.Stages.paramV1 (X m c).a16)
    (Cert.Stages.paramV1 (X m c).a17) ?_ ?_ ?_ ?_ ?_ ?_).trans ?_
  · intro j
    rw [show V7 m ρ c (Pipeline.arrRef spec1 2) = shapeCast S1x128 (Cert.Stages.paramV1 (X m c).a11) Facts₀.shapeCasts_S128_S1x128 from at7_b1 m ρ c]
    exact shapeCast_a_1a_apply _ _ 0 j
  · intro j
    rw [show V7 m ρ c (Pipeline.arrRef spec1 4) = shapeCast S1x128 (Cert.Stages.paramV1 (X m c).a13) Facts₀.shapeCasts_S128_S1x128 from at7_b2 m ρ c]
    exact shapeCast_a_1a_apply _ _ 0 j
  · intro j
    rw [show V7 m ρ c (Pipeline.arrRef spec1 5) = shapeCast S1x128 (Cert.Stages.paramV1 (X m c).a14) Facts₀.shapeCasts_S128_S1x128 from at7_g m ρ c]
    exact shapeCast_a_1a_apply _ _ 0 j
  · intro j
    rw [show V7 m ρ c (Pipeline.arrRef spec1 6) = shapeCast S1x128 (Cert.Stages.paramV1 (X m c).a15) Facts₀.shapeCasts_S128_S1x128 from at7_be m ρ c]
    exact shapeCast_a_1a_apply _ _ 0 j
  · intro j
    rw [show V7 m ρ c (Pipeline.arrRef spec1 7) = shapeCast S1x128 (Cert.Stages.paramV1 (X m c).a16) Facts₀.shapeCasts_S128_S1x128 from at7_mu m ρ c]
    exact shapeCast_a_1a_apply _ _ 0 j
  · intro j
    rw [show V7 m ρ c (Pipeline.arrRef spec1 8) = shapeCast S1x128 (Cert.Stages.paramV1 (X m c).a17) Facts₀.shapeCasts_S128_S1x128 from at7_var m ρ c]
    exact shapeCast_a_1a_apply _ _ 0 j
  · rw [show V7 m ρ c (Pipeline.arrRef spec1 0) = Cert.Stages.aggF (Cert.Stages.h1 (X m c)) (Cert.Stages.srcIdx (X m c).a1) (Cert.Stages.dstIdx (X m c).a1) from at7_agg m ρ c,
      show V7 m ρ c (Pipeline.arrRef spec1 1) = Cert.Stages.paramW1 (X m c).a10 from at7_w1 m ρ c,
      show V7 m ρ c (Pipeline.arrRef spec1 3) = Cert.Stages.paramW1 (X m c).a12 from at7_w2 m ρ c]
    rfl
theorem at8_v26 : W8 m ρ c (Proc.devRef .tc main_v26) = Cert.Stages.srcIdx (X m c).a1 :=
  (W8_of_ne m ρ c main_v26 (by decide)).trans (at7_v26 m ρ c)
theorem at8_v28 : W8 m ρ c (Proc.devRef .tc main_v28) = Cert.Stages.dstIdx (X m c).a1 :=
  (W8_of_ne m ρ c main_v28 (by decide)).trans (at7_v28 m ρ c)
theorem at8_arg2 : W8 m ρ c (Proc.devRef .tc main_arg2) = (X m c).a2 :=
  (W8_of_ne m ρ c main_arg2 (by decide)).trans (at7_arg2 m ρ c)
theorem at8_arg10 : W8 m ρ c (Proc.devRef .tc main_arg10) = (X m c).a10 :=
  (W8_of_ne m ρ c main_arg10 (by decide)).trans (at7_arg10 m ρ c)
theorem at8_arg11 : W8 m ρ c (Proc.devRef .tc main_arg11) = (X m c).a11 :=
  (W8_of_ne m ρ c main_arg11 (by decide)).trans (at7_arg11 m ρ c)
theorem at8_arg12 : W8 m ρ c (Proc.devRef .tc main_arg12) = (X m c).a12 :=
  (W8_of_ne m ρ c main_arg12 (by decide)).trans (at7_arg12 m ρ c)
theorem at8_arg13 : W8 m ρ c (Proc.devRef .tc main_arg13) = (X m c).a13 :=
  (W8_of_ne m ρ c main_arg13 (by decide)).trans (at7_arg13 m ρ c)
theorem at8_arg14 : W8 m ρ c (Proc.devRef .tc main_arg14) = (X m c).a14 :=
  (W8_of_ne m ρ c main_arg14 (by decide)).trans (at7_arg14 m ρ c)
theorem at8_arg15 : W8 m ρ c (Proc.devRef .tc main_arg15) = (X m c).a15 :=
  (W8_of_ne m ρ c main_arg15 (by decide)).trans (at7_arg15 m ρ c)
theorem at8_arg16 : W8 m ρ c (Proc.devRef .tc main_arg16) = (X m c).a16 :=
  (W8_of_ne m ρ c main_arg16 (by decide)).trans (at7_arg16 m ρ c)
theorem at8_arg17 : W8 m ρ c (Proc.devRef .tc main_arg17) = (X m c).a17 :=
  (W8_of_ne m ρ c main_arg17 (by decide)).trans (at7_arg17 m ρ c)

/-! ## Before region 2 -/

theorem at9_agg : W9 m ρ c (Proc.devRef .tc main_v113) = Cert.Stages.aggF (Cert.Stages.h2 (X m c)) (Cert.Stages.srcIdx (X m c).a1) (Cert.Stages.dstIdx (X m c).a1) :=
  (Cert.KernelIdeal.KS2.agg (W8 m ρ c)).trans (by rw [at8_h m ρ c, at8_v26 m ρ c, at8_v28 m ρ c])
theorem at9_w1 : W9 m ρ c (Proc.devRef .tc main_v115) = Cert.Stages.paramW2 (X m c).a10 :=
  (Cert.KernelIdeal.KS2.w1 (W8 m ρ c)).trans (by rw [at8_arg10 m ρ c])
theorem at9_w2 : W9 m ρ c (Proc.devRef .tc main_v120) = Cert.Stages.paramW2 (X m c).a12 :=
  (Cert.KernelIdeal.KS2.w2 (W8 m ρ c)).trans (by rw [at8_arg12 m ρ c])
theorem at9_b1 : W9 m ρ c (Proc.devRef .tc main_v118) = shapeCast S1x128 (Cert.Stages.paramV2 (X m c).a11) Facts₀.shapeCasts_S128_S1x128 :=
  (Cert.KernelIdeal.KS2.b1 (W8 m ρ c)).trans (by rw [at8_arg11 m ρ c])
theorem at9_b2 : W9 m ρ c (Proc.devRef .tc main_v123) = shapeCast S1x128 (Cert.Stages.paramV2 (X m c).a13) Facts₀.shapeCasts_S128_S1x128 :=
  (Cert.KernelIdeal.KS2.b2 (W8 m ρ c)).trans (by rw [at8_arg13 m ρ c])
theorem at9_g : W9 m ρ c (Proc.devRef .tc main_v126) = shapeCast S1x128 (Cert.Stages.paramV2 (X m c).a14) Facts₀.shapeCasts_S128_S1x128 :=
  (Cert.KernelIdeal.KS2.g (W8 m ρ c)).trans (by rw [at8_arg14 m ρ c])
theorem at9_be : W9 m ρ c (Proc.devRef .tc main_v129) = shapeCast S1x128 (Cert.Stages.paramV2 (X m c).a15) Facts₀.shapeCasts_S128_S1x128 :=
  (Cert.KernelIdeal.KS2.be (W8 m ρ c)).trans (by rw [at8_arg15 m ρ c])
theorem at9_mu : W9 m ρ c (Proc.devRef .tc main_v132) = shapeCast S1x128 (Cert.Stages.paramV2 (X m c).a16) Facts₀.shapeCasts_S128_S1x128 :=
  (Cert.KernelIdeal.KS2.mu (W8 m ρ c)).trans (by rw [at8_arg16 m ρ c])
theorem at9_var : W9 m ρ c (Proc.devRef .tc main_v135) = shapeCast S1x128 (Cert.Stages.paramV2 (X m c).a17) Facts₀.shapeCasts_S128_S1x128 :=
  (Cert.KernelIdeal.KS2.var (W8 m ρ c)).trans (by rw [at8_arg17 m ρ c])
theorem at9_v26 : W9 m ρ c (Proc.devRef .tc main_v26) = Cert.Stages.srcIdx (X m c).a1 :=
  (Cert.KernelIdeal.KS2.keep_v26 (W8 m ρ c)).trans (at8_v26 m ρ c)
theorem at9_v28 : W9 m ρ c (Proc.devRef .tc main_v28) = Cert.Stages.dstIdx (X m c).a1 :=
  (Cert.KernelIdeal.KS2.keep_v28 (W8 m ρ c)).trans (at8_v28 m ρ c)
theorem at9_arg2 : W9 m ρ c (Proc.devRef .tc main_arg2) = (X m c).a2 :=
  (Cert.KernelIdeal.KS2.keep_arg2 (W8 m ρ c)).trans (at8_arg2 m ρ c)
theorem at9_arg10 : W9 m ρ c (Proc.devRef .tc main_arg10) = (X m c).a10 :=
  (Cert.KernelIdeal.KS2.keep_arg10 (W8 m ρ c)).trans (at8_arg10 m ρ c)
theorem at9_arg11 : W9 m ρ c (Proc.devRef .tc main_arg11) = (X m c).a11 :=
  (Cert.KernelIdeal.KS2.keep_arg11 (W8 m ρ c)).trans (at8_arg11 m ρ c)
theorem at9_arg12 : W9 m ρ c (Proc.devRef .tc main_arg12) = (X m c).a12 :=
  (Cert.KernelIdeal.KS2.keep_arg12 (W8 m ρ c)).trans (at8_arg12 m ρ c)
theorem at9_arg13 : W9 m ρ c (Proc.devRef .tc main_arg13) = (X m c).a13 :=
  (Cert.KernelIdeal.KS2.keep_arg13 (W8 m ρ c)).trans (at8_arg13 m ρ c)
theorem at9_arg14 : W9 m ρ c (Proc.devRef .tc main_arg14) = (X m c).a14 :=
  (Cert.KernelIdeal.KS2.keep_arg14 (W8 m ρ c)).trans (at8_arg14 m ρ c)
theorem at9_arg15 : W9 m ρ c (Proc.devRef .tc main_arg15) = (X m c).a15 :=
  (Cert.KernelIdeal.KS2.keep_arg15 (W8 m ρ c)).trans (at8_arg15 m ρ c)
theorem at9_arg16 : W9 m ρ c (Proc.devRef .tc main_arg16) = (X m c).a16 :=
  (Cert.KernelIdeal.KS2.keep_arg16 (W8 m ρ c)).trans (at8_arg16 m ρ c)
theorem at9_arg17 : W9 m ρ c (Proc.devRef .tc main_arg17) = (X m c).a17 :=
  (Cert.KernelIdeal.KS2.keep_arg17 (W8 m ρ c)).trans (at8_arg17 m ρ c)

/-! ## After region 2 -/

set_option maxHeartbeats 4000000 in
theorem at10_h : W10 m ρ c (Proc.devRef .tc main_v136) = Cert.Stages.h3 (X m c) := by
  refine (W10_arr m ρ c 9).trans ?_
  refine (Cert.KernelIdeal.Region2.value (V9 m ρ) c (Cert.Stages.paramV2 (X m c).a11) (Cert.Stages.paramV2 (X m c).a13)
    (Cert.Stages.paramV2 (X m c).a14) (Cert.Stages.paramV2 (X m c).a15) (Cert.Stages.paramV2 (X m c).a16)
    (Cert.Stages.paramV2 (X m c).a17) ?_ ?_ ?_ ?_ ?_ ?_).trans ?_
  · intro j
    rw [show V9 m ρ c (Pipeline.arrRef spec2 2) = shapeCast S1x128 (Cert.Stages.paramV2 (X m c).a11) Facts₀.shapeCasts_S128_S1x128 from at9_b1 m ρ c]
    exact shapeCast_a_1a_apply _ _ 0 j
  · intro j
    rw [show V9 m ρ c (Pipeline.arrRef spec2 4) = shapeCast S1x128 (Cert.Stages.paramV2 (X m c).a13) Facts₀.shapeCasts_S128_S1x128 from at9_b2 m ρ c]
    exact shapeCast_a_1a_apply _ _ 0 j
  · intro j
    rw [show V9 m ρ c (Pipeline.arrRef spec2 5) = shapeCast S1x128 (Cert.Stages.paramV2 (X m c).a14) Facts₀.shapeCasts_S128_S1x128 from at9_g m ρ c]
    exact shapeCast_a_1a_apply _ _ 0 j
  · intro j
    rw [show V9 m ρ c (Pipeline.arrRef spec2 6) = shapeCast S1x128 (Cert.Stages.paramV2 (X m c).a15) Facts₀.shapeCasts_S128_S1x128 from at9_be m ρ c]
    exact shapeCast_a_1a_apply _ _ 0 j
  · intro j
    rw [show V9 m ρ c (Pipeline.arrRef spec2 7) = shapeCast S1x128 (Cert.Stages.paramV2 (X m c).a16) Facts₀.shapeCasts_S128_S1x128 from at9_mu m ρ c]
    exact shapeCast_a_1a_apply _ _ 0 j
  · intro j
    rw [show V9 m ρ c (Pipeline.arrRef spec2 8) = shapeCast S1x128 (Cert.Stages.paramV2 (X m c).a17) Facts₀.shapeCasts_S128_S1x128 from at9_var m ρ c]
    exact shapeCast_a_1a_apply _ _ 0 j
  · rw [show V9 m ρ c (Pipeline.arrRef spec2 0) = Cert.Stages.aggF (Cert.Stages.h2 (X m c)) (Cert.Stages.srcIdx (X m c).a1) (Cert.Stages.dstIdx (X m c).a1) from at9_agg m ρ c,
      show V9 m ρ c (Pipeline.arrRef spec2 1) = Cert.Stages.paramW2 (X m c).a10 from at9_w1 m ρ c,
      show V9 m ρ c (Pipeline.arrRef spec2 3) = Cert.Stages.paramW2 (X m c).a12 from at9_w2 m ρ c]
    rfl
theorem at10_v26 : W10 m ρ c (Proc.devRef .tc main_v26) = Cert.Stages.srcIdx (X m c).a1 :=
  (W10_of_ne m ρ c main_v26 (by decide)).trans (at9_v26 m ρ c)
theorem at10_v28 : W10 m ρ c (Proc.devRef .tc main_v28) = Cert.Stages.dstIdx (X m c).a1 :=
  (W10_of_ne m ρ c main_v28 (by decide)).trans (at9_v28 m ρ c)
theorem at10_arg2 : W10 m ρ c (Proc.devRef .tc main_arg2) = (X m c).a2 :=
  (W10_of_ne m ρ c main_arg2 (by decide)).trans (at9_arg2 m ρ c)
theorem at10_arg10 : W10 m ρ c (Proc.devRef .tc main_arg10) = (X m c).a10 :=
  (W10_of_ne m ρ c main_arg10 (by decide)).trans (at9_arg10 m ρ c)
theorem at10_arg11 : W10 m ρ c (Proc.devRef .tc main_arg11) = (X m c).a11 :=
  (W10_of_ne m ρ c main_arg11 (by decide)).trans (at9_arg11 m ρ c)
theorem at10_arg12 : W10 m ρ c (Proc.devRef .tc main_arg12) = (X m c).a12 :=
  (W10_of_ne m ρ c main_arg12 (by decide)).trans (at9_arg12 m ρ c)
theorem at10_arg13 : W10 m ρ c (Proc.devRef .tc main_arg13) = (X m c).a13 :=
  (W10_of_ne m ρ c main_arg13 (by decide)).trans (at9_arg13 m ρ c)
theorem at10_arg14 : W10 m ρ c (Proc.devRef .tc main_arg14) = (X m c).a14 :=
  (W10_of_ne m ρ c main_arg14 (by decide)).trans (at9_arg14 m ρ c)
theorem at10_arg15 : W10 m ρ c (Proc.devRef .tc main_arg15) = (X m c).a15 :=
  (W10_of_ne m ρ c main_arg15 (by decide)).trans (at9_arg15 m ρ c)
theorem at10_arg16 : W10 m ρ c (Proc.devRef .tc main_arg16) = (X m c).a16 :=
  (W10_of_ne m ρ c main_arg16 (by decide)).trans (at9_arg16 m ρ c)
theorem at10_arg17 : W10 m ρ c (Proc.devRef .tc main_arg17) = (X m c).a17 :=
  (W10_of_ne m ρ c main_arg17 (by decide)).trans (at9_arg17 m ρ c)

/-! ## Before region 3 -/

theorem at11_agg : W11 m ρ c (Proc.devRef .tc main_v149) = Cert.Stages.aggF (Cert.Stages.h3 (X m c)) (Cert.Stages.srcIdx (X m c).a1) (Cert.Stages.dstIdx (X m c).a1) :=
  (Cert.KernelIdeal.KS3.agg (W10 m ρ c)).trans (by rw [at10_h m ρ c, at10_v26 m ρ c, at10_v28 m ρ c])
theorem at11_w1 : W11 m ρ c (Proc.devRef .tc main_v151) = Cert.Stages.paramW3 (X m c).a10 :=
  (Cert.KernelIdeal.KS3.w1 (W10 m ρ c)).trans (by rw [at10_arg10 m ρ c])
theorem at11_w2 : W11 m ρ c (Proc.devRef .tc main_v156) = Cert.Stages.paramW3 (X m c).a12 :=
  (Cert.KernelIdeal.KS3.w2 (W10 m ρ c)).trans (by rw [at10_arg12 m ρ c])
theorem at11_b1 : W11 m ρ c (Proc.devRef .tc main_v154) = shapeCast S1x128 (Cert.Stages.paramV3 (X m c).a11) Facts₀.shapeCasts_S128_S1x128 :=
  (Cert.KernelIdeal.KS3.b1 (W10 m ρ c)).trans (by rw [at10_arg11 m ρ c])
theorem at11_b2 : W11 m ρ c (Proc.devRef .tc main_v159) = shapeCast S1x128 (Cert.Stages.paramV3 (X m c).a13) Facts₀.shapeCasts_S128_S1x128 :=
  (Cert.KernelIdeal.KS3.b2 (W10 m ρ c)).trans (by rw [at10_arg13 m ρ c])
theorem at11_g : W11 m ρ c (Proc.devRef .tc main_v162) = shapeCast S1x128 (Cert.Stages.paramV3 (X m c).a14) Facts₀.shapeCasts_S128_S1x128 :=
  (Cert.KernelIdeal.KS3.g (W10 m ρ c)).trans (by rw [at10_arg14 m ρ c])
theorem at11_be : W11 m ρ c (Proc.devRef .tc main_v165) = shapeCast S1x128 (Cert.Stages.paramV3 (X m c).a15) Facts₀.shapeCasts_S128_S1x128 :=
  (Cert.KernelIdeal.KS3.be (W10 m ρ c)).trans (by rw [at10_arg15 m ρ c])
theorem at11_mu : W11 m ρ c (Proc.devRef .tc main_v168) = shapeCast S1x128 (Cert.Stages.paramV3 (X m c).a16) Facts₀.shapeCasts_S128_S1x128 :=
  (Cert.KernelIdeal.KS3.mu (W10 m ρ c)).trans (by rw [at10_arg16 m ρ c])
theorem at11_var : W11 m ρ c (Proc.devRef .tc main_v171) = shapeCast S1x128 (Cert.Stages.paramV3 (X m c).a17) Facts₀.shapeCasts_S128_S1x128 :=
  (Cert.KernelIdeal.KS3.var (W10 m ρ c)).trans (by rw [at10_arg17 m ρ c])
theorem at11_v26 : W11 m ρ c (Proc.devRef .tc main_v26) = Cert.Stages.srcIdx (X m c).a1 :=
  (Cert.KernelIdeal.KS3.keep_v26 (W10 m ρ c)).trans (at10_v26 m ρ c)
theorem at11_v28 : W11 m ρ c (Proc.devRef .tc main_v28) = Cert.Stages.dstIdx (X m c).a1 :=
  (Cert.KernelIdeal.KS3.keep_v28 (W10 m ρ c)).trans (at10_v28 m ρ c)
theorem at11_arg2 : W11 m ρ c (Proc.devRef .tc main_arg2) = (X m c).a2 :=
  (Cert.KernelIdeal.KS3.keep_arg2 (W10 m ρ c)).trans (at10_arg2 m ρ c)
theorem at11_arg10 : W11 m ρ c (Proc.devRef .tc main_arg10) = (X m c).a10 :=
  (Cert.KernelIdeal.KS3.keep_arg10 (W10 m ρ c)).trans (at10_arg10 m ρ c)
theorem at11_arg11 : W11 m ρ c (Proc.devRef .tc main_arg11) = (X m c).a11 :=
  (Cert.KernelIdeal.KS3.keep_arg11 (W10 m ρ c)).trans (at10_arg11 m ρ c)
theorem at11_arg12 : W11 m ρ c (Proc.devRef .tc main_arg12) = (X m c).a12 :=
  (Cert.KernelIdeal.KS3.keep_arg12 (W10 m ρ c)).trans (at10_arg12 m ρ c)
theorem at11_arg13 : W11 m ρ c (Proc.devRef .tc main_arg13) = (X m c).a13 :=
  (Cert.KernelIdeal.KS3.keep_arg13 (W10 m ρ c)).trans (at10_arg13 m ρ c)
theorem at11_arg14 : W11 m ρ c (Proc.devRef .tc main_arg14) = (X m c).a14 :=
  (Cert.KernelIdeal.KS3.keep_arg14 (W10 m ρ c)).trans (at10_arg14 m ρ c)
theorem at11_arg15 : W11 m ρ c (Proc.devRef .tc main_arg15) = (X m c).a15 :=
  (Cert.KernelIdeal.KS3.keep_arg15 (W10 m ρ c)).trans (at10_arg15 m ρ c)
theorem at11_arg16 : W11 m ρ c (Proc.devRef .tc main_arg16) = (X m c).a16 :=
  (Cert.KernelIdeal.KS3.keep_arg16 (W10 m ρ c)).trans (at10_arg16 m ρ c)
theorem at11_arg17 : W11 m ρ c (Proc.devRef .tc main_arg17) = (X m c).a17 :=
  (Cert.KernelIdeal.KS3.keep_arg17 (W10 m ρ c)).trans (at10_arg17 m ρ c)

/-! ## After region 3 -/

set_option maxHeartbeats 4000000 in
theorem at12_h : W12 m ρ c (Proc.devRef .tc main_v172) = Cert.Stages.h4 (X m c) := by
  refine (W12_arr m ρ c 9).trans ?_
  refine (Cert.KernelIdeal.Region3.value (V11 m ρ) c (Cert.Stages.paramV3 (X m c).a11) (Cert.Stages.paramV3 (X m c).a13)
    (Cert.Stages.paramV3 (X m c).a14) (Cert.Stages.paramV3 (X m c).a15) (Cert.Stages.paramV3 (X m c).a16)
    (Cert.Stages.paramV3 (X m c).a17) ?_ ?_ ?_ ?_ ?_ ?_).trans ?_
  · intro j
    rw [show V11 m ρ c (Pipeline.arrRef spec3 2) = shapeCast S1x128 (Cert.Stages.paramV3 (X m c).a11) Facts₀.shapeCasts_S128_S1x128 from at11_b1 m ρ c]
    exact shapeCast_a_1a_apply _ _ 0 j
  · intro j
    rw [show V11 m ρ c (Pipeline.arrRef spec3 4) = shapeCast S1x128 (Cert.Stages.paramV3 (X m c).a13) Facts₀.shapeCasts_S128_S1x128 from at11_b2 m ρ c]
    exact shapeCast_a_1a_apply _ _ 0 j
  · intro j
    rw [show V11 m ρ c (Pipeline.arrRef spec3 5) = shapeCast S1x128 (Cert.Stages.paramV3 (X m c).a14) Facts₀.shapeCasts_S128_S1x128 from at11_g m ρ c]
    exact shapeCast_a_1a_apply _ _ 0 j
  · intro j
    rw [show V11 m ρ c (Pipeline.arrRef spec3 6) = shapeCast S1x128 (Cert.Stages.paramV3 (X m c).a15) Facts₀.shapeCasts_S128_S1x128 from at11_be m ρ c]
    exact shapeCast_a_1a_apply _ _ 0 j
  · intro j
    rw [show V11 m ρ c (Pipeline.arrRef spec3 7) = shapeCast S1x128 (Cert.Stages.paramV3 (X m c).a16) Facts₀.shapeCasts_S128_S1x128 from at11_mu m ρ c]
    exact shapeCast_a_1a_apply _ _ 0 j
  · intro j
    rw [show V11 m ρ c (Pipeline.arrRef spec3 8) = shapeCast S1x128 (Cert.Stages.paramV3 (X m c).a17) Facts₀.shapeCasts_S128_S1x128 from at11_var m ρ c]
    exact shapeCast_a_1a_apply _ _ 0 j
  · rw [show V11 m ρ c (Pipeline.arrRef spec3 0) = Cert.Stages.aggF (Cert.Stages.h3 (X m c)) (Cert.Stages.srcIdx (X m c).a1) (Cert.Stages.dstIdx (X m c).a1) from at11_agg m ρ c,
      show V11 m ρ c (Pipeline.arrRef spec3 1) = Cert.Stages.paramW3 (X m c).a10 from at11_w1 m ρ c,
      show V11 m ρ c (Pipeline.arrRef spec3 3) = Cert.Stages.paramW3 (X m c).a12 from at11_w2 m ρ c]
    rfl
theorem at12_v26 : W12 m ρ c (Proc.devRef .tc main_v26) = Cert.Stages.srcIdx (X m c).a1 :=
  (W12_of_ne m ρ c main_v26 (by decide)).trans (at11_v26 m ρ c)
theorem at12_v28 : W12 m ρ c (Proc.devRef .tc main_v28) = Cert.Stages.dstIdx (X m c).a1 :=
  (W12_of_ne m ρ c main_v28 (by decide)).trans (at11_v28 m ρ c)
theorem at12_arg2 : W12 m ρ c (Proc.devRef .tc main_arg2) = (X m c).a2 :=
  (W12_of_ne m ρ c main_arg2 (by decide)).trans (at11_arg2 m ρ c)
theorem at12_arg10 : W12 m ρ c (Proc.devRef .tc main_arg10) = (X m c).a10 :=
  (W12_of_ne m ρ c main_arg10 (by decide)).trans (at11_arg10 m ρ c)
theorem at12_arg11 : W12 m ρ c (Proc.devRef .tc main_arg11) = (X m c).a11 :=
  (W12_of_ne m ρ c main_arg11 (by decide)).trans (at11_arg11 m ρ c)
theorem at12_arg12 : W12 m ρ c (Proc.devRef .tc main_arg12) = (X m c).a12 :=
  (W12_of_ne m ρ c main_arg12 (by decide)).trans (at11_arg12 m ρ c)
theorem at12_arg13 : W12 m ρ c (Proc.devRef .tc main_arg13) = (X m c).a13 :=
  (W12_of_ne m ρ c main_arg13 (by decide)).trans (at11_arg13 m ρ c)
theorem at12_arg14 : W12 m ρ c (Proc.devRef .tc main_arg14) = (X m c).a14 :=
  (W12_of_ne m ρ c main_arg14 (by decide)).trans (at11_arg14 m ρ c)
theorem at12_arg15 : W12 m ρ c (Proc.devRef .tc main_arg15) = (X m c).a15 :=
  (W12_of_ne m ρ c main_arg15 (by decide)).trans (at11_arg15 m ρ c)
theorem at12_arg16 : W12 m ρ c (Proc.devRef .tc main_arg16) = (X m c).a16 :=
  (W12_of_ne m ρ c main_arg16 (by decide)).trans (at11_arg16 m ρ c)
theorem at12_arg17 : W12 m ρ c (Proc.devRef .tc main_arg17) = (X m c).a17 :=
  (W12_of_ne m ρ c main_arg17 (by decide)).trans (at11_arg17 m ρ c)

/-! ## After the last stretch: the two results -/

theorem out1 : W13 m ρ c (Proc.devRef .tc main_v172) = Cert.Stages.h4 (X m c) :=
  (Cert.KernelIdeal.KS4.keep_v172 (W12 m ρ c)).trans (at12_h m ρ c)
theorem out0 : W13 m ρ c (Proc.devRef .tc main_v183) = Cert.Stages.pooled (X m c) :=
  (Cert.KernelIdeal.KS4.out0 (W12 m ρ c)).trans (by rw [at12_h m ρ c, at12_arg2 m ρ c]; rfl)

/-- The idealized kernel program's run: every weakly fair execution terminates, nothing faulting, with the first
    result buffer at the pooled features, the second at the node features after the fourth block, and the
    arguments as launched. -/
theorem run : θ_run defs (onTc (τ := τ) (main (F := Ideal))) ⟨m, fun _ => 0, ρ⟩ (fun r => ∀ c : Dev nD,
      r.2.mem ((c.tc : Thread nD τ).loc main_v183) = Cert.Stages.pooled (X m c)
      ∧ r.2.mem ((c.tc : Thread nD τ).loc main_v172) = Cert.Stages.h4 (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v183 (by decide))).trans (out0 m ρ c),
     (h c _ (mem_uc main_v172 (by decide))).trans (out1 m ρ c),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c),
     (h c _ (mem_uc main_arg14 (by decide))).trans (W13_main_arg14 m ρ c),
     (h c _ (mem_uc main_arg15 (by decide))).trans (W13_main_arg15 m ρ c),
     (h c _ (mem_uc main_arg16 (by decide))).trans (W13_main_arg16 m ρ c),
     (h c _ (mem_uc main_arg17 (by decide))).trans (W13_main_arg17 m ρ c)⟩)
    (Cert.KernelIdeal.Run.run_W13 m ρ)

end Cert.KernelIdeal.KV

end
-- ==== Proof.RefRun0.lean ====
/-
  Statements 1 … 60 of the reference program's @main as a list of host operations.

  Each entry is the operation of one printed statement, in order; a call of an outlined function contributes that
  function's operations, its formal arguments replaced by the call's operands and its local values by the fields of
  the call's buffer record. The window's program is then the straight line over this list, every operation names
  only TensorCore buffers, and none allocates.
-/
import proofs.«112971_j66340064854633_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The operations of statements 1 … 60, in order (85 of them). -/
abbrev ops0 : List (HloOp τ sig (Elt F)) :=
  [ StableHlo.nullary main_c (constantI S_ 32 128#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S50000 ![] bcast_S_S50000),
    StableHlo.TRef.binary (.of main_arg0) main_call0.v3 main_call0.v4 Host.remsi,
    StableHlo.TRef.nullary main_call0.c_1 (constantI S_ 32 0#32),
    StableHlo.TRef.unary main_call0.c_1 main_call0.v5 (broadcastInDim S50000 ![] bcast_S_S50000),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S50000 ![] bcast_S_S50000),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S50000 ![] bcast_S_S50000),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S50000 ![] bcast_S_S50000),
    StableHlo.TRef.binary main_call0.v4 main_call0.v13 main_call0.v14 addi,
    StableHlo.TRef.ternary main_call0.v12 main_call0.v14 main_call0.v4 main_call0.v15 select,
    StableHlo.nullary main_c_0 (constantI S_ 32 0#32),
    StableHlo.unary main_c_0 main_v1 (broadcastInDim S50000 ![] bcast_S_S50000 : (⟨S_, .i32⟩ : BufTy).Contents (Elt F) → (⟨S50000, .i32⟩ : BufTy).Contents (Elt F)),
    StableHlo.binary main_v0 main_v1 main_v2 (cmpi .slt : (⟨S50000, .i32⟩ : BufTy).Contents (Elt F) → (⟨S50000, .i32⟩ : BufTy).Contents (Elt F) → (⟨S50000, .i1⟩ : BufTy).Contents (Elt F)),
    StableHlo.nullary main_c_1 (constantI S_ 32 128#32),
    StableHlo.unary main_c_1 main_v3 (broadcastInDim S50000 ![] bcast_S_S50000 : (⟨S_, .i32⟩ : BufTy).Contents (Elt F) → (⟨S50000, .i32⟩ : BufTy).Contents (Elt F)),
    StableHlo.binary main_v0 main_v3 main_v4 (addi : (⟨S50000, .i32⟩ : BufTy).Contents (Elt F) → (⟨S50000, .i32⟩ : BufTy).Contents (Elt F) → (⟨S50000, .i32⟩ : BufTy).Contents (Elt F)),
    StableHlo.ternary main_v2 main_v4 main_v0 main_v5 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v5 main_v6 (broadcastInDim S50000x1 ![0] bcast_S50000_S50000x1_0 : (⟨S50000, .i32⟩ : BufTy).Contents (Elt F) → (⟨S50000x1, .i32⟩ : BufTy).Contents (Elt F)),
    StableHlo.binary main_arg5 main_v6 main_v7 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    StableHlo.unary main_arg6 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S50000x128 ![0, 1] bcast_S1x128_S50000x128_0_1 : (⟨S1x128, .f32⟩ : BufTy).Contents (Elt F) → (⟨S50000x128, .f32⟩ : BufTy).Contents (Elt F)),
    StableHlo.binary main_v7 main_v9 main_v10 (addf : (⟨S50000x128, .f32⟩ : BufTy).Contents (Elt F) → (⟨S50000x128, .f32⟩ : BufTy).Contents (Elt F) → (⟨S50000x128, .f32⟩ : BufTy).Contents (Elt F)),
    StableHlo.binary main_arg3 main_arg7 main_v11 ((fun l r => Host.dotGeneral dot_S50000x16_S16x128_S50000x128_1_0_0_1_n_n none l r) : (⟨S50000x16, .f32⟩ : BufTy).Contents (Elt F) → (⟨S16x128, .f32⟩ : BufTy).Contents (Elt F) → (⟨S50000x128, .f32⟩ : BufTy).Contents (Elt F)),
    StableHlo.binary main_v10 main_v11 main_v12 (addf : (⟨S50000x128, .f32⟩ : BufTy).Contents (Elt F) → (⟨S50000x128, .f32⟩ : BufTy).Contents (Elt F) → (⟨S50000x128, .f32⟩ : BufTy).Contents (Elt F)),
    StableHlo.unary main_arg8 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v14 main_v15 (addf : (⟨S50000x128, .f32⟩ : BufTy).Contents (Elt F) → (⟨S50000x128, .f32⟩ : BufTy).Contents (Elt F) → (⟨S50000x128, .f32⟩ : BufTy).Contents (Elt F)),
    StableHlo.nullary main_c_2 (constantI S_ 32 0#32),
    StableHlo.nullary main_c_3 (constantI S_ 32 1000#32),
    StableHlo.TRef.unary (.of main_c_2) main_call1.v0 id,
    StableHlo.TRef.unary main_call1.v0 main_call1.v1 (broadcastInDim S50000 ![] bcast_S_S50000),
    StableHlo.TRef.binary main_call1.v1 (.of main_arg4) main_call1.v2 maxsi,
    StableHlo.TRef.unary (.of main_c_3) main_call1.v3 id,
    StableHlo.TRef.unary main_call1.v3 main_call1.v4 (broadcastInDim S50000 ![] bcast_S_S50000),
    StableHlo.TRef.binary main_call1.v4 main_call1.v2 main_call1.v5 minsi,
    StableHlo.nullary main_c_4 (constantI S_ 32 0#32),
    StableHlo.unary main_c_4 main_v17 (broadcastInDim S50000 ![] bcast_S_S50000 : (⟨S_, .i32⟩ : BufTy).Contents (Elt F) → (⟨S50000, .i32⟩ : BufTy).Contents (Elt F)),
    StableHlo.binary main_v16 main_v17 main_v18 (cmpi .slt : (⟨S50000, .i32⟩ : BufTy).Contents (Elt F) → (⟨S50000, .i32⟩ : BufTy).Contents (Elt F) → (⟨S50000, .i1⟩ : BufTy).Contents (Elt F)),
    StableHlo.nullary main_c_5 (constantI S_ 32 1001#32),
    StableHlo.unary main_c_5 main_v19 (broadcastInDim S50000 ![] bcast_S_S50000 : (⟨S_, .i32⟩ : BufTy).Contents (Elt F) → (⟨S50000, .i32⟩ : BufTy).Contents (Elt F)),
    StableHlo.binary main_v16 main_v19 main_v20 (addi : (⟨S50000, .i32⟩ : BufTy).Contents (Elt F) → (⟨S50000, .i32⟩ : BufTy).Contents (Elt F) → (⟨S50000, .i32⟩ : BufTy).Contents (Elt F)),
    StableHlo.ternary main_v18 main_v20 main_v16 main_v21 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v21 main_v22 (broadcastInDim S50000x1 ![0] bcast_S50000_S50000x1_0 : (⟨S50000, .i32⟩ : BufTy).Contents (Elt F) → (⟨S50000x1, .i32⟩ : BufTy).Contents (Elt F)),
    StableHlo.binary main_arg9 main_v22 main_v23 ((fun x i => Host.gather gather_S1001x128_S50000x1_S50000x128_1_0_n_n_0_1_1128 x i) : (⟨S1001x128, .f32⟩ : BufTy).Contents (Elt F) → (⟨S50000x1, .i32⟩ : BufTy).Contents (Elt F) → (⟨S50000x128, .f32⟩ : BufTy).Contents (Elt F)),
    StableHlo.binary main_v15 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg1 main_v25 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v25 main_v26 rfl shapeCasts_S1x600000_S600000,
    StableHlo.unary main_arg1 main_v27 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v27 main_v28 rfl shapeCasts_S1x600000_S600000,
    StableHlo.nullary main_c_6 (constantI S_ 32 0#32),
    StableHlo.unary main_c_6 main_v29 (broadcastInDim S600000 ![] bcast_S_S600000 : (⟨S_, .i32⟩ : BufTy).Contents (Elt F) → (⟨S600000, .i32⟩ : BufTy).Contents (Elt F)),
    StableHlo.binary main_v26 main_v29 main_v30 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v31 (broadcastInDim S600000 ![] bcast_S_S600000 : (⟨S_, .i32⟩ : BufTy).Contents (Elt F) → (⟨S600000, .i32⟩ : BufTy).Contents (Elt F)),
    StableHlo.binary main_v26 main_v31 main_v32 (addi : (⟨S600000, .i32⟩ : BufTy).Contents (Elt F) → (⟨S600000, .i32⟩ : BufTy).Contents (Elt F) → (⟨S600000, .i32⟩ : BufTy).Contents (Elt F)),
    StableHlo.ternary main_v30 main_v32 main_v26 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v33 main_v34 (broadcastInDim S600000x1 ![0] bcast_S600000_S600000x1_0 : (⟨S600000, .i32⟩ : BufTy).Contents (Elt F) → (⟨S600000x1, .i32⟩ : BufTy).Contents (Elt F)),
    StableHlo.binary main_v24 main_v34 main_v35 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v36 (broadcastInDim S50000x128 ![] bcast_S_S50000x128 : (⟨S_, .f32⟩ : BufTy).Contents (Elt F) → (⟨S50000x128, .f32⟩ : BufTy).Contents (Elt F)),
    StableHlo.unary main_v28 main_v37 (broadcastInDim S600000x1 ![0] bcast_S600000_S600000x1_0 : (⟨S600000, .i32⟩ : BufTy).Contents (Elt F) → (⟨S600000x1, .i32⟩ : BufTy).Contents (Elt F)),
    StableHlo.ternary main_v36 main_v37 main_v35 main_v38 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_8 (constant S_ .f32 0x3F800000#32),
    StableHlo.unary main_cst_8 main_v39 (broadcastInDim S50000x128 ![] bcast_S_S50000x128 : (⟨S_, .f32⟩ : BufTy).Contents (Elt F) → (⟨S50000x128, .f32⟩ : BufTy).Contents (Elt F)),
    StableHlo.binary main_v39 main_v24 main_v40 (mulf : (⟨S50000x128, .f32⟩ : BufTy).Contents (Elt F) → (⟨S50000x128, .f32⟩ : BufTy).Contents (Elt F) → (⟨S50000x128, .f32⟩ : BufTy).Contents (Elt F)),
    StableHlo.binary main_v38 main_v40 main_v41 (addf : (⟨S50000x128, .f32⟩ : BufTy).Contents (Elt F) → (⟨S50000x128, .f32⟩ : BufTy).Contents (Elt F) → (⟨S50000x128, .f32⟩ : BufTy).Contents (Elt F)),
    StableHlo.unary main_arg10 main_v42 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v42 main_v43 rfl shapeCasts_S1x128x128_S128x128,
    StableHlo.binary main_v41 main_v43 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v45 ((extractStridedSlice S1x128 ![0, 0] · slices_S4x128_S1x128_0_0) : (⟨S4x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)) ]

set_option maxRecDepth 8192 in
set_option maxHeartbeats 4000000 in
/-- The window is that straight line: the outlined functions unfolded at their calls and sequencing reassociated,
    both sides are one chain of host steps. -/
theorem main_part0_eq (c : Dev nD) : main_part0 (F := F) c = seq ops0 := by
  simp only [main_part0, fn_clip.body, fn_remainder.body, fn_where.body, seq, bind_assoc, pure_bind] <;> rfl

/-- Every operation of the window reads and writes TensorCore buffers only. -/
theorem ops0_sub : (ops0 : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., binary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., binary_bufs_sub .., binary_bufs_sub ..,
    unary_bufs_sub .., reshape_bufs_sub .., binary_bufs_sub .., unary_bufs_sub .., reshape_bufs_sub .., unary_bufs_sub ..,
    unary_bufs_sub ..⟩

set_option maxRecDepth 8192 in
/-- No operation of the window allocates: each determines its results. -/
theorem ops0_fresh : ∀ op ∈ (ops0 : List (HloOp τ sig (Elt F))), op.fresh = ∅ := by
  intro _ h; (repeat (cases h with | head => rfl | tail _ h => ?_)); exact nomatch h

end Cert.ReferenceIdeal.RefRun

end
-- ==== Proof.RefRun1.lean ====
/-
  Statements 61 … 120 of the reference program's @main as a list of host operations.

  Each entry is the operation of one printed statement, in order; a call of an outlined function contributes that
  function's operations, its formal arguments replaced by the call's operands and its local values by the fields of
  the call's buffer record. The window's program is then the straight line over this list, every operation names
  only TensorCore buffers, and none allocates.
-/
import proofs.«112971_j66340064854633_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The operations of statements 61 … 120, in order (66 of them). -/
abbrev ops1 : List (HloOp τ sig (Elt F)) :=
  [ StableHlo.binary main_v44 main_v48 main_v49 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v49) main_call2.v0 main_call2.v1 maximumf,
    StableHlo.unary main_arg12 main_v51 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v51 main_v52 rfl shapeCasts_S1x128x128_S128x128,
    StableHlo.binary main_v50 main_v52 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v54 ((extractStridedSlice S1x128 ![0, 0] · slices_S4x128_S1x128_0_0) : (⟨S4x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v57 main_v58 (addf : (⟨S50000x128, .f32⟩ : BufTy).Contents (Elt F) → (⟨S50000x128, .f32⟩ : BufTy).Contents (Elt F) → (⟨S50000x128, .f32⟩ : BufTy).Contents (Elt F)),
    StableHlo.unary main_arg14 main_v59 ((extractStridedSlice S1x128 ![0, 0] · slices_S4x128_S1x128_0_0) : (⟨S4x128, .f32⟩ : BufTy).Contents (Elt F) → (⟨S1x128, .f32⟩ : BufTy).Contents (Elt F)),
    StableHlo.reshape main_v59 main_v60 rfl shapeCasts_S1x128_S128,
    StableHlo.unary main_arg17 main_v61 ((extractStridedSlice S1x128 ![0, 0] · slices_S4x128_S1x128_0_0) : (⟨S4x128, .f32⟩ : BufTy).Contents (Elt F) → (⟨S1x128, .f32⟩ : BufTy).Contents (Elt F)),
    StableHlo.reshape main_v61 main_v62 rfl shapeCasts_S1x128_S128,
    StableHlo.nullary main_cst_9 (constant S_ .f32 0x3727C5AC#32),
    StableHlo.unary main_cst_9 main_v63 (broadcastInDim S128 ![] bcast_S_S128 : (⟨S_, .f32⟩ : BufTy).Contents (Elt F) → (⟨S128, .f32⟩ : BufTy).Contents (Elt F)),
    StableHlo.binary main_v62 main_v63 main_v64 (addf : (⟨S128, .f32⟩ : BufTy).Contents (Elt F) → (⟨S128, .f32⟩ : BufTy).Contents (Elt F) → (⟨S128, .f32⟩ : BufTy).Contents (Elt F)),
    StableHlo.unary main_v64 main_v65 (Host.rsqrt : (⟨S128, .f32⟩ : BufTy).Contents (Elt F) → (⟨S128, .f32⟩ : BufTy).Contents (Elt F)),
    StableHlo.binary main_v60 main_v65 main_v66 (mulf : (⟨S128, .f32⟩ : BufTy).Contents (Elt F) → (⟨S128, .f32⟩ : BufTy).Contents (Elt F) → (⟨S128, .f32⟩ : BufTy).Contents (Elt F)),
    StableHlo.unary main_arg16 main_v67 ((extractStridedSlice S1x128 ![0, 0] · slices_S4x128_S1x128_0_0) : (⟨S4x128, .f32⟩ : BufTy).Contents (Elt F) → (⟨S1x128, .f32⟩ : BufTy).Contents (Elt F)),
    StableHlo.reshape main_v67 main_v68 rfl shapeCasts_S1x128_S128,
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v70 main_v71 (subf : (⟨S50000x128, .f32⟩ : BufTy).Contents (Elt F) → (⟨S50000x128, .f32⟩ : BufTy).Contents (Elt F) → (⟨S50000x128, .f32⟩ : BufTy).Contents (Elt F)),
    StableHlo.unary main_v66 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (mulf : (⟨S50000x128, .f32⟩ : BufTy).Contents (Elt F) → (⟨S50000x128, .f32⟩ : BufTy).Contents (Elt F) → (⟨S50000x128, .f32⟩ : BufTy).Contents (Elt F)),
    StableHlo.unary main_arg15 main_v75 ((extractStridedSlice S1x128 ![0, 0] · slices_S4x128_S1x128_0_0) : (⟨S4x128, .f32⟩ : BufTy).Contents (Elt F) → (⟨S1x128, .f32⟩ : BufTy).Contents (Elt F)),
    StableHlo.reshape main_v75 main_v76 rfl shapeCasts_S1x128_S128,
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v78 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v79) main_call3.v0 main_call3.v1 maximumf,
    StableHlo.nullary main_c_10 (constantI S_ 32 0#32),
    StableHlo.unary main_c_10 main_v81 (broadcastInDim S600000 ![] bcast_S_S600000 : (⟨S_, .i32⟩ : BufTy).Contents (Elt F) → (⟨S600000, .i32⟩ : BufTy).Contents (Elt F)),
    StableHlo.binary main_v26 main_v81 main_v82 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 50000#32),
    StableHlo.unary main_c_11 main_v83 (broadcastInDim S600000 ![] bcast_S_S600000 : (⟨S_, .i32⟩ : BufTy).Contents (Elt F) → (⟨S600000, .i32⟩ : BufTy).Contents (Elt F)),
    StableHlo.binary main_v26 main_v83 main_v84 (addi : (⟨S600000, .i32⟩ : BufTy).Contents (Elt F) → (⟨S600000, .i32⟩ : BufTy).Contents (Elt F) → (⟨S600000, .i32⟩ : BufTy).Contents (Elt F)),
    StableHlo.ternary main_v82 main_v84 main_v26 main_v85 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v85 main_v86 (broadcastInDim S600000x1 ![0] bcast_S600000_S600000x1_0 : (⟨S600000, .i32⟩ : BufTy).Contents (Elt F) → (⟨S600000x1, .i32⟩ : BufTy).Contents (Elt F)),
    StableHlo.binary main_v80 main_v86 main_v87 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_12 (constant S_ .f32 0x00000000#32),
    StableHlo.unary main_cst_12 main_v88 (broadcastInDim S50000x128 ![] bcast_S_S50000x128 : (⟨S_, .f32⟩ : BufTy).Contents (Elt F) → (⟨S50000x128, .f32⟩ : BufTy).Contents (Elt F)),
    StableHlo.unary main_v28 main_v89 (broadcastInDim S600000x1 ![0] bcast_S600000_S600000x1_0 : (⟨S600000, .i32⟩ : BufTy).Contents (Elt F) → (⟨S600000x1, .i32⟩ : BufTy).Contents (Elt F)),
    StableHlo.ternary main_v88 main_v89 main_v87 main_v90 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_13 (constant S_ .f32 0x3F800000#32),
    StableHlo.unary main_cst_13 main_v91 (broadcastInDim S50000x128 ![] bcast_S_S50000x128 : (⟨S_, .f32⟩ : BufTy).Contents (Elt F) → (⟨S50000x128, .f32⟩ : BufTy).Contents (Elt F)),
    StableHlo.binary main_v91 main_v80 main_v92 (mulf : (⟨S50000x128, .f32⟩ : BufTy).Contents (Elt F) → (⟨S50000x128, .f32⟩ : BufTy).Contents (Elt F) → (⟨S50000x128, .f32⟩ : BufTy).Contents (Elt F)),
    StableHlo.binary main_v90 main_v92 main_v93 (addf : (⟨S50000x128, .f32⟩ : BufTy).Contents (Elt F) → (⟨S50000x128, .f32⟩ : BufTy).Contents (Elt F) → (⟨S50000x128, .f32⟩ : BufTy).Contents (Elt F)),
    StableHlo.unary main_arg10 main_v94 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v94 main_v95 rfl shapeCasts_S1x128x128_S128x128,
    StableHlo.binary main_v93 main_v95 main_v96 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v97 ((extractStridedSlice S1x128 ![1, 0] · slices_S4x128_S1x128_1_0) : (⟨S4x128, .f32⟩ : BufTy).Contents (Elt F) → (⟨S1x128, .f32⟩ : BufTy).Contents (Elt F)),
    StableHlo.reshape main_v97 main_v98 rfl shapeCasts_S1x128_S128,
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v96 main_v100 main_v101 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v101) main_call4.v0 main_call4.v1 maximumf,
    StableHlo.unary main_arg12 main_v103 ((extractStridedSlice S1x128x128 ![1, 0, 0] · slices_S4x128x128_S1x128x128_1_0_0) : (⟨S4x128x128, .f32⟩ : BufTy).Contents (Elt F) → (⟨S1x128x128, .f32⟩ : BufTy).Contents (Elt F)) ]

set_option maxRecDepth 8192 in
set_option maxHeartbeats 4000000 in
/-- The window is that straight line: the outlined functions unfolded at their calls and sequencing reassociated,
    both sides are one chain of host steps. -/
theorem main_part1_eq (c : Dev nD) : main_part1 (F := F) c = seq ops1 := by
  simp only [main_part1, fn_relu.body, seq, bind_assoc, pure_bind] <;> rfl

/-- Every operation of the window reads and writes TensorCore buffers only. -/
theorem ops1_sub : (ops1 : List (HloOp τ sig (Elt F))).Forall fun op => op.bufs ⊆ tcRefs τ sig :=
  ⟨binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., unary_bufs_sub ..,
    binary_bufs_sub .., unary_bufs_sub .., binary_bufs_sub .., unary_bufs_sub .., reshape_bufs_sub .., unary_bufs_sub ..,
    unary_bufs_sub .., binary_bufs_sub .., unary_bufs_sub .., unary_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., binary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..⟩

set_option maxRecDepth 8192 in
/-- No operation of the window allocates: each determines its results. -/
theorem ops1_fresh : ∀ op ∈ (ops1 : List (HloOp τ sig (Elt F))), op.fresh = ∅ := by
  intro _ h; (repeat (cases h with | head => rfl | tail _ h => ?_)); exact nomatch h

end Cert.ReferenceIdeal.RefRun

end
-- ==== Proof.RefRun2.lean ====
/-
  Statements 121 … 180 of the reference program's @main as a list of host operations.

  Each entry is the operation of one printed statement, in order; a call of an outlined function contributes that
  function's operations, its formal arguments replaced by the call's operands and its local values by the fields of
  the call's buffer record. The window's program is then the straight line over this list, every operation names
  only TensorCore buffers, and none allocates.
-/
import proofs.«112971_j66340064854633_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The operations of statements 121 … 180, in order (64 of them). -/
abbrev ops2 : List (HloOp τ sig (Elt F)) :=
  [ StableHlo.reshape main_v103 main_v104 rfl shapeCasts_S1x128x128_S128x128,
    StableHlo.binary main_v102 main_v104 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v106 ((extractStridedSlice S1x128 ![1, 0] · slices_S4x128_S1x128_1_0) : (⟨S4x128, .f32⟩ : BufTy).Contents (Elt F) → (⟨S1x128, .f32⟩ : BufTy).Contents (Elt F)),
    StableHlo.reshape main_v106 main_v107 rfl shapeCasts_S1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v109 main_v110 (addf : (⟨S50000x128, .f32⟩ : BufTy).Contents (Elt F) → (⟨S50000x128, .f32⟩ : BufTy).Contents (Elt F) → (⟨S50000x128, .f32⟩ : BufTy).Contents (Elt F)),
    StableHlo.unary main_arg14 main_v111 ((extractStridedSlice S1x128 ![1, 0] · slices_S4x128_S1x128_1_0) : (⟨S4x128, .f32⟩ : BufTy).Contents (Elt F) → (⟨S1x128, .f32⟩ : BufTy).Contents (Elt F)),
    StableHlo.reshape main_v111 main_v112 rfl shapeCasts_S1x128_S128,
    StableHlo.unary main_arg17 main_v113 ((extractStridedSlice S1x128 ![1, 0] · slices_S4x128_S1x128_1_0) : (⟨S4x128, .f32⟩ : BufTy).Contents (Elt F) → (⟨S1x128, .f32⟩ : BufTy).Contents (Elt F)),
    StableHlo.reshape main_v113 main_v114 rfl shapeCasts_S1x128_S128,
    StableHlo.nullary main_cst_14 (constant S_ .f32 0x3727C5AC#32),
    StableHlo.unary main_cst_14 main_v115 (broadcastInDim S128 ![] bcast_S_S128 : (⟨S_, .f32⟩ : BufTy).Contents (Elt F) → (⟨S128, .f32⟩ : BufTy).Contents (Elt F)),
    StableHlo.binary main_v114 main_v115 main_v116 (addf : (⟨S128, .f32⟩ : BufTy).Contents (Elt F) → (⟨S128, .f32⟩ : BufTy).Contents (Elt F) → (⟨S128, .f32⟩ : BufTy).Contents (Elt F)),
    StableHlo.unary main_v116 main_v117 (Host.rsqrt : (⟨S128, .f32⟩ : BufTy).Contents (Elt F) → (⟨S128, .f32⟩ : BufTy).Contents (Elt F)),
    StableHlo.binary main_v112 main_v117 main_v118 (mulf : (⟨S128, .f32⟩ : BufTy).Contents (Elt F) → (⟨S128, .f32⟩ : BufTy).Contents (Elt F) → (⟨S128, .f32⟩ : BufTy).Contents (Elt F)),
    StableHlo.unary main_arg16 main_v119 ((extractStridedSlice S1x128 ![1, 0] · slices_S4x128_S1x128_1_0) : (⟨S4x128, .f32⟩ : BufTy).Contents (Elt F) → (⟨S1x128, .f32⟩ : BufTy).Contents (Elt F)),
    StableHlo.reshape main_v119 main_v120 rfl shapeCasts_S1x128_S128,
    StableHlo.unary main_v120 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v122 main_v123 (subf : (⟨S50000x128, .f32⟩ : BufTy).Contents (Elt F) → (⟨S50000x128, .f32⟩ : BufTy).Contents (Elt F) → (⟨S50000x128, .f32⟩ : BufTy).Contents (Elt F)),
    StableHlo.unary main_v118 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v125 main_v126 (mulf : (⟨S50000x128, .f32⟩ : BufTy).Contents (Elt F) → (⟨S50000x128, .f32⟩ : BufTy).Contents (Elt F) → (⟨S50000x128, .f32⟩ : BufTy).Contents (Elt F)),
    StableHlo.unary main_arg15 main_v127 ((extractStridedSlice S1x128 ![1, 0] · slices_S4x128_S1x128_1_0) : (⟨S4x128, .f32⟩ : BufTy).Contents (Elt F) → (⟨S1x128, .f32⟩ : BufTy).Contents (Elt F)),
    StableHlo.reshape main_v127 main_v128 rfl shapeCasts_S1x128_S128,
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v130 main_v131 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v131) main_call5.v0 main_call5.v1 maximumf,
    StableHlo.nullary main_c_15 (constantI S_ 32 0#32),
    StableHlo.unary main_c_15 main_v133 (broadcastInDim S600000 ![] bcast_S_S600000 : (⟨S_, .i32⟩ : BufTy).Contents (Elt F) → (⟨S600000, .i32⟩ : BufTy).Contents (Elt F)),
    StableHlo.binary main_v26 main_v133 main_v134 (cmpi .slt : (⟨S600000, .i32⟩ : BufTy).Contents (Elt F) → (⟨S600000, .i32⟩ : BufTy).Contents (Elt F) → (⟨S600000, .i1⟩ : BufTy).Contents (Elt F)),
    StableHlo.nullary main_c_16 (constantI S_ 32 50000#32),
    StableHlo.unary main_c_16 main_v135 (broadcastInDim S600000 ![] bcast_S_S600000 : (⟨S_, .i32⟩ : BufTy).Contents (Elt F) → (⟨S600000, .i32⟩ : BufTy).Contents (Elt F)),
    StableHlo.binary main_v26 main_v135 main_v136 (addi : (⟨S600000, .i32⟩ : BufTy).Contents (Elt F) → (⟨S600000, .i32⟩ : BufTy).Contents (Elt F) → (⟨S600000, .i32⟩ : BufTy).Contents (Elt F)),
    StableHlo.ternary main_v134 main_v136 main_v26 main_v137 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v137 main_v138 (broadcastInDim S600000x1 ![0] bcast_S600000_S600000x1_0 : (⟨S600000, .i32⟩ : BufTy).Contents (Elt F) → (⟨S600000x1, .i32⟩ : BufTy).Contents (Elt F)),
    StableHlo.binary main_v132 main_v138 main_v139 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_17 (constant S_ .f32 0x00000000#32),
    StableHlo.unary main_cst_17 main_v140 (broadcastInDim S50000x128 ![] bcast_S_S50000x128 : (⟨S_, .f32⟩ : BufTy).Contents (Elt F) → (⟨S50000x128, .f32⟩ : BufTy).Contents (Elt F)),
    StableHlo.unary main_v28 main_v141 (broadcastInDim S600000x1 ![0] bcast_S600000_S600000x1_0 : (⟨S600000, .i32⟩ : BufTy).Contents (Elt F) → (⟨S600000x1, .i32⟩ : BufTy).Contents (Elt F)),
    StableHlo.ternary main_v140 main_v141 main_v139 main_v142 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_18 (constant S_ .f32 0x3F800000#32),
    StableHlo.unary main_cst_18 main_v143 (broadcastInDim S50000x128 ![] bcast_S_S50000x128 : (⟨S_, .f32⟩ : BufTy).Contents (Elt F) → (⟨S50000x128, .f32⟩ : BufTy).Contents (Elt F)),
    StableHlo.binary main_v143 main_v132 main_v144 (mulf : (⟨S50000x128, .f32⟩ : BufTy).Contents (Elt F) → (⟨S50000x128, .f32⟩ : BufTy).Contents (Elt F) → (⟨S50000x128, .f32⟩ : BufTy).Contents (Elt F)),
    StableHlo.binary main_v142 main_v144 main_v145 (addf : (⟨S50000x128, .f32⟩ : BufTy).Contents (Elt F) → (⟨S50000x128, .f32⟩ : BufTy).Contents (Elt F) → (⟨S50000x128, .f32⟩ : BufTy).Contents (Elt F)),
    StableHlo.unary main_arg10 main_v146 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v146 main_v147 rfl shapeCasts_S1x128x128_S128x128,
    StableHlo.binary main_v145 main_v147 main_v148 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v149 ((extractStridedSlice S1x128 ![2, 0] · slices_S4x128_S1x128_2_0) : (⟨S4x128, .f32⟩ : BufTy).Contents (Elt F) → (⟨S1x128, .f32⟩ : BufTy).Contents (Elt F)),
    StableHlo.reshape main_v149 main_v150 rfl shapeCasts_S1x128_S128,
    StableHlo.unary main_v150 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v152 main_v153 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v153) main_call6.v0 main_call6.v1 maximumf,
    StableHlo.unary main_arg12 main_v155 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v155 main_v156 rfl shapeCasts_S1x128x128_S128x128,
    StableHlo.binary main_v154 main_v156 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v158 ((extractStridedSlice S1x128 ![2, 0] · slices_S4x128_S1x128_2_0) : (⟨S4x128, .f32⟩ : BufTy).Contents (Elt F) → (⟨S1x128, .f32⟩ : BufTy).Contents (Elt F)) ]

set_option maxRecDepth 8192 in
set_option maxHeartbeats 4000000 in
/-- The window is that straight line: the outlined functions unfolded at their calls and sequencing reassociated,
    both sides are one chain of host steps. -/
theorem main_part2_eq (c : Dev nD) : main_part2 (F := F) c = seq ops2 := by
  simp only [main_part2, fn_relu.body, seq, bind_assoc, pure_bind] <;> rfl

/-- Every operation of the window reads and writes TensorCore buffers only. -/
theorem ops2_sub : (ops2 : List (HloOp τ sig (Elt F))).Forall fun op => op.bufs ⊆ tcRefs τ sig :=
  ⟨reshape_bufs_sub .., binary_bufs_sub .., unary_bufs_sub .., reshape_bufs_sub .., unary_bufs_sub .., unary_bufs_sub ..,
    binary_bufs_sub .., unary_bufs_sub .., reshape_bufs_sub .., unary_bufs_sub .., reshape_bufs_sub .., nullary_bufs_sub ..,
    unary_bufs_sub .., binary_bufs_sub .., unary_bufs_sub .., binary_bufs_sub .., unary_bufs_sub .., reshape_bufs_sub ..,
    unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., binary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub ..⟩

set_option maxRecDepth 8192 in
/-- No operation of the window allocates: each determines its results. -/
theorem ops2_fresh : ∀ op ∈ (ops2 : List (HloOp τ sig (Elt F))), op.fresh = ∅ := by
  intro _ h; (repeat (cases h with | head => rfl | tail _ h => ?_)); exact nomatch h

end Cert.ReferenceIdeal.RefRun

end
-- ==== Proof.RefRun3.lean ====
/-
  Statements 181 … 240 of the reference program's @main as a list of host operations.

  Each entry is the operation of one printed statement, in order; a call of an outlined function contributes that
  function's operations, its formal arguments replaced by the call's operands and its local values by the fields of
  the call's buffer record. The window's program is then the straight line over this list, every operation names
  only TensorCore buffers, and none allocates.
-/
import proofs.«112971_j66340064854633_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The operations of statements 181 … 240, in order (64 of them). -/
abbrev ops3 : List (HloOp τ sig (Elt F)) :=
  [ StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v161 main_v162 (addf : (⟨S50000x128, .f32⟩ : BufTy).Contents (Elt F) → (⟨S50000x128, .f32⟩ : BufTy).Contents (Elt F) → (⟨S50000x128, .f32⟩ : BufTy).Contents (Elt F)),
    StableHlo.unary main_arg14 main_v163 ((extractStridedSlice S1x128 ![2, 0] · slices_S4x128_S1x128_2_0) : (⟨S4x128, .f32⟩ : BufTy).Contents (Elt F) → (⟨S1x128, .f32⟩ : BufTy).Contents (Elt F)),
    StableHlo.reshape main_v163 main_v164 rfl shapeCasts_S1x128_S128,
    StableHlo.unary main_arg17 main_v165 ((extractStridedSlice S1x128 ![2, 0] · slices_S4x128_S1x128_2_0) : (⟨S4x128, .f32⟩ : BufTy).Contents (Elt F) → (⟨S1x128, .f32⟩ : BufTy).Contents (Elt F)),
    StableHlo.reshape main_v165 main_v166 rfl shapeCasts_S1x128_S128,
    StableHlo.nullary main_cst_19 (constant S_ .f32 0x3727C5AC#32),
    StableHlo.unary main_cst_19 main_v167 (broadcastInDim S128 ![] bcast_S_S128 : (⟨S_, .f32⟩ : BufTy).Contents (Elt F) → (⟨S128, .f32⟩ : BufTy).Contents (Elt F)),
    StableHlo.binary main_v166 main_v167 main_v168 (addf : (⟨S128, .f32⟩ : BufTy).Contents (Elt F) → (⟨S128, .f32⟩ : BufTy).Contents (Elt F) → (⟨S128, .f32⟩ : BufTy).Contents (Elt F)),
    StableHlo.unary main_v168 main_v169 (Host.rsqrt : (⟨S128, .f32⟩ : BufTy).Contents (Elt F) → (⟨S128, .f32⟩ : BufTy).Contents (Elt F)),
    StableHlo.binary main_v164 main_v169 main_v170 (mulf : (⟨S128, .f32⟩ : BufTy).Contents (Elt F) → (⟨S128, .f32⟩ : BufTy).Contents (Elt F) → (⟨S128, .f32⟩ : BufTy).Contents (Elt F)),
    StableHlo.unary main_arg16 main_v171 ((extractStridedSlice S1x128 ![2, 0] · slices_S4x128_S1x128_2_0) : (⟨S4x128, .f32⟩ : BufTy).Contents (Elt F) → (⟨S1x128, .f32⟩ : BufTy).Contents (Elt F)),
    StableHlo.reshape main_v171 main_v172 rfl shapeCasts_S1x128_S128,
    StableHlo.unary main_v172 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S50000x128 ![0, 1] bcast_S1x128_S50000x128_0_1 : (⟨S1x128, .f32⟩ : BufTy).Contents (Elt F) → (⟨S50000x128, .f32⟩ : BufTy).Contents (Elt F)),
    StableHlo.binary main_v162 main_v174 main_v175 (subf : (⟨S50000x128, .f32⟩ : BufTy).Contents (Elt F) → (⟨S50000x128, .f32⟩ : BufTy).Contents (Elt F) → (⟨S50000x128, .f32⟩ : BufTy).Contents (Elt F)),
    StableHlo.unary main_v170 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v175 main_v177 main_v178 (mulf : (⟨S50000x128, .f32⟩ : BufTy).Contents (Elt F) → (⟨S50000x128, .f32⟩ : BufTy).Contents (Elt F) → (⟨S50000x128, .f32⟩ : BufTy).Contents (Elt F)),
    StableHlo.unary main_arg15 main_v179 ((extractStridedSlice S1x128 ![2, 0] · slices_S4x128_S1x128_2_0) : (⟨S4x128, .f32⟩ : BufTy).Contents (Elt F) → (⟨S1x128, .f32⟩ : BufTy).Contents (Elt F)),
    StableHlo.reshape main_v179 main_v180 rfl shapeCasts_S1x128_S128,
    StableHlo.unary main_v180 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v178 main_v182 main_v183 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v183) main_call7.v0 main_call7.v1 maximumf,
    StableHlo.nullary main_c_20 (constantI S_ 32 0#32),
    StableHlo.unary main_c_20 main_v185 (broadcastInDim S600000 ![] bcast_S_S600000 : (⟨S_, .i32⟩ : BufTy).Contents (Elt F) → (⟨S600000, .i32⟩ : BufTy).Contents (Elt F)),
    StableHlo.binary main_v26 main_v185 main_v186 (cmpi .slt : (⟨S600000, .i32⟩ : BufTy).Contents (Elt F) → (⟨S600000, .i32⟩ : BufTy).Contents (Elt F) → (⟨S600000, .i1⟩ : BufTy).Contents (Elt F)),
    StableHlo.nullary main_c_21 (constantI S_ 32 50000#32),
    StableHlo.unary main_c_21 main_v187 (broadcastInDim S600000 ![] bcast_S_S600000 : (⟨S_, .i32⟩ : BufTy).Contents (Elt F) → (⟨S600000, .i32⟩ : BufTy).Contents (Elt F)),
    StableHlo.binary main_v26 main_v187 main_v188 (addi : (⟨S600000, .i32⟩ : BufTy).Contents (Elt F) → (⟨S600000, .i32⟩ : BufTy).Contents (Elt F) → (⟨S600000, .i32⟩ : BufTy).Contents (Elt F)),
    StableHlo.ternary main_v186 main_v188 main_v26 main_v189 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v189 main_v190 (broadcastInDim S600000x1 ![0] bcast_S600000_S600000x1_0 : (⟨S600000, .i32⟩ : BufTy).Contents (Elt F) → (⟨S600000x1, .i32⟩ : BufTy).Contents (Elt F)),
    StableHlo.binary main_v184 main_v190 main_v191 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_22 (constant S_ .f32 0x00000000#32),
    StableHlo.unary main_cst_22 main_v192 (broadcastInDim S50000x128 ![] bcast_S_S50000x128 : (⟨S_, .f32⟩ : BufTy).Contents (Elt F) → (⟨S50000x128, .f32⟩ : BufTy).Contents (Elt F)),
    StableHlo.unary main_v28 main_v193 (broadcastInDim S600000x1 ![0] bcast_S600000_S600000x1_0 : (⟨S600000, .i32⟩ : BufTy).Contents (Elt F) → (⟨S600000x1, .i32⟩ : BufTy).Contents (Elt F)),
    StableHlo.ternary main_v192 main_v193 main_v191 main_v194 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_23 (constant S_ .f32 0x3F800000#32),
    StableHlo.unary main_cst_23 main_v195 (broadcastInDim S50000x128 ![] bcast_S_S50000x128 : (⟨S_, .f32⟩ : BufTy).Contents (Elt F) → (⟨S50000x128, .f32⟩ : BufTy).Contents (Elt F)),
    StableHlo.binary main_v195 main_v184 main_v196 (mulf : (⟨S50000x128, .f32⟩ : BufTy).Contents (Elt F) → (⟨S50000x128, .f32⟩ : BufTy).Contents (Elt F) → (⟨S50000x128, .f32⟩ : BufTy).Contents (Elt F)),
    StableHlo.binary main_v194 main_v196 main_v197 (addf : (⟨S50000x128, .f32⟩ : BufTy).Contents (Elt F) → (⟨S50000x128, .f32⟩ : BufTy).Contents (Elt F) → (⟨S50000x128, .f32⟩ : BufTy).Contents (Elt F)),
    StableHlo.unary main_arg10 main_v198 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v198 main_v199 rfl shapeCasts_S1x128x128_S128x128,
    StableHlo.binary main_v197 main_v199 main_v200 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v201 ((extractStridedSlice S1x128 ![3, 0] · slices_S4x128_S1x128_3_0) : (⟨S4x128, .f32⟩ : BufTy).Contents (Elt F) → (⟨S1x128, .f32⟩ : BufTy).Contents (Elt F)),
    StableHlo.reshape main_v201 main_v202 rfl shapeCasts_S1x128_S128,
    StableHlo.unary main_v202 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v200 main_v204 main_v205 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v205) main_call8.v0 main_call8.v1 maximumf,
    StableHlo.unary main_arg12 main_v207 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v207 main_v208 rfl shapeCasts_S1x128x128_S128x128,
    StableHlo.binary main_v206 main_v208 main_v209 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v210 ((extractStridedSlice S1x128 ![3, 0] · slices_S4x128_S1x128_3_0) : (⟨S4x128, .f32⟩ : BufTy).Contents (Elt F) → (⟨S1x128, .f32⟩ : BufTy).Contents (Elt F)),
    StableHlo.reshape main_v210 main_v211 rfl shapeCasts_S1x128_S128,
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S50000x128 ![0, 1] bcast_S1x128_S50000x128_0_1 : (⟨S1x128, .f32⟩ : BufTy).Contents (Elt F) → (⟨S50000x128, .f32⟩ : BufTy).Contents (Elt F)) ]

set_option maxRecDepth 8192 in
set_option maxHeartbeats 4000000 in
/-- The window is that straight line: the outlined functions unfolded at their calls and sequencing reassociated,
    both sides are one chain of host steps. -/
theorem main_part3_eq (c : Dev nD) : main_part3 (F := F) c = seq ops3 := by
  simp only [main_part3, fn_relu.body, seq, bind_assoc, pure_bind] <;> rfl

/-- Every operation of the window reads and writes TensorCore buffers only. -/
theorem ops3_sub : (ops3 : List (HloOp τ sig (Elt F))).Forall fun op => op.bufs ⊆ tcRefs τ sig :=
  ⟨reshape_bufs_sub .., unary_bufs_sub .., unary_bufs_sub .., binary_bufs_sub .., unary_bufs_sub .., reshape_bufs_sub ..,
    unary_bufs_sub .., reshape_bufs_sub .., nullary_bufs_sub .., unary_bufs_sub .., binary_bufs_sub .., unary_bufs_sub ..,
    binary_bufs_sub .., unary_bufs_sub .., reshape_bufs_sub .., unary_bufs_sub .., unary_bufs_sub .., binary_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub ..⟩

set_option maxRecDepth 8192 in
/-- No operation of the window allocates: each determines its results. -/
theorem ops3_fresh : ∀ op ∈ (ops3 : List (HloOp τ sig (Elt F))), op.fresh = ∅ := by
  intro _ h; (repeat (cases h with | head => rfl | tail _ h => ?_)); exact nomatch h

end Cert.ReferenceIdeal.RefRun

end
-- ==== Proof.RefRun4.lean ====
/-
  Statements 241 … 279 of the reference program's @main as a list of host operations.

  Each entry is the operation of one printed statement, in order; a call of an outlined function contributes that
  function's operations, its formal arguments replaced by the call's operands and its local values by the fields of
  the call's buffer record. The window's program is then the straight line over this list, every operation names
  only TensorCore buffers, and none allocates.
-/
import proofs.«112971_j66340064854633_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The operations of statements 241 … 279, in order (41 of them). -/
abbrev ops4 : List (HloOp τ sig (Elt F)) :=
  [ StableHlo.binary main_v209 main_v213 main_v214 (addf : (⟨S50000x128, .f32⟩ : BufTy).Contents (Elt F) → (⟨S50000x128, .f32⟩ : BufTy).Contents (Elt F) → (⟨S50000x128, .f32⟩ : BufTy).Contents (Elt F)),
    StableHlo.unary main_arg14 main_v215 ((extractStridedSlice S1x128 ![3, 0] · slices_S4x128_S1x128_3_0) : (⟨S4x128, .f32⟩ : BufTy).Contents (Elt F) → (⟨S1x128, .f32⟩ : BufTy).Contents (Elt F)),
    StableHlo.reshape main_v215 main_v216 rfl shapeCasts_S1x128_S128,
    StableHlo.unary main_arg17 main_v217 ((extractStridedSlice S1x128 ![3, 0] · slices_S4x128_S1x128_3_0) : (⟨S4x128, .f32⟩ : BufTy).Contents (Elt F) → (⟨S1x128, .f32⟩ : BufTy).Contents (Elt F)),
    StableHlo.reshape main_v217 main_v218 rfl shapeCasts_S1x128_S128,
    StableHlo.nullary main_cst_24 (constant S_ .f32 0x3727C5AC#32),
    StableHlo.unary main_cst_24 main_v219 (broadcastInDim S128 ![] bcast_S_S128 : (⟨S_, .f32⟩ : BufTy).Contents (Elt F) → (⟨S128, .f32⟩ : BufTy).Contents (Elt F)),
    StableHlo.binary main_v218 main_v219 main_v220 (addf : (⟨S128, .f32⟩ : BufTy).Contents (Elt F) → (⟨S128, .f32⟩ : BufTy).Contents (Elt F) → (⟨S128, .f32⟩ : BufTy).Contents (Elt F)),
    StableHlo.unary main_v220 main_v221 (Host.rsqrt : (⟨S128, .f32⟩ : BufTy).Contents (Elt F) → (⟨S128, .f32⟩ : BufTy).Contents (Elt F)),
    StableHlo.binary main_v216 main_v221 main_v222 (mulf : (⟨S128, .f32⟩ : BufTy).Contents (Elt F) → (⟨S128, .f32⟩ : BufTy).Contents (Elt F) → (⟨S128, .f32⟩ : BufTy).Contents (Elt F)),
    StableHlo.unary main_arg16 main_v223 ((extractStridedSlice S1x128 ![3, 0] · slices_S4x128_S1x128_3_0) : (⟨S4x128, .f32⟩ : BufTy).Contents (Elt F) → (⟨S1x128, .f32⟩ : BufTy).Contents (Elt F)),
    StableHlo.reshape main_v223 main_v224 rfl shapeCasts_S1x128_S128,
    StableHlo.unary main_v224 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v226 main_v227 (subf : (⟨S50000x128, .f32⟩ : BufTy).Contents (Elt F) → (⟨S50000x128, .f32⟩ : BufTy).Contents (Elt F) → (⟨S50000x128, .f32⟩ : BufTy).Contents (Elt F)),
    StableHlo.unary main_v222 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v227 main_v229 main_v230 (mulf : (⟨S50000x128, .f32⟩ : BufTy).Contents (Elt F) → (⟨S50000x128, .f32⟩ : BufTy).Contents (Elt F) → (⟨S50000x128, .f32⟩ : BufTy).Contents (Elt F)),
    StableHlo.unary main_arg15 main_v231 ((extractStridedSlice S1x128 ![3, 0] · slices_S4x128_S1x128_3_0) : (⟨S4x128, .f32⟩ : BufTy).Contents (Elt F) → (⟨S1x128, .f32⟩ : BufTy).Contents (Elt F)),
    StableHlo.reshape main_v231 main_v232 rfl shapeCasts_S1x128_S128,
    StableHlo.unary main_v232 main_v233 (broadcastInDim S1x128 ![1] bcast_S128_S1x128_1 : (⟨S128, .f32⟩ : BufTy).Contents (Elt F) → (⟨S1x128, .f32⟩ : BufTy).Contents (Elt F)),
    StableHlo.unary main_v233 main_v234 (broadcastInDim S50000x128 ![0, 1] bcast_S1x128_S50000x128_0_1 : (⟨S1x128, .f32⟩ : BufTy).Contents (Elt F) → (⟨S50000x128, .f32⟩ : BufTy).Contents (Elt F)),
    StableHlo.binary main_v230 main_v234 main_v235 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v235) main_call9.v0 main_call9.v1 maximumf,
    StableHlo.nullary main_cst_25 (constant S_ .f32 0x00000000#32),
    StableHlo.unary main_cst_25 main_v237 (broadcastInDim S128x128 ![] bcast_S_S128x128 : (⟨S_, .f32⟩ : BufTy).Contents (Elt F) → (⟨S128x128, .f32⟩ : BufTy).Contents (Elt F)),
    StableHlo.unary main_arg2 main_v238 (broadcastInDim S50000x1 ![0] bcast_S50000_S50000x1_0 : (⟨S50000, .i32⟩ : BufTy).Contents (Elt F) → (⟨S50000x1, .i32⟩ : BufTy).Contents (Elt F)),
    StableHlo.ternary main_v237 main_v238 main_v236 main_v239 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_26 (constant S_ .f32 0x3F800000#32),
    StableHlo.unary main_cst_26 main_v240 (broadcastInDim S50000x1 ![] bcast_S_S50000x1 : (⟨S_, .f32⟩ : BufTy).Contents (Elt F) → (⟨S50000x1, .f32⟩ : BufTy).Contents (Elt F)),
    StableHlo.nullary main_cst_27 (constant S_ .f32 0x00000000#32),
    StableHlo.unary main_cst_27 main_v241 (broadcastInDim S128x1 ![] bcast_S_S128x1 : (⟨S_, .f32⟩ : BufTy).Contents (Elt F) → (⟨S128x1, .f32⟩ : BufTy).Contents (Elt F)),
    StableHlo.unary main_arg2 main_v242 (broadcastInDim S50000x1 ![0] bcast_S50000_S50000x1_0 : (⟨S50000, .i32⟩ : BufTy).Contents (Elt F) → (⟨S50000x1, .i32⟩ : BufTy).Contents (Elt F)),
    StableHlo.ternary main_v241 main_v242 main_v240 main_v243 ((fun x i u => Host.scatterAdd scatter_S128x1_S50000x1_S50000x1_1_0_0_1 x i u) : (⟨S128x1, .f32⟩ : BufTy).Contents (Elt F) → (⟨S50000x1, .i32⟩ : BufTy).Contents (Elt F) → (⟨S50000x1, .f32⟩ : BufTy).Contents (Elt F) → (⟨S128x1, .f32⟩ : BufTy).Contents (Elt F)),
    StableHlo.nullary main_cst_28 (constant S_ .f32 0x3F800000#32),
    StableHlo.unary main_cst_28 main_v244 (broadcastInDim S128x1 ![] bcast_S_S128x1 : (⟨S_, .f32⟩ : BufTy).Contents (Elt F) → (⟨S128x1, .f32⟩ : BufTy).Contents (Elt F)),
    StableHlo.binary main_v243 main_v244 main_v245 (maximumf : (⟨S128x1, .f32⟩ : BufTy).Contents (Elt F) → (⟨S128x1, .f32⟩ : BufTy).Contents (Elt F) → (⟨S128x1, .f32⟩ : BufTy).Contents (Elt F)),
    StableHlo.unary main_v245 main_v246 (broadcastInDim S128x128 ![0, 1] bcast_S128x1_S128x128_0_1 : (⟨S128x1, .f32⟩ : BufTy).Contents (Elt F) → (⟨S128x128, .f32⟩ : BufTy).Contents (Elt F)),
    StableHlo.binary main_v239 main_v246 main_v247 (Host.divf : (⟨S128x128, .f32⟩ : BufTy).Contents (Elt F) → (⟨S128x128, .f32⟩ : BufTy).Contents (Elt F) → (⟨S128x128, .f32⟩ : BufTy).Contents (Elt F)) ]

set_option maxRecDepth 8192 in
set_option maxHeartbeats 4000000 in
/-- The window is that straight line: the outlined functions unfolded at their calls and sequencing reassociated,
    both sides are one chain of host steps. -/
theorem main_part4_eq (c : Dev nD) : main_part4 (F := F) c = seq ops4 := by
  simp only [main_part4, fn_relu.body, seq, bind_assoc, pure_bind] <;> rfl

/-- Every operation of the window reads and writes TensorCore buffers only. -/
theorem ops4_sub : (ops4 : List (HloOp τ sig (Elt F))).Forall fun op => op.bufs ⊆ tcRefs τ sig :=
  ⟨binary_bufs_sub .., unary_bufs_sub .., reshape_bufs_sub .., unary_bufs_sub .., reshape_bufs_sub .., nullary_bufs_sub ..,
    unary_bufs_sub .., binary_bufs_sub .., unary_bufs_sub .., binary_bufs_sub .., unary_bufs_sub .., reshape_bufs_sub ..,
    unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., binary_bufs_sub ..⟩

set_option maxRecDepth 8192 in
/-- No operation of the window allocates: each determines its results. -/
theorem ops4_fresh : ∀ op ∈ (ops4 : List (HloOp τ sig (Elt F))), op.fresh = ∅ := by
  intro _ h; (repeat (cases h with | head => rfl | tail _ h => ?_)); exact nomatch h

end Cert.ReferenceIdeal.RefRun

end
-- ==== Proof.RefRun.lean ====
/-
  The reference program's run, read back.

  @main is five windows run in order; each window is the straight line over its list of host operations
  (the five modules imported below). Two straight lines run one after the other are their concatenation run as
  one, so @main is the straight line over the concatenation `ops` of the five lists. A straight line of host
  operations on a signature that scopes nothing terminates on every weakly fair execution, and leaves every
  TensorCore buffer at the fold of the operations' results over the launch contents.
-/
import proofs.«112971_j66340064854633_1_alg».proof.Proof.RefRun0
import proofs.«112971_j66340064854633_1_alg».proof.Proof.RefRun1
import proofs.«112971_j66340064854633_1_alg».proof.Proof.RefRun2
import proofs.«112971_j66340064854633_1_alg».proof.Proof.RefRun3
import proofs.«112971_j66340064854633_1_alg».proof.Proof.RefRun4

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- @main's 320 host operations, in order: the five windows' lists concatenated. -/
abbrev ops : List (HloOp τ sig (Elt F)) := ops0 ++ (ops1 ++ (ops2 ++ (ops3 ++ ops4)))

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over @main's operations, window by window. -/
theorem after_ops (V : Valuation τ sig (Elt F)) :
    after ops V = after ops4 (after ops3 (after ops2 (after ops1 (after ops0 V)))) := by
  simp only [ops, after_append]

/-- @main is the straight line over `ops`: each window is the straight line over its list, and straight lines in
    sequence are the straight line over the concatenation. -/
theorem main_eq (c : Dev nD) : main (F := F) c = seq ops := by
  have h : (seq (ops (F := F)) : Prog (TpuEff nD τ sig (Elt F) (Pipeline.Sig Λ₀ (Fin 0) fun p => (pcfgs (F := F) p).Adm) .tc) PUnit)
      = (seq ops0 >>= fun _ => seq ops1 >>= fun _ => seq ops2 >>= fun _ => seq ops3 >>= fun _ => seq ops4) := by
    simp only [ops, seq_append]
  rw [h, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of @main reads and writes TensorCore buffers only. -/
theorem ops_sub : (ops : List (HloOp τ sig (Elt F))).Forall fun op => op.bufs ⊆ tcRefs τ sig := by
  rw [List.forall_iff_forall_mem]
  intro op h
  simp only [ops, List.mem_append] at h
  rcases h with h | h | h | h | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h

/-- No operation of @main allocates. -/
theorem ops_fresh : ∀ op ∈ (ops : List (HloOp τ sig (Elt F))), op.fresh = ∅ := by
  intro op h
  simp only [ops, List.mem_append] at h
  rcases h with h | h | h | h | h
  · exact ops0_fresh op h
  · exact ops1_fresh op h
  · exact ops2_fresh op h
  · exact ops3_fresh op h
  · exact ops4_fresh op h

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefSegH.lean ====
/-
  One stage of the reference program's line of host operations: the initial node features and the two index rows of the edge list.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 61 operations, in order. -/
abbrev segH : List (HloOp τ sig (Elt F)) :=
  [ StableHlo.nullary main_c (constantI S_ 32 128#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S50000 ![] bcast_S_S50000),
    StableHlo.TRef.binary (.of main_arg0) main_call0.v3 main_call0.v4 Host.remsi,
    StableHlo.TRef.nullary main_call0.c_1 (constantI S_ 32 0#32),
    StableHlo.TRef.unary main_call0.c_1 main_call0.v5 (broadcastInDim S50000 ![] bcast_S_S50000),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S50000 ![] bcast_S_S50000),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S50000 ![] bcast_S_S50000),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S50000 ![] bcast_S_S50000),
    StableHlo.TRef.binary main_call0.v4 main_call0.v13 main_call0.v14 addi,
    StableHlo.TRef.ternary main_call0.v12 main_call0.v14 main_call0.v4 main_call0.v15 select,
    StableHlo.nullary main_c_0 (constantI S_ 32 0#32),
    StableHlo.unary main_c_0 main_v1 (broadcastInDim S50000 ![] bcast_S_S50000 : (⟨S_, .i32⟩ : BufTy).Contents (Elt F) → (⟨S50000, .i32⟩ : BufTy).Contents (Elt F)),
    StableHlo.binary main_v0 main_v1 main_v2 (cmpi .slt : (⟨S50000, .i32⟩ : BufTy).Contents (Elt F) → (⟨S50000, .i32⟩ : BufTy).Contents (Elt F) → (⟨S50000, .i1⟩ : BufTy).Contents (Elt F)),
    StableHlo.nullary main_c_1 (constantI S_ 32 128#32),
    StableHlo.unary main_c_1 main_v3 (broadcastInDim S50000 ![] bcast_S_S50000 : (⟨S_, .i32⟩ : BufTy).Contents (Elt F) → (⟨S50000, .i32⟩ : BufTy).Contents (Elt F)),
    StableHlo.binary main_v0 main_v3 main_v4 (addi : (⟨S50000, .i32⟩ : BufTy).Contents (Elt F) → (⟨S50000, .i32⟩ : BufTy).Contents (Elt F) → (⟨S50000, .i32⟩ : BufTy).Contents (Elt F)),
    StableHlo.ternary main_v2 main_v4 main_v0 main_v5 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v5 main_v6 (broadcastInDim S50000x1 ![0] bcast_S50000_S50000x1_0 : (⟨S50000, .i32⟩ : BufTy).Contents (Elt F) → (⟨S50000x1, .i32⟩ : BufTy).Contents (Elt F)),
    StableHlo.binary main_arg5 main_v6 main_v7 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    StableHlo.unary main_arg6 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S50000x128 ![0, 1] bcast_S1x128_S50000x128_0_1 : (⟨S1x128, .f32⟩ : BufTy).Contents (Elt F) → (⟨S50000x128, .f32⟩ : BufTy).Contents (Elt F)),
    StableHlo.binary main_v7 main_v9 main_v10 (addf : (⟨S50000x128, .f32⟩ : BufTy).Contents (Elt F) → (⟨S50000x128, .f32⟩ : BufTy).Contents (Elt F) → (⟨S50000x128, .f32⟩ : BufTy).Contents (Elt F)),
    StableHlo.binary main_arg3 main_arg7 main_v11 ((fun l r => Host.dotGeneral dot_S50000x16_S16x128_S50000x128_1_0_0_1_n_n none l r) : (⟨S50000x16, .f32⟩ : BufTy).Contents (Elt F) → (⟨S16x128, .f32⟩ : BufTy).Contents (Elt F) → (⟨S50000x128, .f32⟩ : BufTy).Contents (Elt F)),
    StableHlo.binary main_v10 main_v11 main_v12 (addf : (⟨S50000x128, .f32⟩ : BufTy).Contents (Elt F) → (⟨S50000x128, .f32⟩ : BufTy).Contents (Elt F) → (⟨S50000x128, .f32⟩ : BufTy).Contents (Elt F)),
    StableHlo.unary main_arg8 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v14 main_v15 (addf : (⟨S50000x128, .f32⟩ : BufTy).Contents (Elt F) → (⟨S50000x128, .f32⟩ : BufTy).Contents (Elt F) → (⟨S50000x128, .f32⟩ : BufTy).Contents (Elt F)),
    StableHlo.nullary main_c_2 (constantI S_ 32 0#32),
    StableHlo.nullary main_c_3 (constantI S_ 32 1000#32),
    StableHlo.TRef.unary (.of main_c_2) main_call1.v0 id,
    StableHlo.TRef.unary main_call1.v0 main_call1.v1 (broadcastInDim S50000 ![] bcast_S_S50000),
    StableHlo.TRef.binary main_call1.v1 (.of main_arg4) main_call1.v2 maxsi,
    StableHlo.TRef.unary (.of main_c_3) main_call1.v3 id,
    StableHlo.TRef.unary main_call1.v3 main_call1.v4 (broadcastInDim S50000 ![] bcast_S_S50000),
    StableHlo.TRef.binary main_call1.v4 main_call1.v2 main_call1.v5 minsi,
    StableHlo.nullary main_c_4 (constantI S_ 32 0#32),
    StableHlo.unary main_c_4 main_v17 (broadcastInDim S50000 ![] bcast_S_S50000 : (⟨S_, .i32⟩ : BufTy).Contents (Elt F) → (⟨S50000, .i32⟩ : BufTy).Contents (Elt F)),
    StableHlo.binary main_v16 main_v17 main_v18 (cmpi .slt : (⟨S50000, .i32⟩ : BufTy).Contents (Elt F) → (⟨S50000, .i32⟩ : BufTy).Contents (Elt F) → (⟨S50000, .i1⟩ : BufTy).Contents (Elt F)),
    StableHlo.nullary main_c_5 (constantI S_ 32 1001#32),
    StableHlo.unary main_c_5 main_v19 (broadcastInDim S50000 ![] bcast_S_S50000 : (⟨S_, .i32⟩ : BufTy).Contents (Elt F) → (⟨S50000, .i32⟩ : BufTy).Contents (Elt F)),
    StableHlo.binary main_v16 main_v19 main_v20 (addi : (⟨S50000, .i32⟩ : BufTy).Contents (Elt F) → (⟨S50000, .i32⟩ : BufTy).Contents (Elt F) → (⟨S50000, .i32⟩ : BufTy).Contents (Elt F)),
    StableHlo.ternary main_v18 main_v20 main_v16 main_v21 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v21 main_v22 (broadcastInDim S50000x1 ![0] bcast_S50000_S50000x1_0 : (⟨S50000, .i32⟩ : BufTy).Contents (Elt F) → (⟨S50000x1, .i32⟩ : BufTy).Contents (Elt F)),
    StableHlo.binary main_arg9 main_v22 main_v23 ((fun x i => Host.gather gather_S1001x128_S50000x1_S50000x128_1_0_n_n_0_1_1128 x i) : (⟨S1001x128, .f32⟩ : BufTy).Contents (Elt F) → (⟨S50000x1, .i32⟩ : BufTy).Contents (Elt F) → (⟨S50000x128, .f32⟩ : BufTy).Contents (Elt F)),
    StableHlo.binary main_v15 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg1 main_v25 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v25 main_v26 rfl shapeCasts_S1x600000_S600000,
    StableHlo.unary main_arg1 main_v27 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v27 main_v28 rfl shapeCasts_S1x600000_S600000 ]

/-- The buffers the stage writes, one per operation. -/
abbrev segH_W : List (Ref sig .tc) :=
  [ main_c, main_call0.v0.ref, main_call0.c.ref, main_call0.v1.ref, main_call0.c_0.ref, main_call0.call0.v0.ref, main_call0.v3.ref, main_call0.v4.ref,
    main_call0.c_1.ref, main_call0.v5.ref, main_call0.v6.ref, main_call0.c_2.ref, main_call0.v7.ref, main_call0.v8.ref, main_call0.c_3.ref, main_call0.v9.ref,
    main_call0.v10.ref, main_call0.v11.ref, main_call0.v12.ref, main_call0.v13.ref, main_call0.v14.ref, main_call0.v15.ref, main_c_0, main_v1,
    main_v2, main_c_1, main_v3, main_v4, main_v5, main_v6, main_v7, main_v8,
    main_v9, main_v10, main_v11, main_v12, main_v13, main_v14, main_v15, main_c_2,
    main_c_3, main_call1.v0.ref, main_call1.v1.ref, main_call1.v2.ref, main_call1.v3.ref, main_call1.v4.ref, main_call1.v5.ref, main_c_4,
    main_v17, main_v18, main_c_5, main_v19, main_v20, main_v21, main_v22, main_v23,
    main_v24, main_v25, main_v26, main_v27, main_v28 ]

set_option maxRecDepth 8192 in
/-- Each operation writes exactly its result buffer, which the list holds. -/
theorem segH_writes : (segH : List (HloOp τ sig (Elt F))).Forall fun op =>
    op.writes ⊆ (segH_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segH_keep (W : Valuation τ sig (Elt F)) (r : Ref sig .tc) (h : r ∉ segH_W) :
    after segH W (Proc.devRef .tc r) = W (Proc.devRef .tc r) :=
  after_of_writes_sub segH W segH_writes h

attribute [local irreducible] Host.gather Host.scatterAdd Host.rsqrt Host.divf Host.remsi in
set_option maxRecDepth 16384 in
set_option maxHeartbeats 4000000 in
/-- The initial node features, from the arguments' contents. -/
theorem segH_v24 (W : Valuation τ sig (Elt Ideal)) :
    after segH W (Proc.devRef .tc main_v24)
      = Stages.head (W (Proc.devRef .tc main_arg0)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp
  rfl

attribute [local irreducible] Host.gather Host.scatterAdd Host.rsqrt Host.divf Host.remsi in
set_option maxRecDepth 16384 in
set_option maxHeartbeats 4000000 in
/-- The sources' row of the edge list. -/
theorem segH_v26 (W : Valuation τ sig (Elt Ideal)) :
    after segH W (Proc.devRef .tc main_v26) = Stages.srcIdx (W (Proc.devRef .tc main_arg1)) := by
  after_results_simp
  rfl

attribute [local irreducible] Host.gather Host.scatterAdd Host.rsqrt Host.divf Host.remsi in
set_option maxRecDepth 16384 in
set_option maxHeartbeats 4000000 in
/-- The destinations' row of the edge list. -/
theorem segH_v28 (W : Valuation τ sig (Elt Ideal)) :
    after segH W (Proc.devRef .tc main_v28) = Stages.dstIdx (W (Proc.devRef .tc main_arg1)) := by
  after_results_simp
  rfl

end Cert.ReferenceIdeal.RefValue

end
-- ==== Proof.RefSegL0A.lean ====
/-
  One stage of the reference program's line of host operations: the first block's neighbourhood aggregation.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 17 operations, in order. -/
abbrev segL0A : List (HloOp τ sig (Elt F)) :=
  [ StableHlo.nullary main_c_6 (constantI S_ 32 0#32),
    StableHlo.unary main_c_6 main_v29 (broadcastInDim S600000 ![] bcast_S_S600000 : (⟨S_, .i32⟩ : BufTy).Contents (Elt F) → (⟨S600000, .i32⟩ : BufTy).Contents (Elt F)),
    StableHlo.binary main_v26 main_v29 main_v30 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v31 (broadcastInDim S600000 ![] bcast_S_S600000 : (⟨S_, .i32⟩ : BufTy).Contents (Elt F) → (⟨S600000, .i32⟩ : BufTy).Contents (Elt F)),
    StableHlo.binary main_v26 main_v31 main_v32 (addi : (⟨S600000, .i32⟩ : BufTy).Contents (Elt F) → (⟨S600000, .i32⟩ : BufTy).Contents (Elt F) → (⟨S600000, .i32⟩ : BufTy).Contents (Elt F)),
    StableHlo.ternary main_v30 main_v32 main_v26 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v33 main_v34 (broadcastInDim S600000x1 ![0] bcast_S600000_S600000x1_0 : (⟨S600000, .i32⟩ : BufTy).Contents (Elt F) → (⟨S600000x1, .i32⟩ : BufTy).Contents (Elt F)),
    StableHlo.binary main_v24 main_v34 main_v35 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v36 (broadcastInDim S50000x128 ![] bcast_S_S50000x128 : (⟨S_, .f32⟩ : BufTy).Contents (Elt F) → (⟨S50000x128, .f32⟩ : BufTy).Contents (Elt F)),
    StableHlo.unary main_v28 main_v37 (broadcastInDim S600000x1 ![0] bcast_S600000_S600000x1_0 : (⟨S600000, .i32⟩ : BufTy).Contents (Elt F) → (⟨S600000x1, .i32⟩ : BufTy).Contents (Elt F)),
    StableHlo.ternary main_v36 main_v37 main_v35 main_v38 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_8 (constant S_ .f32 0x3F800000#32),
    StableHlo.unary main_cst_8 main_v39 (broadcastInDim S50000x128 ![] bcast_S_S50000x128 : (⟨S_, .f32⟩ : BufTy).Contents (Elt F) → (⟨S50000x128, .f32⟩ : BufTy).Contents (Elt F)),
    StableHlo.binary main_v39 main_v24 main_v40 (mulf : (⟨S50000x128, .f32⟩ : BufTy).Contents (Elt F) → (⟨S50000x128, .f32⟩ : BufTy).Contents (Elt F) → (⟨S50000x128, .f32⟩ : BufTy).Contents (Elt F)),
    StableHlo.binary main_v38 main_v40 main_v41 (addf : (⟨S50000x128, .f32⟩ : BufTy).Contents (Elt F) → (⟨S50000x128, .f32⟩ : BufTy).Contents (Elt F) → (⟨S50000x128, .f32⟩ : BufTy).Contents (Elt F)) ]

/-- The buffers the stage writes, one per operation. -/
abbrev segL0A_W : List (Ref sig .tc) :=
  [ main_c_6, main_v29, main_v30, main_c_7, main_v31, main_v32, main_v33, main_v34,
    main_v35, main_cst, main_v36, main_v37, main_v38, main_cst_8, main_v39, main_v40,
    main_v41 ]

set_option maxRecDepth 8192 in
/-- Each operation writes exactly its result buffer, which the list holds. -/
theorem segL0A_writes : (segL0A : List (HloOp τ sig (Elt F))).Forall fun op =>
    op.writes ⊆ (segL0A_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL0A_keep (W : Valuation τ sig (Elt F)) (r : Ref sig .tc) (h : r ∉ segL0A_W) :
    after segL0A W (Proc.devRef .tc r) = W (Proc.devRef .tc r) :=
  after_of_writes_sub segL0A W segL0A_writes h

attribute [local irreducible] Host.gather Host.scatterAdd Host.rsqrt Host.divf Host.remsi in
set_option maxRecDepth 16384 in
set_option maxHeartbeats 4000000 in
/-- The aggregated features, from the previous node features and the two index rows. -/
theorem segL0A_out (W : Valuation τ sig (Elt Ideal)) :
    after segL0A W (Proc.devRef .tc main_v41) = Stages.aggF (W (Proc.devRef .tc main_v24)) (W (Proc.devRef .tc main_v26)) (W (Proc.devRef .tc main_v28)) := by
  after_results_simp
  rfl

end Cert.ReferenceIdeal.RefValue

end
-- ==== Proof.RefSegL0B1.lean ====
/-
  One stage of the reference program's line of host operations: the first block's two matrix products, up to the value the normalisation takes.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 19 operations, in order. -/
abbrev segL0B1 : List (HloOp τ sig (Elt F)) :=
  [ StableHlo.unary main_arg10 main_v42 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v42 main_v43 rfl shapeCasts_S1x128x128_S128x128,
    StableHlo.binary main_v41 main_v43 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v45 ((extractStridedSlice S1x128 ![0, 0] · slices_S4x128_S1x128_0_0) : (⟨S4x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v48 main_v49 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v49) main_call2.v0 main_call2.v1 maximumf,
    StableHlo.unary main_arg12 main_v51 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v51 main_v52 rfl shapeCasts_S1x128x128_S128x128,
    StableHlo.binary main_v50 main_v52 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v54 ((extractStridedSlice S1x128 ![0, 0] · slices_S4x128_S1x128_0_0) : (⟨S4x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v57 main_v58 (addf : (⟨S50000x128, .f32⟩ : BufTy).Contents (Elt F) → (⟨S50000x128, .f32⟩ : BufTy).Contents (Elt F) → (⟨S50000x128, .f32⟩ : BufTy).Contents (Elt F)) ]

/-- The buffers the stage writes, one per operation. -/
abbrev segL0B1_W : List (Ref sig .tc) :=
  [ main_v42, main_v43, main_v44, main_v45, main_v46, main_v47, main_v48, main_v49,
    main_call2.cst.ref, main_call2.v0.ref, main_call2.v1.ref, main_v51, main_v52, main_v53, main_v54, main_v55,
    main_v56, main_v57, main_v58 ]

set_option maxRecDepth 8192 in
/-- Each operation writes exactly its result buffer, which the list holds. -/
theorem segL0B1_writes : (segL0B1 : List (HloOp τ sig (Elt F))).Forall fun op =>
    op.writes ⊆ (segL0B1_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL0B1_keep (W : Valuation τ sig (Elt F)) (r : Ref sig .tc) (h : r ∉ segL0B1_W) :
    after segL0B1 W (Proc.devRef .tc r) = W (Proc.devRef .tc r) :=
  after_of_writes_sub segL0B1 W segL0B1_writes h

attribute [local irreducible] Host.gather Host.scatterAdd Host.rsqrt Host.divf Host.remsi in
set_option maxRecDepth 16384 in
set_option maxHeartbeats 4000000 in
/-- The value the normalisation takes: the aggregated features through the first matrix and bias, a rectifier, the
    second matrix and bias. -/
theorem segL0B1_out (W : Valuation τ sig (Elt Ideal)) :
    after segL0B1 W (Proc.devRef .tc main_v58)
      = addf (Stages.mm (Stages.relu (addf (Stages.mm (W (Proc.devRef .tc main_v41)) (Stages.paramW0 (W (Proc.devRef .tc main_arg10)))) (Stages.rows (Stages.paramV0 (W (Proc.devRef .tc main_arg11))))))
          (Stages.paramW0 (W (Proc.devRef .tc main_arg12)))) (Stages.rows (Stages.paramV0 (W (Proc.devRef .tc main_arg13)))) := by
  after_results_simp
  rfl

end Cert.ReferenceIdeal.RefValue

end
-- ==== Proof.RefSegL0B2.lean ====
/-
  One stage of the reference program's line of host operations: the first block's normalisation and final rectifier.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 25 operations, in order. -/
abbrev segL0B2 : List (HloOp τ sig (Elt F)) :=
  [ StableHlo.unary main_arg14 main_v59 ((extractStridedSlice S1x128 ![0, 0] · slices_S4x128_S1x128_0_0) : (⟨S4x128, .f32⟩ : BufTy).Contents (Elt F) → (⟨S1x128, .f32⟩ : BufTy).Contents (Elt F)),
    StableHlo.reshape main_v59 main_v60 rfl shapeCasts_S1x128_S128,
    StableHlo.unary main_arg17 main_v61 ((extractStridedSlice S1x128 ![0, 0] · slices_S4x128_S1x128_0_0) : (⟨S4x128, .f32⟩ : BufTy).Contents (Elt F) → (⟨S1x128, .f32⟩ : BufTy).Contents (Elt F)),
    StableHlo.reshape main_v61 main_v62 rfl shapeCasts_S1x128_S128,
    StableHlo.nullary main_cst_9 (constant S_ .f32 0x3727C5AC#32),
    StableHlo.unary main_cst_9 main_v63 (broadcastInDim S128 ![] bcast_S_S128 : (⟨S_, .f32⟩ : BufTy).Contents (Elt F) → (⟨S128, .f32⟩ : BufTy).Contents (Elt F)),
    StableHlo.binary main_v62 main_v63 main_v64 (addf : (⟨S128, .f32⟩ : BufTy).Contents (Elt F) → (⟨S128, .f32⟩ : BufTy).Contents (Elt F) → (⟨S128, .f32⟩ : BufTy).Contents (Elt F)),
    StableHlo.unary main_v64 main_v65 (Host.rsqrt : (⟨S128, .f32⟩ : BufTy).Contents (Elt F) → (⟨S128, .f32⟩ : BufTy).Contents (Elt F)),
    StableHlo.binary main_v60 main_v65 main_v66 (mulf : (⟨S128, .f32⟩ : BufTy).Contents (Elt F) → (⟨S128, .f32⟩ : BufTy).Contents (Elt F) → (⟨S128, .f32⟩ : BufTy).Contents (Elt F)),
    StableHlo.unary main_arg16 main_v67 ((extractStridedSlice S1x128 ![0, 0] · slices_S4x128_S1x128_0_0) : (⟨S4x128, .f32⟩ : BufTy).Contents (Elt F) → (⟨S1x128, .f32⟩ : BufTy).Contents (Elt F)),
    StableHlo.reshape main_v67 main_v68 rfl shapeCasts_S1x128_S128,
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v70 main_v71 (subf : (⟨S50000x128, .f32⟩ : BufTy).Contents (Elt F) → (⟨S50000x128, .f32⟩ : BufTy).Contents (Elt F) → (⟨S50000x128, .f32⟩ : BufTy).Contents (Elt F)),
    StableHlo.unary main_v66 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (mulf : (⟨S50000x128, .f32⟩ : BufTy).Contents (Elt F) → (⟨S50000x128, .f32⟩ : BufTy).Contents (Elt F) → (⟨S50000x128, .f32⟩ : BufTy).Contents (Elt F)),
    StableHlo.unary main_arg15 main_v75 ((extractStridedSlice S1x128 ![0, 0] · slices_S4x128_S1x128_0_0) : (⟨S4x128, .f32⟩ : BufTy).Contents (Elt F) → (⟨S1x128, .f32⟩ : BufTy).Contents (Elt F)),
    StableHlo.reshape main_v75 main_v76 rfl shapeCasts_S1x128_S128,
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v78 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v79) main_call3.v0 main_call3.v1 maximumf ]

/-- The buffers the stage writes, one per operation. -/
abbrev segL0B2_W : List (Ref sig .tc) :=
  [ main_v59, main_v60, main_v61, main_v62, main_cst_9, main_v63, main_v64, main_v65,
    main_v66, main_v67, main_v68, main_v69, main_v70, main_v71, main_v72, main_v73,
    main_v74, main_v75, main_v76, main_v77, main_v78, main_v79, main_call3.cst.ref, main_call3.v0.ref,
    main_call3.v1.ref ]

set_option maxRecDepth 8192 in
/-- Each operation writes exactly its result buffer, which the list holds. -/
theorem segL0B2_writes : (segL0B2 : List (HloOp τ sig (Elt F))).Forall fun op =>
    op.writes ⊆ (segL0B2_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL0B2_keep (W : Valuation τ sig (Elt F)) (r : Ref sig .tc) (h : r ∉ segL0B2_W) :
    after segL0B2 W (Proc.devRef .tc r) = W (Proc.devRef .tc r) :=
  after_of_writes_sub segL0B2 W segL0B2_writes h

attribute [local irreducible] Host.gather Host.scatterAdd Host.rsqrt Host.divf Host.remsi in
set_option maxRecDepth 16384 in
set_option maxHeartbeats 4000000 in
/-- The block's output: that value minus the running mean, times the normalisation scale, plus the shift, rectified. -/
theorem segL0B2_out (W : Valuation τ sig (Elt Ideal)) :
    after segL0B2 W (Proc.devRef .tc main_v80)
      = Stages.relu (addf (mulf (subf (W (Proc.devRef .tc main_v58)) (Stages.rows (Stages.paramV0 (W (Proc.devRef .tc main_arg16)))))
          (Stages.rows (Stages.bnScale (Stages.paramV0 (W (Proc.devRef .tc main_arg14))) (Stages.paramV0 (W (Proc.devRef .tc main_arg17)))))) (Stages.rows (Stages.paramV0 (W (Proc.devRef .tc main_arg15))))) := by
  after_results_simp
  rfl

end Cert.ReferenceIdeal.RefValue

end
-- ==== Proof.RefSegL0.lean ====
/-
  The first block of the reference program's line: its aggregation, its two matrix products and its normalisation, in
  order. The fold over the three lists in sequence is the three folds composed; a buffer none of them writes is kept;
  and the block's result buffer holds the block function of the previous node features, the two index rows and the
  block's eight parameters, by the three parts' equations chained (the parameters are kept by the parts before
  the one that reads them).
-/
import proofs.«112971_j66340064854633_1_alg».proof.Proof.RefRun
import proofs.«112971_j66340064854633_1_alg».proof.Proof.RefSegL0A
import proofs.«112971_j66340064854633_1_alg».proof.Proof.RefSegL0B1
import proofs.«112971_j66340064854633_1_alg».proof.Proof.RefSegL0B2

noncomputable section

namespace Cert.ReferenceIdeal.RefValue

open Cert.ReferenceIdeal Cert.ReferenceIdeal.RefRun Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The block's 61 operations, in order. -/
abbrev segL0 : List (HloOp τ sig (Elt F)) := segL0A ++ (segL0B1 ++ segL0B2)

/-- The buffers the block writes. -/
abbrev segL0_W : List (Ref sig .tc) := segL0A_W ++ (segL0B1_W ++ segL0B2_W)

/-- A buffer the block does not write keeps its contents through it. -/
theorem segL0_keep (W : Valuation τ sig (Elt F)) (r : Ref sig .tc) (h : r ∉ segL0_W) :
    after segL0 W (Proc.devRef .tc r) = W (Proc.devRef .tc r) := by
  have h' : r ∉ segL0A_W ∧ r ∉ segL0B1_W ∧ r ∉ segL0B2_W := by
    simpa only [List.mem_append, not_or] using h
  rw [after_append, after_append, segL0B2_keep _ r h'.2.2, segL0B1_keep _ r h'.2.1, segL0A_keep _ r h'.1]

/-- The block's node features, from the previous features, the two index rows and the block's parameters. -/
theorem segL0_out (W : Valuation τ sig (Elt Ideal)) :
    after segL0 W (Proc.devRef .tc main_v80)
      = Stages.layerHost (Stages.aggF (W (Proc.devRef .tc main_v24)) (W (Proc.devRef .tc main_v26)) (W (Proc.devRef .tc main_v28)))
          (Stages.paramW0 (W (Proc.devRef .tc main_arg10))) (Stages.paramV0 (W (Proc.devRef .tc main_arg11))) (Stages.paramW0 (W (Proc.devRef .tc main_arg12))) (Stages.paramV0 (W (Proc.devRef .tc main_arg13)))
          (Stages.paramV0 (W (Proc.devRef .tc main_arg14))) (Stages.paramV0 (W (Proc.devRef .tc main_arg15))) (Stages.paramV0 (W (Proc.devRef .tc main_arg16))) (Stages.paramV0 (W (Proc.devRef .tc main_arg17))) := by
  rw [after_append, after_append, segL0B2_out]
  rw [segL0B1_keep _ main_arg14 (by decide), segL0B1_keep _ main_arg15 (by decide), segL0B1_keep _ main_arg16 (by decide), segL0B1_keep _ main_arg17 (by decide),
    segL0B1_out]
  rw [segL0A_keep _ main_arg10 (by decide),
    segL0A_keep _ main_arg11 (by decide),
    segL0A_keep _ main_arg12 (by decide),
    segL0A_keep _ main_arg13 (by decide),
    segL0A_keep _ main_arg14 (by decide),
    segL0A_keep _ main_arg15 (by decide),
    segL0A_keep _ main_arg16 (by decide),
    segL0A_keep _ main_arg17 (by decide),
    segL0A_out]
  rfl

end Cert.ReferenceIdeal.RefValue

end
-- ==== Proof.RefSegL1A.lean ====
/-
  One stage of the reference program's line of host operations: the second block's neighbourhood aggregation.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 17 operations, in order. -/
abbrev segL1A : List (HloOp τ sig (Elt F)) :=
  [ StableHlo.nullary main_c_10 (constantI S_ 32 0#32),
    StableHlo.unary main_c_10 main_v81 (broadcastInDim S600000 ![] bcast_S_S600000 : (⟨S_, .i32⟩ : BufTy).Contents (Elt F) → (⟨S600000, .i32⟩ : BufTy).Contents (Elt F)),
    StableHlo.binary main_v26 main_v81 main_v82 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 50000#32),
    StableHlo.unary main_c_11 main_v83 (broadcastInDim S600000 ![] bcast_S_S600000 : (⟨S_, .i32⟩ : BufTy).Contents (Elt F) → (⟨S600000, .i32⟩ : BufTy).Contents (Elt F)),
    StableHlo.binary main_v26 main_v83 main_v84 (addi : (⟨S600000, .i32⟩ : BufTy).Contents (Elt F) → (⟨S600000, .i32⟩ : BufTy).Contents (Elt F) → (⟨S600000, .i32⟩ : BufTy).Contents (Elt F)),
    StableHlo.ternary main_v82 main_v84 main_v26 main_v85 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v85 main_v86 (broadcastInDim S600000x1 ![0] bcast_S600000_S600000x1_0 : (⟨S600000, .i32⟩ : BufTy).Contents (Elt F) → (⟨S600000x1, .i32⟩ : BufTy).Contents (Elt F)),
    StableHlo.binary main_v80 main_v86 main_v87 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_12 (constant S_ .f32 0x00000000#32),
    StableHlo.unary main_cst_12 main_v88 (broadcastInDim S50000x128 ![] bcast_S_S50000x128 : (⟨S_, .f32⟩ : BufTy).Contents (Elt F) → (⟨S50000x128, .f32⟩ : BufTy).Contents (Elt F)),
    StableHlo.unary main_v28 main_v89 (broadcastInDim S600000x1 ![0] bcast_S600000_S600000x1_0 : (⟨S600000, .i32⟩ : BufTy).Contents (Elt F) → (⟨S600000x1, .i32⟩ : BufTy).Contents (Elt F)),
    StableHlo.ternary main_v88 main_v89 main_v87 main_v90 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_13 (constant S_ .f32 0x3F800000#32),
    StableHlo.unary main_cst_13 main_v91 (broadcastInDim S50000x128 ![] bcast_S_S50000x128 : (⟨S_, .f32⟩ : BufTy).Contents (Elt F) → (⟨S50000x128, .f32⟩ : BufTy).Contents (Elt F)),
    StableHlo.binary main_v91 main_v80 main_v92 (mulf : (⟨S50000x128, .f32⟩ : BufTy).Contents (Elt F) → (⟨S50000x128, .f32⟩ : BufTy).Contents (Elt F) → (⟨S50000x128, .f32⟩ : BufTy).Contents (Elt F)),
    StableHlo.binary main_v90 main_v92 main_v93 (addf : (⟨S50000x128, .f32⟩ : BufTy).Contents (Elt F) → (⟨S50000x128, .f32⟩ : BufTy).Contents (Elt F) → (⟨S50000x128, .f32⟩ : BufTy).Contents (Elt F)) ]

/-- The buffers the stage writes, one per operation. -/
abbrev segL1A_W : List (Ref sig .tc) :=
  [ main_c_10, main_v81, main_v82, main_c_11, main_v83, main_v84, main_v85, main_v86,
    main_v87, main_cst_12, main_v88, main_v89, main_v90, main_cst_13, main_v91, main_v92,
    main_v93 ]

set_option maxRecDepth 8192 in
/-- Each operation writes exactly its result buffer, which the list holds. -/
theorem segL1A_writes : (segL1A : List (HloOp τ sig (Elt F))).Forall fun op =>
    op.writes ⊆ (segL1A_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL1A_keep (W : Valuation τ sig (Elt F)) (r : Ref sig .tc) (h : r ∉ segL1A_W) :
    after segL1A W (Proc.devRef .tc r) = W (Proc.devRef .tc r) :=
  after_of_writes_sub segL1A W segL1A_writes h

attribute [local irreducible] Host.gather Host.scatterAdd Host.rsqrt Host.divf Host.remsi in
set_option maxRecDepth 16384 in
set_option maxHeartbeats 4000000 in
/-- The aggregated features, from the previous node features and the two index rows. -/
theorem segL1A_out (W : Valuation τ sig (Elt Ideal)) :
    after segL1A W (Proc.devRef .tc main_v93) = Stages.aggF (W (Proc.devRef .tc main_v80)) (W (Proc.devRef .tc main_v26)) (W (Proc.devRef .tc main_v28)) := by
  after_results_simp
  rfl

end Cert.ReferenceIdeal.RefValue

end
-- ==== Proof.RefSegL1B1.lean ====
/-
  One stage of the reference program's line of host operations: the second block's two matrix products, up to the value the normalisation takes.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 19 operations, in order. -/
abbrev segL1B1 : List (HloOp τ sig (Elt F)) :=
  [ StableHlo.unary main_arg10 main_v94 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v94 main_v95 rfl shapeCasts_S1x128x128_S128x128,
    StableHlo.binary main_v93 main_v95 main_v96 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v97 ((extractStridedSlice S1x128 ![1, 0] · slices_S4x128_S1x128_1_0) : (⟨S4x128, .f32⟩ : BufTy).Contents (Elt F) → (⟨S1x128, .f32⟩ : BufTy).Contents (Elt F)),
    StableHlo.reshape main_v97 main_v98 rfl shapeCasts_S1x128_S128,
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v96 main_v100 main_v101 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v101) main_call4.v0 main_call4.v1 maximumf,
    StableHlo.unary main_arg12 main_v103 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v103 main_v104 rfl shapeCasts_S1x128x128_S128x128,
    StableHlo.binary main_v102 main_v104 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v106 ((extractStridedSlice S1x128 ![1, 0] · slices_S4x128_S1x128_1_0) : (⟨S4x128, .f32⟩ : BufTy).Contents (Elt F) → (⟨S1x128, .f32⟩ : BufTy).Contents (Elt F)),
    StableHlo.reshape main_v106 main_v107 rfl shapeCasts_S1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v109 main_v110 (addf : (⟨S50000x128, .f32⟩ : BufTy).Contents (Elt F) → (⟨S50000x128, .f32⟩ : BufTy).Contents (Elt F) → (⟨S50000x128, .f32⟩ : BufTy).Contents (Elt F)) ]

/-- The buffers the stage writes, one per operation. -/
abbrev segL1B1_W : List (Ref sig .tc) :=
  [ main_v94, main_v95, main_v96, main_v97, main_v98, main_v99, main_v100, main_v101,
    main_call4.cst.ref, main_call4.v0.ref, main_call4.v1.ref, main_v103, main_v104, main_v105, main_v106, main_v107,
    main_v108, main_v109, main_v110 ]

set_option maxRecDepth 8192 in
/-- Each operation writes exactly its result buffer, which the list holds. -/
theorem segL1B1_writes : (segL1B1 : List (HloOp τ sig (Elt F))).Forall fun op =>
    op.writes ⊆ (segL1B1_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL1B1_keep (W : Valuation τ sig (Elt F)) (r : Ref sig .tc) (h : r ∉ segL1B1_W) :
    after segL1B1 W (Proc.devRef .tc r) = W (Proc.devRef .tc r) :=
  after_of_writes_sub segL1B1 W segL1B1_writes h

attribute [local irreducible] Host.gather Host.scatterAdd Host.rsqrt Host.divf Host.remsi in
set_option maxRecDepth 16384 in
set_option maxHeartbeats 4000000 in
/-- The value the normalisation takes: the aggregated features through the first matrix and bias, a rectifier, the
    second matrix and bias. -/
theorem segL1B1_out (W : Valuation τ sig (Elt Ideal)) :
    after segL1B1 W (Proc.devRef .tc main_v110)
      = addf (Stages.mm (Stages.relu (addf (Stages.mm (W (Proc.devRef .tc main_v93)) (Stages.paramW1 (W (Proc.devRef .tc main_arg10)))) (Stages.rows (Stages.paramV1 (W (Proc.devRef .tc main_arg11))))))
          (Stages.paramW1 (W (Proc.devRef .tc main_arg12)))) (Stages.rows (Stages.paramV1 (W (Proc.devRef .tc main_arg13)))) := by
  after_results_simp
  rfl

end Cert.ReferenceIdeal.RefValue

end
-- ==== Proof.RefSegL1B2.lean ====
/-
  One stage of the reference program's line of host operations: the second block's normalisation and final rectifier.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 25 operations, in order. -/
abbrev segL1B2 : List (HloOp τ sig (Elt F)) :=
  [ StableHlo.unary main_arg14 main_v111 ((extractStridedSlice S1x128 ![1, 0] · slices_S4x128_S1x128_1_0) : (⟨S4x128, .f32⟩ : BufTy).Contents (Elt F) → (⟨S1x128, .f32⟩ : BufTy).Contents (Elt F)),
    StableHlo.reshape main_v111 main_v112 rfl shapeCasts_S1x128_S128,
    StableHlo.unary main_arg17 main_v113 ((extractStridedSlice S1x128 ![1, 0] · slices_S4x128_S1x128_1_0) : (⟨S4x128, .f32⟩ : BufTy).Contents (Elt F) → (⟨S1x128, .f32⟩ : BufTy).Contents (Elt F)),
    StableHlo.reshape main_v113 main_v114 rfl shapeCasts_S1x128_S128,
    StableHlo.nullary main_cst_14 (constant S_ .f32 0x3727C5AC#32),
    StableHlo.unary main_cst_14 main_v115 (broadcastInDim S128 ![] bcast_S_S128 : (⟨S_, .f32⟩ : BufTy).Contents (Elt F) → (⟨S128, .f32⟩ : BufTy).Contents (Elt F)),
    StableHlo.binary main_v114 main_v115 main_v116 (addf : (⟨S128, .f32⟩ : BufTy).Contents (Elt F) → (⟨S128, .f32⟩ : BufTy).Contents (Elt F) → (⟨S128, .f32⟩ : BufTy).Contents (Elt F)),
    StableHlo.unary main_v116 main_v117 (Host.rsqrt : (⟨S128, .f32⟩ : BufTy).Contents (Elt F) → (⟨S128, .f32⟩ : BufTy).Contents (Elt F)),
    StableHlo.binary main_v112 main_v117 main_v118 (mulf : (⟨S128, .f32⟩ : BufTy).Contents (Elt F) → (⟨S128, .f32⟩ : BufTy).Contents (Elt F) → (⟨S128, .f32⟩ : BufTy).Contents (Elt F)),
    StableHlo.unary main_arg16 main_v119 ((extractStridedSlice S1x128 ![1, 0] · slices_S4x128_S1x128_1_0) : (⟨S4x128, .f32⟩ : BufTy).Contents (Elt F) → (⟨S1x128, .f32⟩ : BufTy).Contents (Elt F)),
    StableHlo.reshape main_v119 main_v120 rfl shapeCasts_S1x128_S128,
    StableHlo.unary main_v120 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v122 main_v123 (subf : (⟨S50000x128, .f32⟩ : BufTy).Contents (Elt F) → (⟨S50000x128, .f32⟩ : BufTy).Contents (Elt F) → (⟨S50000x128, .f32⟩ : BufTy).Contents (Elt F)),
    StableHlo.unary main_v118 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v125 main_v126 (mulf : (⟨S50000x128, .f32⟩ : BufTy).Contents (Elt F) → (⟨S50000x128, .f32⟩ : BufTy).Contents (Elt F) → (⟨S50000x128, .f32⟩ : BufTy).Contents (Elt F)),
    StableHlo.unary main_arg15 main_v127 ((extractStridedSlice S1x128 ![1, 0] · slices_S4x128_S1x128_1_0) : (⟨S4x128, .f32⟩ : BufTy).Contents (Elt F) → (⟨S1x128, .f32⟩ : BufTy).Contents (Elt F)),
    StableHlo.reshape main_v127 main_v128 rfl shapeCasts_S1x128_S128,
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v130 main_v131 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v131) main_call5.v0 main_call5.v1 maximumf ]

/-- The buffers the stage writes, one per operation. -/
abbrev segL1B2_W : List (Ref sig .tc) :=
  [ main_v111, main_v112, main_v113, main_v114, main_cst_14, main_v115, main_v116, main_v117,
    main_v118, main_v119, main_v120, main_v121, main_v122, main_v123, main_v124, main_v125,
    main_v126, main_v127, main_v128, main_v129, main_v130, main_v131, main_call5.cst.ref, main_call5.v0.ref,
    main_call5.v1.ref ]

set_option maxRecDepth 8192 in
/-- Each operation writes exactly its result buffer, which the list holds. -/
theorem segL1B2_writes : (segL1B2 : List (HloOp τ sig (Elt F))).Forall fun op =>
    op.writes ⊆ (segL1B2_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL1B2_keep (W : Valuation τ sig (Elt F)) (r : Ref sig .tc) (h : r ∉ segL1B2_W) :
    after segL1B2 W (Proc.devRef .tc r) = W (Proc.devRef .tc r) :=
  after_of_writes_sub segL1B2 W segL1B2_writes h

attribute [local irreducible] Host.gather Host.scatterAdd Host.rsqrt Host.divf Host.remsi in
set_option maxRecDepth 16384 in
set_option maxHeartbeats 4000000 in
/-- The block's output: that value minus the running mean, times the normalisation scale, plus the shift, rectified. -/
theorem segL1B2_out (W : Valuation τ sig (Elt Ideal)) :
    after segL1B2 W (Proc.devRef .tc main_v132)
      = Stages.relu (addf (mulf (subf (W (Proc.devRef .tc main_v110)) (Stages.rows (Stages.paramV1 (W (Proc.devRef .tc main_arg16)))))
          (Stages.rows (Stages.bnScale (Stages.paramV1 (W (Proc.devRef .tc main_arg14))) (Stages.paramV1 (W (Proc.devRef .tc main_arg17)))))) (Stages.rows (Stages.paramV1 (W (Proc.devRef .tc main_arg15))))) := by
  after_results_simp
  rfl

end Cert.ReferenceIdeal.RefValue

end
-- ==== Proof.RefSegL1.lean ====
/-
  The second block of the reference program's line: its aggregation, its two matrix products and its normalisation, in
  order. The fold over the three lists in sequence is the three folds composed; a buffer none of them writes is kept;
  and the block's result buffer holds the block function of the previous node features, the two index rows and the
  block's eight parameters, by the three parts' equations chained (the parameters are kept by the parts before
  the one that reads them).
-/
import proofs.«112971_j66340064854633_1_alg».proof.Proof.RefRun
import proofs.«112971_j66340064854633_1_alg».proof.Proof.RefSegL1A
import proofs.«112971_j66340064854633_1_alg».proof.Proof.RefSegL1B1
import proofs.«112971_j66340064854633_1_alg».proof.Proof.RefSegL1B2

noncomputable section

namespace Cert.ReferenceIdeal.RefValue

open Cert.ReferenceIdeal Cert.ReferenceIdeal.RefRun Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The block's 61 operations, in order. -/
abbrev segL1 : List (HloOp τ sig (Elt F)) := segL1A ++ (segL1B1 ++ segL1B2)

/-- The buffers the block writes. -/
abbrev segL1_W : List (Ref sig .tc) := segL1A_W ++ (segL1B1_W ++ segL1B2_W)

/-- A buffer the block does not write keeps its contents through it. -/
theorem segL1_keep (W : Valuation τ sig (Elt F)) (r : Ref sig .tc) (h : r ∉ segL1_W) :
    after segL1 W (Proc.devRef .tc r) = W (Proc.devRef .tc r) := by
  have h' : r ∉ segL1A_W ∧ r ∉ segL1B1_W ∧ r ∉ segL1B2_W := by
    simpa only [List.mem_append, not_or] using h
  rw [after_append, after_append, segL1B2_keep _ r h'.2.2, segL1B1_keep _ r h'.2.1, segL1A_keep _ r h'.1]

/-- The block's node features, from the previous features, the two index rows and the block's parameters. -/
theorem segL1_out (W : Valuation τ sig (Elt Ideal)) :
    after segL1 W (Proc.devRef .tc main_v132)
      = Stages.layerHost (Stages.aggF (W (Proc.devRef .tc main_v80)) (W (Proc.devRef .tc main_v26)) (W (Proc.devRef .tc main_v28)))
          (Stages.paramW1 (W (Proc.devRef .tc main_arg10))) (Stages.paramV1 (W (Proc.devRef .tc main_arg11))) (Stages.paramW1 (W (Proc.devRef .tc main_arg12))) (Stages.paramV1 (W (Proc.devRef .tc main_arg13)))
          (Stages.paramV1 (W (Proc.devRef .tc main_arg14))) (Stages.paramV1 (W (Proc.devRef .tc main_arg15))) (Stages.paramV1 (W (Proc.devRef .tc main_arg16))) (Stages.paramV1 (W (Proc.devRef .tc main_arg17))) := by
  rw [after_append, after_append, segL1B2_out]
  rw [segL1B1_keep _ main_arg14 (by decide), segL1B1_keep _ main_arg15 (by decide), segL1B1_keep _ main_arg16 (by decide), segL1B1_keep _ main_arg17 (by decide),
    segL1B1_out]
  rw [segL1A_keep _ main_arg10 (by decide),
    segL1A_keep _ main_arg11 (by decide),
    segL1A_keep _ main_arg12 (by decide),
    segL1A_keep _ main_arg13 (by decide),
    segL1A_keep _ main_arg14 (by decide),
    segL1A_keep _ main_arg15 (by decide),
    segL1A_keep _ main_arg16 (by decide),
    segL1A_keep _ main_arg17 (by decide),
    segL1A_out]
  rfl

end Cert.ReferenceIdeal.RefValue

end
-- ==== Proof.RefSegL2A.lean ====
/-
  One stage of the reference program's line of host operations: the third block's neighbourhood aggregation.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 17 operations, in order. -/
abbrev segL2A : List (HloOp τ sig (Elt F)) :=
  [ StableHlo.nullary main_c_15 (constantI S_ 32 0#32),
    StableHlo.unary main_c_15 main_v133 (broadcastInDim S600000 ![] bcast_S_S600000 : (⟨S_, .i32⟩ : BufTy).Contents (Elt F) → (⟨S600000, .i32⟩ : BufTy).Contents (Elt F)),
    StableHlo.binary main_v26 main_v133 main_v134 (cmpi .slt : (⟨S600000, .i32⟩ : BufTy).Contents (Elt F) → (⟨S600000, .i32⟩ : BufTy).Contents (Elt F) → (⟨S600000, .i1⟩ : BufTy).Contents (Elt F)),
    StableHlo.nullary main_c_16 (constantI S_ 32 50000#32),
    StableHlo.unary main_c_16 main_v135 (broadcastInDim S600000 ![] bcast_S_S600000 : (⟨S_, .i32⟩ : BufTy).Contents (Elt F) → (⟨S600000, .i32⟩ : BufTy).Contents (Elt F)),
    StableHlo.binary main_v26 main_v135 main_v136 (addi : (⟨S600000, .i32⟩ : BufTy).Contents (Elt F) → (⟨S600000, .i32⟩ : BufTy).Contents (Elt F) → (⟨S600000, .i32⟩ : BufTy).Contents (Elt F)),
    StableHlo.ternary main_v134 main_v136 main_v26 main_v137 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v137 main_v138 (broadcastInDim S600000x1 ![0] bcast_S600000_S600000x1_0 : (⟨S600000, .i32⟩ : BufTy).Contents (Elt F) → (⟨S600000x1, .i32⟩ : BufTy).Contents (Elt F)),
    StableHlo.binary main_v132 main_v138 main_v139 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_17 (constant S_ .f32 0x00000000#32),
    StableHlo.unary main_cst_17 main_v140 (broadcastInDim S50000x128 ![] bcast_S_S50000x128 : (⟨S_, .f32⟩ : BufTy).Contents (Elt F) → (⟨S50000x128, .f32⟩ : BufTy).Contents (Elt F)),
    StableHlo.unary main_v28 main_v141 (broadcastInDim S600000x1 ![0] bcast_S600000_S600000x1_0 : (⟨S600000, .i32⟩ : BufTy).Contents (Elt F) → (⟨S600000x1, .i32⟩ : BufTy).Contents (Elt F)),
    StableHlo.ternary main_v140 main_v141 main_v139 main_v142 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_18 (constant S_ .f32 0x3F800000#32),
    StableHlo.unary main_cst_18 main_v143 (broadcastInDim S50000x128 ![] bcast_S_S50000x128 : (⟨S_, .f32⟩ : BufTy).Contents (Elt F) → (⟨S50000x128, .f32⟩ : BufTy).Contents (Elt F)),
    StableHlo.binary main_v143 main_v132 main_v144 (mulf : (⟨S50000x128, .f32⟩ : BufTy).Contents (Elt F) → (⟨S50000x128, .f32⟩ : BufTy).Contents (Elt F) → (⟨S50000x128, .f32⟩ : BufTy).Contents (Elt F)),
    StableHlo.binary main_v142 main_v144 main_v145 (addf : (⟨S50000x128, .f32⟩ : BufTy).Contents (Elt F) → (⟨S50000x128, .f32⟩ : BufTy).Contents (Elt F) → (⟨S50000x128, .f32⟩ : BufTy).Contents (Elt F)) ]

/-- The buffers the stage writes, one per operation. -/
abbrev segL2A_W : List (Ref sig .tc) :=
  [ main_c_15, main_v133, main_v134, main_c_16, main_v135, main_v136, main_v137, main_v138,
    main_v139, main_cst_17, main_v140, main_v141, main_v142, main_cst_18, main_v143, main_v144,
    main_v145 ]

set_option maxRecDepth 8192 in
/-- Each operation writes exactly its result buffer, which the list holds. -/
theorem segL2A_writes : (segL2A : List (HloOp τ sig (Elt F))).Forall fun op =>
    op.writes ⊆ (segL2A_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL2A_keep (W : Valuation τ sig (Elt F)) (r : Ref sig .tc) (h : r ∉ segL2A_W) :
    after segL2A W (Proc.devRef .tc r) = W (Proc.devRef .tc r) :=
  after_of_writes_sub segL2A W segL2A_writes h

attribute [local irreducible] Host.gather Host.scatterAdd Host.rsqrt Host.divf Host.remsi in
set_option maxRecDepth 16384 in
set_option maxHeartbeats 4000000 in
/-- The aggregated features, from the previous node features and the two index rows. -/
theorem segL2A_out (W : Valuation τ sig (Elt Ideal)) :
    after segL2A W (Proc.devRef .tc main_v145) = Stages.aggF (W (Proc.devRef .tc main_v132)) (W (Proc.devRef .tc main_v26)) (W (Proc.devRef .tc main_v28)) := by
  after_results_simp
  rfl

end Cert.ReferenceIdeal.RefValue

end
-- ==== Proof.RefSegL2B1.lean ====
/-
  One stage of the reference program's line of host operations: the third block's two matrix products, up to the value the normalisation takes.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 19 operations, in order. -/
abbrev segL2B1 : List (HloOp τ sig (Elt F)) :=
  [ StableHlo.unary main_arg10 main_v146 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v146 main_v147 rfl shapeCasts_S1x128x128_S128x128,
    StableHlo.binary main_v145 main_v147 main_v148 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v149 ((extractStridedSlice S1x128 ![2, 0] · slices_S4x128_S1x128_2_0) : (⟨S4x128, .f32⟩ : BufTy).Contents (Elt F) → (⟨S1x128, .f32⟩ : BufTy).Contents (Elt F)),
    StableHlo.reshape main_v149 main_v150 rfl shapeCasts_S1x128_S128,
    StableHlo.unary main_v150 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v152 main_v153 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v153) main_call6.v0 main_call6.v1 maximumf,
    StableHlo.unary main_arg12 main_v155 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v155 main_v156 rfl shapeCasts_S1x128x128_S128x128,
    StableHlo.binary main_v154 main_v156 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v158 ((extractStridedSlice S1x128 ![2, 0] · slices_S4x128_S1x128_2_0) : (⟨S4x128, .f32⟩ : BufTy).Contents (Elt F) → (⟨S1x128, .f32⟩ : BufTy).Contents (Elt F)),
    StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v161 main_v162 (addf : (⟨S50000x128, .f32⟩ : BufTy).Contents (Elt F) → (⟨S50000x128, .f32⟩ : BufTy).Contents (Elt F) → (⟨S50000x128, .f32⟩ : BufTy).Contents (Elt F)) ]

/-- The buffers the stage writes, one per operation. -/
abbrev segL2B1_W : List (Ref sig .tc) :=
  [ main_v146, main_v147, main_v148, main_v149, main_v150, main_v151, main_v152, main_v153,
    main_call6.cst.ref, main_call6.v0.ref, main_call6.v1.ref, main_v155, main_v156, main_v157, main_v158, main_v159,
    main_v160, main_v161, main_v162 ]

set_option maxRecDepth 8192 in
/-- Each operation writes exactly its result buffer, which the list holds. -/
theorem segL2B1_writes : (segL2B1 : List (HloOp τ sig (Elt F))).Forall fun op =>
    op.writes ⊆ (segL2B1_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL2B1_keep (W : Valuation τ sig (Elt F)) (r : Ref sig .tc) (h : r ∉ segL2B1_W) :
    after segL2B1 W (Proc.devRef .tc r) = W (Proc.devRef .tc r) :=
  after_of_writes_sub segL2B1 W segL2B1_writes h

attribute [local irreducible] Host.gather Host.scatterAdd Host.rsqrt Host.divf Host.remsi in
set_option maxRecDepth 16384 in
set_option maxHeartbeats 4000000 in
/-- The value the normalisation takes: the aggregated features through the first matrix and bias, a rectifier, the
    second matrix and bias. -/
theorem segL2B1_out (W : Valuation τ sig (Elt Ideal)) :
    after segL2B1 W (Proc.devRef .tc main_v162)
      = addf (Stages.mm (Stages.relu (addf (Stages.mm (W (Proc.devRef .tc main_v145)) (Stages.paramW2 (W (Proc.devRef .tc main_arg10)))) (Stages.rows (Stages.paramV2 (W (Proc.devRef .tc main_arg11))))))
          (Stages.paramW2 (W (Proc.devRef .tc main_arg12)))) (Stages.rows (Stages.paramV2 (W (Proc.devRef .tc main_arg13)))) := by
  after_results_simp
  rfl

end Cert.ReferenceIdeal.RefValue

end
-- ==== Proof.RefSegL2B2.lean ====
/-
  One stage of the reference program's line of host operations: the third block's normalisation and final rectifier.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 25 operations, in order. -/
abbrev segL2B2 : List (HloOp τ sig (Elt F)) :=
  [ StableHlo.unary main_arg14 main_v163 ((extractStridedSlice S1x128 ![2, 0] · slices_S4x128_S1x128_2_0) : (⟨S4x128, .f32⟩ : BufTy).Contents (Elt F) → (⟨S1x128, .f32⟩ : BufTy).Contents (Elt F)),
    StableHlo.reshape main_v163 main_v164 rfl shapeCasts_S1x128_S128,
    StableHlo.unary main_arg17 main_v165 ((extractStridedSlice S1x128 ![2, 0] · slices_S4x128_S1x128_2_0) : (⟨S4x128, .f32⟩ : BufTy).Contents (Elt F) → (⟨S1x128, .f32⟩ : BufTy).Contents (Elt F)),
    StableHlo.reshape main_v165 main_v166 rfl shapeCasts_S1x128_S128,
    StableHlo.nullary main_cst_19 (constant S_ .f32 0x3727C5AC#32),
    StableHlo.unary main_cst_19 main_v167 (broadcastInDim S128 ![] bcast_S_S128 : (⟨S_, .f32⟩ : BufTy).Contents (Elt F) → (⟨S128, .f32⟩ : BufTy).Contents (Elt F)),
    StableHlo.binary main_v166 main_v167 main_v168 (addf : (⟨S128, .f32⟩ : BufTy).Contents (Elt F) → (⟨S128, .f32⟩ : BufTy).Contents (Elt F) → (⟨S128, .f32⟩ : BufTy).Contents (Elt F)),
    StableHlo.unary main_v168 main_v169 (Host.rsqrt : (⟨S128, .f32⟩ : BufTy).Contents (Elt F) → (⟨S128, .f32⟩ : BufTy).Contents (Elt F)),
    StableHlo.binary main_v164 main_v169 main_v170 (mulf : (⟨S128, .f32⟩ : BufTy).Contents (Elt F) → (⟨S128, .f32⟩ : BufTy).Contents (Elt F) → (⟨S128, .f32⟩ : BufTy).Contents (Elt F)),
    StableHlo.unary main_arg16 main_v171 ((extractStridedSlice S1x128 ![2, 0] · slices_S4x128_S1x128_2_0) : (⟨S4x128, .f32⟩ : BufTy).Contents (Elt F) → (⟨S1x128, .f32⟩ : BufTy).Contents (Elt F)),
    StableHlo.reshape main_v171 main_v172 rfl shapeCasts_S1x128_S128,
    StableHlo.unary main_v172 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S50000x128 ![0, 1] bcast_S1x128_S50000x128_0_1 : (⟨S1x128, .f32⟩ : BufTy).Contents (Elt F) → (⟨S50000x128, .f32⟩ : BufTy).Contents (Elt F)),
    StableHlo.binary main_v162 main_v174 main_v175 (subf : (⟨S50000x128, .f32⟩ : BufTy).Contents (Elt F) → (⟨S50000x128, .f32⟩ : BufTy).Contents (Elt F) → (⟨S50000x128, .f32⟩ : BufTy).Contents (Elt F)),
    StableHlo.unary main_v170 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v175 main_v177 main_v178 (mulf : (⟨S50000x128, .f32⟩ : BufTy).Contents (Elt F) → (⟨S50000x128, .f32⟩ : BufTy).Contents (Elt F) → (⟨S50000x128, .f32⟩ : BufTy).Contents (Elt F)),
    StableHlo.unary main_arg15 main_v179 ((extractStridedSlice S1x128 ![2, 0] · slices_S4x128_S1x128_2_0) : (⟨S4x128, .f32⟩ : BufTy).Contents (Elt F) → (⟨S1x128, .f32⟩ : BufTy).Contents (Elt F)),
    StableHlo.reshape main_v179 main_v180 rfl shapeCasts_S1x128_S128,
    StableHlo.unary main_v180 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v178 main_v182 main_v183 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v183) main_call7.v0 main_call7.v1 maximumf ]

/-- The buffers the stage writes, one per operation. -/
abbrev segL2B2_W : List (Ref sig .tc) :=
  [ main_v163, main_v164, main_v165, main_v166, main_cst_19, main_v167, main_v168, main_v169,
    main_v170, main_v171, main_v172, main_v173, main_v174, main_v175, main_v176, main_v177,
    main_v178, main_v179, main_v180, main_v181, main_v182, main_v183, main_call7.cst.ref, main_call7.v0.ref,
    main_call7.v1.ref ]

set_option maxRecDepth 8192 in
/-- Each operation writes exactly its result buffer, which the list holds. -/
theorem segL2B2_writes : (segL2B2 : List (HloOp τ sig (Elt F))).Forall fun op =>
    op.writes ⊆ (segL2B2_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL2B2_keep (W : Valuation τ sig (Elt F)) (r : Ref sig .tc) (h : r ∉ segL2B2_W) :
    after segL2B2 W (Proc.devRef .tc r) = W (Proc.devRef .tc r) :=
  after_of_writes_sub segL2B2 W segL2B2_writes h

attribute [local irreducible] Host.gather Host.scatterAdd Host.rsqrt Host.divf Host.remsi in
set_option maxRecDepth 16384 in
set_option maxHeartbeats 4000000 in
/-- The block's output: that value minus the running mean, times the normalisation scale, plus the shift, rectified. -/
theorem segL2B2_out (W : Valuation τ sig (Elt Ideal)) :
    after segL2B2 W (Proc.devRef .tc main_v184)
      = Stages.relu (addf (mulf (subf (W (Proc.devRef .tc main_v162)) (Stages.rows (Stages.paramV2 (W (Proc.devRef .tc main_arg16)))))
          (Stages.rows (Stages.bnScale (Stages.paramV2 (W (Proc.devRef .tc main_arg14))) (Stages.paramV2 (W (Proc.devRef .tc main_arg17)))))) (Stages.rows (Stages.paramV2 (W (Proc.devRef .tc main_arg15))))) := by
  after_results_simp
  rfl

end Cert.ReferenceIdeal.RefValue

end
-- ==== Proof.RefSegL2.lean ====
/-
  The third block of the reference program's line: its aggregation, its two matrix products and its normalisation, in
  order. The fold over the three lists in sequence is the three folds composed; a buffer none of them writes is kept;
  and the block's result buffer holds the block function of the previous node features, the two index rows and the
  block's eight parameters, by the three parts' equations chained (the parameters are kept by the parts before
  the one that reads them).
-/
import proofs.«112971_j66340064854633_1_alg».proof.Proof.RefRun
import proofs.«112971_j66340064854633_1_alg».proof.Proof.RefSegL2A
import proofs.«112971_j66340064854633_1_alg».proof.Proof.RefSegL2B1
import proofs.«112971_j66340064854633_1_alg».proof.Proof.RefSegL2B2

noncomputable section

namespace Cert.ReferenceIdeal.RefValue

open Cert.ReferenceIdeal Cert.ReferenceIdeal.RefRun Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The block's 61 operations, in order. -/
abbrev segL2 : List (HloOp τ sig (Elt F)) := segL2A ++ (segL2B1 ++ segL2B2)

/-- The buffers the block writes. -/
abbrev segL2_W : List (Ref sig .tc) := segL2A_W ++ (segL2B1_W ++ segL2B2_W)

/-- A buffer the block does not write keeps its contents through it. -/
theorem segL2_keep (W : Valuation τ sig (Elt F)) (r : Ref sig .tc) (h : r ∉ segL2_W) :
    after segL2 W (Proc.devRef .tc r) = W (Proc.devRef .tc r) := by
  have h' : r ∉ segL2A_W ∧ r ∉ segL2B1_W ∧ r ∉ segL2B2_W := by
    simpa only [List.mem_append, not_or] using h
  rw [after_append, after_append, segL2B2_keep _ r h'.2.2, segL2B1_keep _ r h'.2.1, segL2A_keep _ r h'.1]

/-- The block's node features, from the previous features, the two index rows and the block's parameters. -/
theorem segL2_out (W : Valuation τ sig (Elt Ideal)) :
    after segL2 W (Proc.devRef .tc main_v184)
      = Stages.layerHost (Stages.aggF (W (Proc.devRef .tc main_v132)) (W (Proc.devRef .tc main_v26)) (W (Proc.devRef .tc main_v28)))
          (Stages.paramW2 (W (Proc.devRef .tc main_arg10))) (Stages.paramV2 (W (Proc.devRef .tc main_arg11))) (Stages.paramW2 (W (Proc.devRef .tc main_arg12))) (Stages.paramV2 (W (Proc.devRef .tc main_arg13)))
          (Stages.paramV2 (W (Proc.devRef .tc main_arg14))) (Stages.paramV2 (W (Proc.devRef .tc main_arg15))) (Stages.paramV2 (W (Proc.devRef .tc main_arg16))) (Stages.paramV2 (W (Proc.devRef .tc main_arg17))) := by
  rw [after_append, after_append, segL2B2_out]
  rw [segL2B1_keep _ main_arg14 (by decide), segL2B1_keep _ main_arg15 (by decide), segL2B1_keep _ main_arg16 (by decide), segL2B1_keep _ main_arg17 (by decide),
    segL2B1_out]
  rw [segL2A_keep _ main_arg10 (by decide),
    segL2A_keep _ main_arg11 (by decide),
    segL2A_keep _ main_arg12 (by decide),
    segL2A_keep _ main_arg13 (by decide),
    segL2A_keep _ main_arg14 (by decide),
    segL2A_keep _ main_arg15 (by decide),
    segL2A_keep _ main_arg16 (by decide),
    segL2A_keep _ main_arg17 (by decide),
    segL2A_out]
  rfl

end Cert.ReferenceIdeal.RefValue

end
-- ==== Proof.RefSegL3A.lean ====
/-
  One stage of the reference program's line of host operations: the fourth block's neighbourhood aggregation.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 17 operations, in order. -/
abbrev segL3A : List (HloOp τ sig (Elt F)) :=
  [ StableHlo.nullary main_c_20 (constantI S_ 32 0#32),
    StableHlo.unary main_c_20 main_v185 (broadcastInDim S600000 ![] bcast_S_S600000 : (⟨S_, .i32⟩ : BufTy).Contents (Elt F) → (⟨S600000, .i32⟩ : BufTy).Contents (Elt F)),
    StableHlo.binary main_v26 main_v185 main_v186 (cmpi .slt : (⟨S600000, .i32⟩ : BufTy).Contents (Elt F) → (⟨S600000, .i32⟩ : BufTy).Contents (Elt F) → (⟨S600000, .i1⟩ : BufTy).Contents (Elt F)),
    StableHlo.nullary main_c_21 (constantI S_ 32 50000#32),
    StableHlo.unary main_c_21 main_v187 (broadcastInDim S600000 ![] bcast_S_S600000 : (⟨S_, .i32⟩ : BufTy).Contents (Elt F) → (⟨S600000, .i32⟩ : BufTy).Contents (Elt F)),
    StableHlo.binary main_v26 main_v187 main_v188 (addi : (⟨S600000, .i32⟩ : BufTy).Contents (Elt F) → (⟨S600000, .i32⟩ : BufTy).Contents (Elt F) → (⟨S600000, .i32⟩ : BufTy).Contents (Elt F)),
    StableHlo.ternary main_v186 main_v188 main_v26 main_v189 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v189 main_v190 (broadcastInDim S600000x1 ![0] bcast_S600000_S600000x1_0 : (⟨S600000, .i32⟩ : BufTy).Contents (Elt F) → (⟨S600000x1, .i32⟩ : BufTy).Contents (Elt F)),
    StableHlo.binary main_v184 main_v190 main_v191 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_22 (constant S_ .f32 0x00000000#32),
    StableHlo.unary main_cst_22 main_v192 (broadcastInDim S50000x128 ![] bcast_S_S50000x128 : (⟨S_, .f32⟩ : BufTy).Contents (Elt F) → (⟨S50000x128, .f32⟩ : BufTy).Contents (Elt F)),
    StableHlo.unary main_v28 main_v193 (broadcastInDim S600000x1 ![0] bcast_S600000_S600000x1_0 : (⟨S600000, .i32⟩ : BufTy).Contents (Elt F) → (⟨S600000x1, .i32⟩ : BufTy).Contents (Elt F)),
    StableHlo.ternary main_v192 main_v193 main_v191 main_v194 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_23 (constant S_ .f32 0x3F800000#32),
    StableHlo.unary main_cst_23 main_v195 (broadcastInDim S50000x128 ![] bcast_S_S50000x128 : (⟨S_, .f32⟩ : BufTy).Contents (Elt F) → (⟨S50000x128, .f32⟩ : BufTy).Contents (Elt F)),
    StableHlo.binary main_v195 main_v184 main_v196 (mulf : (⟨S50000x128, .f32⟩ : BufTy).Contents (Elt F) → (⟨S50000x128, .f32⟩ : BufTy).Contents (Elt F) → (⟨S50000x128, .f32⟩ : BufTy).Contents (Elt F)),
    StableHlo.binary main_v194 main_v196 main_v197 (addf : (⟨S50000x128, .f32⟩ : BufTy).Contents (Elt F) → (⟨S50000x128, .f32⟩ : BufTy).Contents (Elt F) → (⟨S50000x128, .f32⟩ : BufTy).Contents (Elt F)) ]

/-- The buffers the stage writes, one per operation. -/
abbrev segL3A_W : List (Ref sig .tc) :=
  [ main_c_20, main_v185, main_v186, main_c_21, main_v187, main_v188, main_v189, main_v190,
    main_v191, main_cst_22, main_v192, main_v193, main_v194, main_cst_23, main_v195, main_v196,
    main_v197 ]

set_option maxRecDepth 8192 in
/-- Each operation writes exactly its result buffer, which the list holds. -/
theorem segL3A_writes : (segL3A : List (HloOp τ sig (Elt F))).Forall fun op =>
    op.writes ⊆ (segL3A_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL3A_keep (W : Valuation τ sig (Elt F)) (r : Ref sig .tc) (h : r ∉ segL3A_W) :
    after segL3A W (Proc.devRef .tc r) = W (Proc.devRef .tc r) :=
  after_of_writes_sub segL3A W segL3A_writes h

attribute [local irreducible] Host.gather Host.scatterAdd Host.rsqrt Host.divf Host.remsi in
set_option maxRecDepth 16384 in
set_option maxHeartbeats 4000000 in
/-- The aggregated features, from the previous node features and the two index rows. -/
theorem segL3A_out (W : Valuation τ sig (Elt Ideal)) :
    after segL3A W (Proc.devRef .tc main_v197) = Stages.aggF (W (Proc.devRef .tc main_v184)) (W (Proc.devRef .tc main_v26)) (W (Proc.devRef .tc main_v28)) := by
  after_results_simp
  rfl

end Cert.ReferenceIdeal.RefValue

end
-- ==== Proof.RefSegL3B1.lean ====
/-
  One stage of the reference program's line of host operations: the fourth block's two matrix products, up to the value the normalisation takes.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 19 operations, in order. -/
abbrev segL3B1 : List (HloOp τ sig (Elt F)) :=
  [ StableHlo.unary main_arg10 main_v198 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v198 main_v199 rfl shapeCasts_S1x128x128_S128x128,
    StableHlo.binary main_v197 main_v199 main_v200 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v201 ((extractStridedSlice S1x128 ![3, 0] · slices_S4x128_S1x128_3_0) : (⟨S4x128, .f32⟩ : BufTy).Contents (Elt F) → (⟨S1x128, .f32⟩ : BufTy).Contents (Elt F)),
    StableHlo.reshape main_v201 main_v202 rfl shapeCasts_S1x128_S128,
    StableHlo.unary main_v202 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v200 main_v204 main_v205 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v205) main_call8.v0 main_call8.v1 maximumf,
    StableHlo.unary main_arg12 main_v207 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v207 main_v208 rfl shapeCasts_S1x128x128_S128x128,
    StableHlo.binary main_v206 main_v208 main_v209 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v210 ((extractStridedSlice S1x128 ![3, 0] · slices_S4x128_S1x128_3_0) : (⟨S4x128, .f32⟩ : BufTy).Contents (Elt F) → (⟨S1x128, .f32⟩ : BufTy).Contents (Elt F)),
    StableHlo.reshape main_v210 main_v211 rfl shapeCasts_S1x128_S128,
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S50000x128 ![0, 1] bcast_S1x128_S50000x128_0_1 : (⟨S1x128, .f32⟩ : BufTy).Contents (Elt F) → (⟨S50000x128, .f32⟩ : BufTy).Contents (Elt F)),
    StableHlo.binary main_v209 main_v213 main_v214 (addf : (⟨S50000x128, .f32⟩ : BufTy).Contents (Elt F) → (⟨S50000x128, .f32⟩ : BufTy).Contents (Elt F) → (⟨S50000x128, .f32⟩ : BufTy).Contents (Elt F)) ]

/-- The buffers the stage writes, one per operation. -/
abbrev segL3B1_W : List (Ref sig .tc) :=
  [ main_v198, main_v199, main_v200, main_v201, main_v202, main_v203, main_v204, main_v205,
    main_call8.cst.ref, main_call8.v0.ref, main_call8.v1.ref, main_v207, main_v208, main_v209, main_v210, main_v211,
    main_v212, main_v213, main_v214 ]

set_option maxRecDepth 8192 in
/-- Each operation writes exactly its result buffer, which the list holds. -/
theorem segL3B1_writes : (segL3B1 : List (HloOp τ sig (Elt F))).Forall fun op =>
    op.writes ⊆ (segL3B1_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL3B1_keep (W : Valuation τ sig (Elt F)) (r : Ref sig .tc) (h : r ∉ segL3B1_W) :
    after segL3B1 W (Proc.devRef .tc r) = W (Proc.devRef .tc r) :=
  after_of_writes_sub segL3B1 W segL3B1_writes h

attribute [local irreducible] Host.gather Host.scatterAdd Host.rsqrt Host.divf Host.remsi in
set_option maxRecDepth 16384 in
set_option maxHeartbeats 4000000 in
/-- The value the normalisation takes: the aggregated features through the first matrix and bias, a rectifier, the
    second matrix and bias. -/
theorem segL3B1_out (W : Valuation τ sig (Elt Ideal)) :
    after segL3B1 W (Proc.devRef .tc main_v214)
      = addf (Stages.mm (Stages.relu (addf (Stages.mm (W (Proc.devRef .tc main_v197)) (Stages.paramW3 (W (Proc.devRef .tc main_arg10)))) (Stages.rows (Stages.paramV3 (W (Proc.devRef .tc main_arg11))))))
          (Stages.paramW3 (W (Proc.devRef .tc main_arg12)))) (Stages.rows (Stages.paramV3 (W (Proc.devRef .tc main_arg13)))) := by
  after_results_simp
  rfl

end Cert.ReferenceIdeal.RefValue

end
-- ==== Proof.RefSegL3B2.lean ====
/-
  One stage of the reference program's line of host operations: the fourth block's normalisation and final rectifier.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 25 operations, in order. -/
abbrev segL3B2 : List (HloOp τ sig (Elt F)) :=
  [ StableHlo.unary main_arg14 main_v215 ((extractStridedSlice S1x128 ![3, 0] · slices_S4x128_S1x128_3_0) : (⟨S4x128, .f32⟩ : BufTy).Contents (Elt F) → (⟨S1x128, .f32⟩ : BufTy).Contents (Elt F)),
    StableHlo.reshape main_v215 main_v216 rfl shapeCasts_S1x128_S128,
    StableHlo.unary main_arg17 main_v217 ((extractStridedSlice S1x128 ![3, 0] · slices_S4x128_S1x128_3_0) : (⟨S4x128, .f32⟩ : BufTy).Contents (Elt F) → (⟨S1x128, .f32⟩ : BufTy).Contents (Elt F)),
    StableHlo.reshape main_v217 main_v218 rfl shapeCasts_S1x128_S128,
    StableHlo.nullary main_cst_24 (constant S_ .f32 0x3727C5AC#32),
    StableHlo.unary main_cst_24 main_v219 (broadcastInDim S128 ![] bcast_S_S128 : (⟨S_, .f32⟩ : BufTy).Contents (Elt F) → (⟨S128, .f32⟩ : BufTy).Contents (Elt F)),
    StableHlo.binary main_v218 main_v219 main_v220 (addf : (⟨S128, .f32⟩ : BufTy).Contents (Elt F) → (⟨S128, .f32⟩ : BufTy).Contents (Elt F) → (⟨S128, .f32⟩ : BufTy).Contents (Elt F)),
    StableHlo.unary main_v220 main_v221 (Host.rsqrt : (⟨S128, .f32⟩ : BufTy).Contents (Elt F) → (⟨S128, .f32⟩ : BufTy).Contents (Elt F)),
    StableHlo.binary main_v216 main_v221 main_v222 (mulf : (⟨S128, .f32⟩ : BufTy).Contents (Elt F) → (⟨S128, .f32⟩ : BufTy).Contents (Elt F) → (⟨S128, .f32⟩ : BufTy).Contents (Elt F)),
    StableHlo.unary main_arg16 main_v223 ((extractStridedSlice S1x128 ![3, 0] · slices_S4x128_S1x128_3_0) : (⟨S4x128, .f32⟩ : BufTy).Contents (Elt F) → (⟨S1x128, .f32⟩ : BufTy).Contents (Elt F)),
    StableHlo.reshape main_v223 main_v224 rfl shapeCasts_S1x128_S128,
    StableHlo.unary main_v224 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v226 main_v227 (subf : (⟨S50000x128, .f32⟩ : BufTy).Contents (Elt F) → (⟨S50000x128, .f32⟩ : BufTy).Contents (Elt F) → (⟨S50000x128, .f32⟩ : BufTy).Contents (Elt F)),
    StableHlo.unary main_v222 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v227 main_v229 main_v230 (mulf : (⟨S50000x128, .f32⟩ : BufTy).Contents (Elt F) → (⟨S50000x128, .f32⟩ : BufTy).Contents (Elt F) → (⟨S50000x128, .f32⟩ : BufTy).Contents (Elt F)),
    StableHlo.unary main_arg15 main_v231 ((extractStridedSlice S1x128 ![3, 0] · slices_S4x128_S1x128_3_0) : (⟨S4x128, .f32⟩ : BufTy).Contents (Elt F) → (⟨S1x128, .f32⟩ : BufTy).Contents (Elt F)),
    StableHlo.reshape main_v231 main_v232 rfl shapeCasts_S1x128_S128,
    StableHlo.unary main_v232 main_v233 (broadcastInDim S1x128 ![1] bcast_S128_S1x128_1 : (⟨S128, .f32⟩ : BufTy).Contents (Elt F) → (⟨S1x128, .f32⟩ : BufTy).Contents (Elt F)),
    StableHlo.unary main_v233 main_v234 (broadcastInDim S50000x128 ![0, 1] bcast_S1x128_S50000x128_0_1 : (⟨S1x128, .f32⟩ : BufTy).Contents (Elt F) → (⟨S50000x128, .f32⟩ : BufTy).Contents (Elt F)),
    StableHlo.binary main_v230 main_v234 main_v235 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v235) main_call9.v0 main_call9.v1 maximumf ]

/-- The buffers the stage writes, one per operation. -/
abbrev segL3B2_W : List (Ref sig .tc) :=
  [ main_v215, main_v216, main_v217, main_v218, main_cst_24, main_v219, main_v220, main_v221,
    main_v222, main_v223, main_v224, main_v225, main_v226, main_v227, main_v228, main_v229,
    main_v230, main_v231, main_v232, main_v233, main_v234, main_v235, main_call9.cst.ref, main_call9.v0.ref,
    main_call9.v1.ref ]

set_option maxRecDepth 8192 in
/-- Each operation writes exactly its result buffer, which the list holds. -/
theorem segL3B2_writes : (segL3B2 : List (HloOp τ sig (Elt F))).Forall fun op =>
    op.writes ⊆ (segL3B2_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segL3B2_keep (W : Valuation τ sig (Elt F)) (r : Ref sig .tc) (h : r ∉ segL3B2_W) :
    after segL3B2 W (Proc.devRef .tc r) = W (Proc.devRef .tc r) :=
  after_of_writes_sub segL3B2 W segL3B2_writes h

attribute [local irreducible] Host.gather Host.scatterAdd Host.rsqrt Host.divf Host.remsi in
set_option maxRecDepth 16384 in
set_option maxHeartbeats 4000000 in
/-- The block's output: that value minus the running mean, times the normalisation scale, plus the shift, rectified. -/
theorem segL3B2_out (W : Valuation τ sig (Elt Ideal)) :
    after segL3B2 W (Proc.devRef .tc main_v236)
      = Stages.relu (addf (mulf (subf (W (Proc.devRef .tc main_v214)) (Stages.rows (Stages.paramV3 (W (Proc.devRef .tc main_arg16)))))
          (Stages.rows (Stages.bnScale (Stages.paramV3 (W (Proc.devRef .tc main_arg14))) (Stages.paramV3 (W (Proc.devRef .tc main_arg17)))))) (Stages.rows (Stages.paramV3 (W (Proc.devRef .tc main_arg15))))) := by
  after_results_simp
  rfl

end Cert.ReferenceIdeal.RefValue

end
-- ==== Proof.RefSegL3.lean ====
/-
  The fourth block of the reference program's line: its aggregation, its two matrix products and its normalisation, in
  order. The fold over the three lists in sequence is the three folds composed; a buffer none of them writes is kept;
  and the block's result buffer holds the block function of the previous node features, the two index rows and the
  block's eight parameters, by the three parts' equations chained (the parameters are kept by the parts before
  the one that reads them).
-/
import proofs.«112971_j66340064854633_1_alg».proof.Proof.RefRun
import proofs.«112971_j66340064854633_1_alg».proof.Proof.RefSegL3A
import proofs.«112971_j66340064854633_1_alg».proof.Proof.RefSegL3B1
import proofs.«112971_j66340064854633_1_alg».proof.Proof.RefSegL3B2

noncomputable section

namespace Cert.ReferenceIdeal.RefValue

open Cert.ReferenceIdeal Cert.ReferenceIdeal.RefRun Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The block's 61 operations, in order. -/
abbrev segL3 : List (HloOp τ sig (Elt F)) := segL3A ++ (segL3B1 ++ segL3B2)

/-- The buffers the block writes. -/
abbrev segL3_W : List (Ref sig .tc) := segL3A_W ++ (segL3B1_W ++ segL3B2_W)

/-- A buffer the block does not write keeps its contents through it. -/
theorem segL3_keep (W : Valuation τ sig (Elt F)) (r : Ref sig .tc) (h : r ∉ segL3_W) :
    after segL3 W (Proc.devRef .tc r) = W (Proc.devRef .tc r) := by
  have h' : r ∉ segL3A_W ∧ r ∉ segL3B1_W ∧ r ∉ segL3B2_W := by
    simpa only [List.mem_append, not_or] using h
  rw [after_append, after_append, segL3B2_keep _ r h'.2.2, segL3B1_keep _ r h'.2.1, segL3A_keep _ r h'.1]

/-- The block's node features, from the previous features, the two index rows and the block's parameters. -/
theorem segL3_out (W : Valuation τ sig (Elt Ideal)) :
    after segL3 W (Proc.devRef .tc main_v236)
      = Stages.layerHost (Stages.aggF (W (Proc.devRef .tc main_v184)) (W (Proc.devRef .tc main_v26)) (W (Proc.devRef .tc main_v28)))
          (Stages.paramW3 (W (Proc.devRef .tc main_arg10))) (Stages.paramV3 (W (Proc.devRef .tc main_arg11))) (Stages.paramW3 (W (Proc.devRef .tc main_arg12))) (Stages.paramV3 (W (Proc.devRef .tc main_arg13)))
          (Stages.paramV3 (W (Proc.devRef .tc main_arg14))) (Stages.paramV3 (W (Proc.devRef .tc main_arg15))) (Stages.paramV3 (W (Proc.devRef .tc main_arg16))) (Stages.paramV3 (W (Proc.devRef .tc main_arg17))) := by
  rw [after_append, after_append, segL3B2_out]
  rw [segL3B1_keep _ main_arg14 (by decide), segL3B1_keep _ main_arg15 (by decide), segL3B1_keep _ main_arg16 (by decide), segL3B1_keep _ main_arg17 (by decide),
    segL3B1_out]
  rw [segL3A_keep _ main_arg10 (by decide),
    segL3A_keep _ main_arg11 (by decide),
    segL3A_keep _ main_arg12 (by decide),
    segL3A_keep _ main_arg13 (by decide),
    segL3A_keep _ main_arg14 (by decide),
    segL3A_keep _ main_arg15 (by decide),
    segL3A_keep _ main_arg16 (by decide),
    segL3A_keep _ main_arg17 (by decide),
    segL3A_out]
  rfl

end Cert.ReferenceIdeal.RefValue

end
-- ==== Proof.RefSegT.lean ====
/-
  One stage of the reference program's line of host operations: the mean pooling over the graphs.

  The list holds the stage's operations in @main's order. The buffers it writes are listed; any other buffer keeps
  its contents through the stage. The stage's result buffer holds, from any contents of the buffers the stage
  reads, the shared stage function of those contents: the fold over the list composes the operations' functions
  in order, which is how the stage function is spelled.
-/
import proofs.«112971_j66340064854633_1_alg».proof.Proof.Stages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The stage's 15 operations, in order. -/
abbrev segT : List (HloOp τ sig (Elt F)) :=
  [ StableHlo.nullary main_cst_25 (constant S_ .f32 0x00000000#32),
    StableHlo.unary main_cst_25 main_v237 (broadcastInDim S128x128 ![] bcast_S_S128x128 : (⟨S_, .f32⟩ : BufTy).Contents (Elt F) → (⟨S128x128, .f32⟩ : BufTy).Contents (Elt F)),
    StableHlo.unary main_arg2 main_v238 (broadcastInDim S50000x1 ![0] bcast_S50000_S50000x1_0 : (⟨S50000, .i32⟩ : BufTy).Contents (Elt F) → (⟨S50000x1, .i32⟩ : BufTy).Contents (Elt F)),
    StableHlo.ternary main_v237 main_v238 main_v236 main_v239 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_26 (constant S_ .f32 0x3F800000#32),
    StableHlo.unary main_cst_26 main_v240 (broadcastInDim S50000x1 ![] bcast_S_S50000x1 : (⟨S_, .f32⟩ : BufTy).Contents (Elt F) → (⟨S50000x1, .f32⟩ : BufTy).Contents (Elt F)),
    StableHlo.nullary main_cst_27 (constant S_ .f32 0x00000000#32),
    StableHlo.unary main_cst_27 main_v241 (broadcastInDim S128x1 ![] bcast_S_S128x1 : (⟨S_, .f32⟩ : BufTy).Contents (Elt F) → (⟨S128x1, .f32⟩ : BufTy).Contents (Elt F)),
    StableHlo.unary main_arg2 main_v242 (broadcastInDim S50000x1 ![0] bcast_S50000_S50000x1_0 : (⟨S50000, .i32⟩ : BufTy).Contents (Elt F) → (⟨S50000x1, .i32⟩ : BufTy).Contents (Elt F)),
    StableHlo.ternary main_v241 main_v242 main_v240 main_v243 ((fun x i u => Host.scatterAdd scatter_S128x1_S50000x1_S50000x1_1_0_0_1 x i u) : (⟨S128x1, .f32⟩ : BufTy).Contents (Elt F) → (⟨S50000x1, .i32⟩ : BufTy).Contents (Elt F) → (⟨S50000x1, .f32⟩ : BufTy).Contents (Elt F) → (⟨S128x1, .f32⟩ : BufTy).Contents (Elt F)),
    StableHlo.nullary main_cst_28 (constant S_ .f32 0x3F800000#32),
    StableHlo.unary main_cst_28 main_v244 (broadcastInDim S128x1 ![] bcast_S_S128x1 : (⟨S_, .f32⟩ : BufTy).Contents (Elt F) → (⟨S128x1, .f32⟩ : BufTy).Contents (Elt F)),
    StableHlo.binary main_v243 main_v244 main_v245 (maximumf : (⟨S128x1, .f32⟩ : BufTy).Contents (Elt F) → (⟨S128x1, .f32⟩ : BufTy).Contents (Elt F) → (⟨S128x1, .f32⟩ : BufTy).Contents (Elt F)),
    StableHlo.unary main_v245 main_v246 (broadcastInDim S128x128 ![0, 1] bcast_S128x1_S128x128_0_1 : (⟨S128x1, .f32⟩ : BufTy).Contents (Elt F) → (⟨S128x128, .f32⟩ : BufTy).Contents (Elt F)),
    StableHlo.binary main_v239 main_v246 main_v247 (Host.divf : (⟨S128x128, .f32⟩ : BufTy).Contents (Elt F) → (⟨S128x128, .f32⟩ : BufTy).Contents (Elt F) → (⟨S128x128, .f32⟩ : BufTy).Contents (Elt F)) ]

/-- The buffers the stage writes, one per operation. -/
abbrev segT_W : List (Ref sig .tc) :=
  [ main_cst_25, main_v237, main_v238, main_v239, main_cst_26, main_v240, main_cst_27, main_v241,
    main_v242, main_v243, main_cst_28, main_v244, main_v245, main_v246, main_v247 ]

set_option maxRecDepth 8192 in
/-- Each operation writes exactly its result buffer, which the list holds. -/
theorem segT_writes : (segT : List (HloOp τ sig (Elt F))).Forall fun op =>
    op.writes ⊆ (segT_W.map (Proc.devRef (τ := τ) .tc)).toFinset := by
  simp only [List.Forall]
  and_intros <;>
    (simp only [nullary_writes, unary_writes, binary_writes, ternary_writes, reshape_writes, Finset.singleton_subset_iff,
       List.mem_toFinset]
     exact List.mem_map_of_mem (by decide))

/-- A buffer the stage does not write keeps its contents through it. -/
theorem segT_keep (W : Valuation τ sig (Elt F)) (r : Ref sig .tc) (h : r ∉ segT_W) :
    after segT W (Proc.devRef .tc r) = W (Proc.devRef .tc r) :=
  after_of_writes_sub segT W segT_writes h

attribute [local irreducible] Host.gather Host.scatterAdd Host.rsqrt Host.divf Host.remsi in
set_option maxRecDepth 16384 in
set_option maxHeartbeats 4000000 in
/-- The pooled graph features, from the last block's node features and the graph index of each node. -/
theorem segT_v247 (W : Valuation τ sig (Elt Ideal)) :
    after segT W (Proc.devRef .tc main_v247) = Stages.tailF (W (Proc.devRef .tc main_v236)) (W (Proc.devRef .tc main_arg2)) := by
  after_results_simp
  rfl

end Cert.ReferenceIdeal.RefValue

end
-- ==== Proof.RefValue.lean ====
/-
  What the reference program computes, in terms of the shared stage functions.

  @main's line of host operations is cut at its stages: the initial node features with the two index rows of the
  edge list, four blocks, the mean pooling. The fold over the whole line is the stages' folds composed. Each stage
  leaves in its result buffer the stage function of the contents it reads, and leaves every buffer it does not
  write as it was; chaining these from the launch contents, the second result buffer holds the node features
  after the fourth block, the first result buffer their pooled mean, and every argument buffer is unchanged.
-/
import proofs.«112971_j66340064854633_1_alg».proof.Proof.RefRun
import proofs.«112971_j66340064854633_1_alg».proof.Proof.RefSegH
import proofs.«112971_j66340064854633_1_alg».proof.Proof.RefSegL0
import proofs.«112971_j66340064854633_1_alg».proof.Proof.RefSegL1
import proofs.«112971_j66340064854633_1_alg».proof.Proof.RefSegL2
import proofs.«112971_j66340064854633_1_alg».proof.Proof.RefSegL3
import proofs.«112971_j66340064854633_1_alg».proof.Proof.RefSegT

noncomputable section

namespace Cert.ReferenceIdeal.RefValue

open Cert.ReferenceIdeal Cert.ReferenceIdeal.RefRun Idealize.ShloMosaic Idealize.ShloMosaic.TcCoe Idealize.SL.Sem Idealize.ShloMosaic.StableHlo
open Cert.ReferenceIdeal.Facts₀ Cert.ReferenceIdeal.Facts

variable [Cert.ReferenceIdeal.Facts]

set_option maxRecDepth 16384 in
/-- @main's operations are the six stages' operations, in order. -/
theorem ops_eq_stages {F : FTy → Type} [FloatOps F] :
    (ops : List (HloOp τ sig (Elt F))) = segH ++ (segL0 ++ (segL1 ++ (segL2 ++ (segL3 ++ segT)))) := rfl

/-- The fold over @main's operations, stage by stage. -/
theorem after_ops_stages {F : FTy → Type} [FloatOps F] (V : Valuation τ sig (Elt F)) :
    after ops V = after segT (after segL3 (after segL2 (after segL1 (after segL0 (after segH V))))) := by
  rw [ops_eq_stages]
  simp only [after_append]

variable (V : Valuation τ sig (Elt Ideal))

/-- The eighteen argument buffers' contents, as the stage functions' record of arguments. -/
abbrev argsOf : Stages.Args :=
  ⟨V (main_arg0 : DevRef τ sig),
    V (main_arg1 : DevRef τ sig),
    V (main_arg2 : DevRef τ sig),
    V (main_arg3 : DevRef τ sig),
    V (main_arg4 : DevRef τ sig),
    V (main_arg5 : DevRef τ sig),
    V (main_arg6 : DevRef τ sig),
    V (main_arg7 : DevRef τ sig),
    V (main_arg8 : DevRef τ sig),
    V (main_arg9 : DevRef τ sig),
    V (main_arg10 : DevRef τ sig),
    V (main_arg11 : DevRef τ sig),
    V (main_arg12 : DevRef τ sig),
    V (main_arg13 : DevRef τ sig),
    V (main_arg14 : DevRef τ sig),
    V (main_arg15 : DevRef τ sig),
    V (main_arg16 : DevRef τ sig),
    V (main_arg17 : DevRef τ sig)⟩

/-- The buffers' contents after the initial stage, and after each of the four blocks. -/
def W0 : Valuation τ sig (Elt Ideal) := after segH V
def W1 : Valuation τ sig (Elt Ideal) := after segL0 (W0 V)
def W2 : Valuation τ sig (Elt Ideal) := after segL1 (W1 V)
def W3 : Valuation τ sig (Elt Ideal) := after segL2 (W2 V)
def W4 : Valuation τ sig (Elt Ideal) := after segL3 (W3 V)

/-! A buffer none of the stages so far writes still has its launch contents. -/

theorem W0_keep (r : Ref sig .tc) (hH : r ∉ segH_W) : W0 V (Proc.devRef .tc r) = V (Proc.devRef .tc r) :=
  segH_keep V r hH
theorem W1_keep (r : Ref sig .tc) (hH : r ∉ segH_W) (h0 : r ∉ segL0_W) : W1 V (Proc.devRef .tc r) = V (Proc.devRef .tc r) :=
  (segL0_keep _ r h0).trans (W0_keep V r hH)
theorem W2_keep (r : Ref sig .tc) (hH : r ∉ segH_W) (h0 : r ∉ segL0_W) (h1 : r ∉ segL1_W) :
    W2 V (Proc.devRef .tc r) = V (Proc.devRef .tc r) :=
  (segL1_keep _ r h1).trans (W1_keep V r hH h0)
theorem W3_keep (r : Ref sig .tc) (hH : r ∉ segH_W) (h0 : r ∉ segL0_W) (h1 : r ∉ segL1_W) (h2 : r ∉ segL2_W) :
    W3 V (Proc.devRef .tc r) = V (Proc.devRef .tc r) :=
  (segL2_keep _ r h2).trans (W2_keep V r hH h0 h1)
theorem W4_keep (r : Ref sig .tc) (hH : r ∉ segH_W) (h0 : r ∉ segL0_W) (h1 : r ∉ segL1_W) (h2 : r ∉ segL2_W)
    (h3 : r ∉ segL3_W) : W4 V (Proc.devRef .tc r) = V (Proc.devRef .tc r) :=
  (segL3_keep _ r h3).trans (W3_keep V r hH h0 h1 h2)

/-- A buffer no stage writes has its launch contents after the whole line. -/
theorem after_ops_keep (r : Ref sig .tc) (hH : r ∉ segH_W) (h0 : r ∉ segL0_W) (h1 : r ∉ segL1_W) (h2 : r ∉ segL2_W)
    (h3 : r ∉ segL3_W) (hT : r ∉ segT_W) : after ops V (Proc.devRef .tc r) = V (Proc.devRef .tc r) := by
  rw [after_ops_stages]
  exact (segT_keep _ r hT).trans (W4_keep V r hH h0 h1 h2 h3)

/-! The two index rows are written by the initial stage and by no block. -/

theorem W0_src : W0 V (main_v26 : DevRef τ sig) = Stages.srcIdx (V (main_arg1 : DevRef τ sig)) := segH_v26 V
theorem W0_dst : W0 V (main_v28 : DevRef τ sig) = Stages.dstIdx (V (main_arg1 : DevRef τ sig)) := segH_v28 V
theorem W1_src : W1 V (main_v26 : DevRef τ sig) = Stages.srcIdx (V (main_arg1 : DevRef τ sig)) :=
  (segL0_keep _ main_v26 (by decide)).trans (W0_src V)
theorem W1_dst : W1 V (main_v28 : DevRef τ sig) = Stages.dstIdx (V (main_arg1 : DevRef τ sig)) :=
  (segL0_keep _ main_v28 (by decide)).trans (W0_dst V)
theorem W2_src : W2 V (main_v26 : DevRef τ sig) = Stages.srcIdx (V (main_arg1 : DevRef τ sig)) :=
  (segL1_keep _ main_v26 (by decide)).trans (W1_src V)
theorem W2_dst : W2 V (main_v28 : DevRef τ sig) = Stages.dstIdx (V (main_arg1 : DevRef τ sig)) :=
  (segL1_keep _ main_v28 (by decide)).trans (W1_dst V)
theorem W3_src : W3 V (main_v26 : DevRef τ sig) = Stages.srcIdx (V (main_arg1 : DevRef τ sig)) :=
  (segL2_keep _ main_v26 (by decide)).trans (W2_src V)
theorem W3_dst : W3 V (main_v28 : DevRef τ sig) = Stages.dstIdx (V (main_arg1 : DevRef τ sig)) :=
  (segL2_keep _ main_v28 (by decide)).trans (W2_dst V)
theorem W4_src : W4 V (main_v26 : DevRef τ sig) = Stages.srcIdx (V (main_arg1 : DevRef τ sig)) :=
  (segL3_keep _ main_v26 (by decide)).trans (W3_src V)
theorem W4_dst : W4 V (main_v28 : DevRef τ sig) = Stages.dstIdx (V (main_arg1 : DevRef τ sig)) :=
  (segL3_keep _ main_v28 (by decide)).trans (W3_dst V)

/-! The node features after the initial stage and after each block. -/

theorem W0_h : W0 V (main_v24 : DevRef τ sig) = Stages.h0 (argsOf V) := segH_v24 V

theorem W1_h : W1 V (main_v80 : DevRef τ sig) = Stages.h1 (argsOf V) := by
  unfold W1
  rw [segL0_out, W0_h, W0_src, W0_dst,
    W0_keep V main_arg10 (by decide),
    W0_keep V main_arg11 (by decide),
    W0_keep V main_arg12 (by decide),
    W0_keep V main_arg13 (by decide),
    W0_keep V main_arg14 (by decide),
    W0_keep V main_arg15 (by decide),
    W0_keep V main_arg16 (by decide),
    W0_keep V main_arg17 (by decide)]
  rfl

theorem W2_h : W2 V (main_v132 : DevRef τ sig) = Stages.h2 (argsOf V) := by
  unfold W2
  rw [segL1_out, W1_h, W1_src, W1_dst,
    W1_keep V main_arg10 (by decide) (by decide),
    W1_keep V main_arg11 (by decide) (by decide),
    W1_keep V main_arg12 (by decide) (by decide),
    W1_keep V main_arg13 (by decide) (by decide),
    W1_keep V main_arg14 (by decide) (by decide),
    W1_keep V main_arg15 (by decide) (by decide),
    W1_keep V main_arg16 (by decide) (by decide),
    W1_keep V main_arg17 (by decide) (by decide)]
  rfl

theorem W3_h : W3 V (main_v184 : DevRef τ sig) = Stages.h3 (argsOf V) := by
  unfold W3
  rw [segL2_out, W2_h, W2_src, W2_dst,
    W2_keep V main_arg10 (by decide) (by decide) (by decide),
    W2_keep V main_arg11 (by decide) (by decide) (by decide),
    W2_keep V main_arg12 (by decide) (by decide) (by decide),
    W2_keep V main_arg13 (by decide) (by decide) (by decide),
    W2_keep V main_arg14 (by decide) (by decide) (by decide),
    W2_keep V main_arg15 (by decide) (by decide) (by decide),
    W2_keep V main_arg16 (by decide) (by decide) (by decide),
    W2_keep V main_arg17 (by decide) (by decide) (by decide)]
  rfl

theorem W4_h : W4 V (main_v236 : DevRef τ sig) = Stages.h4 (argsOf V) := by
  unfold W4
  rw [segL3_out, W3_h, W3_src, W3_dst,
    W3_keep V main_arg10 (by decide) (by decide) (by decide) (by decide),
    W3_keep V main_arg11 (by decide) (by decide) (by decide) (by decide),
    W3_keep V main_arg12 (by decide) (by decide) (by decide) (by decide),
    W3_keep V main_arg13 (by decide) (by decide) (by decide) (by decide),
    W3_keep V main_arg14 (by decide) (by decide) (by decide) (by decide),
    W3_keep V main_arg15 (by decide) (by decide) (by decide) (by decide),
    W3_keep V main_arg16 (by decide) (by decide) (by decide) (by decide),
    W3_keep V main_arg17 (by decide) (by decide) (by decide) (by decide)]
  rfl

/-! ## The results and the arguments after @main -/

/-- The second result buffer holds the node features after the fourth block. -/
theorem out1_eq : after ops V (main_v236 : DevRef τ sig) = Stages.h4 (argsOf V) := by
  rw [after_ops_stages]
  exact (segT_keep _ main_v236 (by decide)).trans (W4_h V)

/-- The first result buffer holds the pooled graph features. -/
theorem out0_eq : after ops V (main_v247 : DevRef τ sig) = Stages.pooled (argsOf V) := by
  rw [after_ops_stages]
  show after segT (W4 V) _ = _
  rw [segT_v247, W4_h, W4_keep V main_arg2 (by decide) (by decide) (by decide) (by decide) (by decide)]
  rfl

theorem arg0_eq : after ops V (main_arg0 : DevRef τ sig) = V (main_arg0 : DevRef τ sig) :=
  after_ops_keep V main_arg0 (by decide) (by decide) (by decide) (by decide) (by decide) (by decide)
theorem arg1_eq : after ops V (main_arg1 : DevRef τ sig) = V (main_arg1 : DevRef τ sig) :=
  after_ops_keep V main_arg1 (by decide) (by decide) (by decide) (by decide) (by decide) (by decide)
theorem arg2_eq : after ops V (main_arg2 : DevRef τ sig) = V (main_arg2 : DevRef τ sig) :=
  after_ops_keep V main_arg2 (by decide) (by decide) (by decide) (by decide) (by decide) (by decide)
theorem arg3_eq : after ops V (main_arg3 : DevRef τ sig) = V (main_arg3 : DevRef τ sig) :=
  after_ops_keep V main_arg3 (by decide) (by decide) (by decide) (by decide) (by decide) (by decide)
theorem arg4_eq : after ops V (main_arg4 : DevRef τ sig) = V (main_arg4 : DevRef τ sig) :=
  after_ops_keep V main_arg4 (by decide) (by decide) (by decide) (by decide) (by decide) (by decide)
theorem arg5_eq : after ops V (main_arg5 : DevRef τ sig) = V (main_arg5 : DevRef τ sig) :=
  after_ops_keep V main_arg5 (by decide) (by decide) (by decide) (by decide) (by decide) (by decide)
theorem arg6_eq : after ops V (main_arg6 : DevRef τ sig) = V (main_arg6 : DevRef τ sig) :=
  after_ops_keep V main_arg6 (by decide) (by decide) (by decide) (by decide) (by decide) (by decide)
theorem arg7_eq : after ops V (main_arg7 : DevRef τ sig) = V (main_arg7 : DevRef τ sig) :=
  after_ops_keep V main_arg7 (by decide) (by decide) (by decide) (by decide) (by decide) (by decide)
theorem arg8_eq : after ops V (main_arg8 : DevRef τ sig) = V (main_arg8 : DevRef τ sig) :=
  after_ops_keep V main_arg8 (by decide) (by decide) (by decide) (by decide) (by decide) (by decide)
theorem arg9_eq : after ops V (main_arg9 : DevRef τ sig) = V (main_arg9 : DevRef τ sig) :=
  after_ops_keep V main_arg9 (by decide) (by decide) (by decide) (by decide) (by decide) (by decide)
theorem arg10_eq : after ops V (main_arg10 : DevRef τ sig) = V (main_arg10 : DevRef τ sig) :=
  after_ops_keep V main_arg10 (by decide) (by decide) (by decide) (by decide) (by decide) (by decide)
theorem arg11_eq : after ops V (main_arg11 : DevRef τ sig) = V (main_arg11 : DevRef τ sig) :=
  after_ops_keep V main_arg11 (by decide) (by decide) (by decide) (by decide) (by decide) (by decide)
theorem arg12_eq : after ops V (main_arg12 : DevRef τ sig) = V (main_arg12 : DevRef τ sig) :=
  after_ops_keep V main_arg12 (by decide) (by decide) (by decide) (by decide) (by decide) (by decide)
theorem arg13_eq : after ops V (main_arg13 : DevRef τ sig) = V (main_arg13 : DevRef τ sig) :=
  after_ops_keep V main_arg13 (by decide) (by decide) (by decide) (by decide) (by decide) (by decide)
theorem arg14_eq : after ops V (main_arg14 : DevRef τ sig) = V (main_arg14 : DevRef τ sig) :=
  after_ops_keep V main_arg14 (by decide) (by decide) (by decide) (by decide) (by decide) (by decide)
theorem arg15_eq : after ops V (main_arg15 : DevRef τ sig) = V (main_arg15 : DevRef τ sig) :=
  after_ops_keep V main_arg15 (by decide) (by decide) (by decide) (by decide) (by decide) (by decide)
theorem arg16_eq : after ops V (main_arg16 : DevRef τ sig) = V (main_arg16 : DevRef τ sig) :=
  after_ops_keep V main_arg16 (by decide) (by decide) (by decide) (by decide) (by decide) (by decide)
theorem arg17_eq : after ops V (main_arg17 : DevRef τ sig) = V (main_arg17 : DevRef τ sig) :=
  after_ops_keep V main_arg17 (by decide) (by decide) (by decide) (by decide) (by decide) (by decide)

end Cert.ReferenceIdeal.RefValue

end
-- ==== Proof.lean ====
/-
  The certificate's proof.

  Both programs compute a four-block graph network on 50000 nodes with 128 channels: initial node features from
  three table look-ups and a small projection; then four times "sum each node's in-neighbours' features, add the
  node's own, apply the dense stage relu(BN(relu(x·W₁ + b₁)·W₂ + b₂))"; then the mean of the node features per graph.
  The kernel program runs the dense stage as a tiled region over blocks of 5000 nodes with the matrix products
  fed in a narrower float format; everything else is the same host computation in both. Over the extended reals
  a change of float format is the identity and a tiled matrix product is the same finite sum per entry, so both
  programs end with the same two arrays, `Cert.Stages.pooled` and `Cert.Stages.h4` of the arguments:

  * the kernel program: its run ends with every buffer at a fold of the launch memory through its segments
    (Proof/KernelRun.lean); the fold is walked segment by segment (Proof/KS0 … KS4.lean for the host stretches,
    Proof/Region0 … Region3.lean for the regions' output arrays) in Proof/KernelValue.lean;
  * the reference program: its run as a fold of its operations (Proof/RefRun*.lean) and that fold read at the two
    results (Proof/RefValue.lean);
  * the frames of the two kernel programs are the generated frame certificates, the reference's frame is its run
    with the results dropped; the idealization rewrote nothing, so `preserves` is `True`.
-/
import proofs.«112971_j66340064854633_1_alg».proof.Defs
import proofs.«112971_j66340064854633_1_alg».proof.Proof.Gen.Kernel
import proofs.«112971_j66340064854633_1_alg».proof.Proof.Gen.Kernel.Frame
import proofs.«112971_j66340064854633_1_alg».proof.Proof.Gen.KernelIdeal
import proofs.«112971_j66340064854633_1_alg».proof.Proof.Gen.KernelIdeal.Frame
import proofs.«112971_j66340064854633_1_alg».proof.Proof.Gen.ReferenceIdeal
import proofs.«112971_j66340064854633_1_alg».proof.Proof.Gen.Pre_finite_inputs
import proofs.«112971_j66340064854633_1_alg».proof.Proof.Stages
import proofs.«112971_j66340064854633_1_alg».proof.Proof.KernelValue
import proofs.«112971_j66340064854633_1_alg».proof.Proof.RefRun
import proofs.«112971_j66340064854633_1_alg».proof.Proof.RefValue
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference's frame: its run as a fold of operations none of which writes an argument buffer. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.arg0_eq _),
     (h c Cert.ReferenceIdeal.main_arg1).trans (Cert.ReferenceIdeal.RefValue.arg1_eq _),
     (h c Cert.ReferenceIdeal.main_arg2).trans (Cert.ReferenceIdeal.RefValue.arg2_eq _),
     (h c Cert.ReferenceIdeal.main_arg3).trans (Cert.ReferenceIdeal.RefValue.arg3_eq _),
     (h c Cert.ReferenceIdeal.main_arg4).trans (Cert.ReferenceIdeal.RefValue.arg4_eq _),
     (h c Cert.ReferenceIdeal.main_arg5).trans (Cert.ReferenceIdeal.RefValue.arg5_eq _),
     (h c Cert.ReferenceIdeal.main_arg6).trans (Cert.ReferenceIdeal.RefValue.arg6_eq _),
     (h c Cert.ReferenceIdeal.main_arg7).trans (Cert.ReferenceIdeal.RefValue.arg7_eq _),
     (h c Cert.ReferenceIdeal.main_arg8).trans (Cert.ReferenceIdeal.RefValue.arg8_eq _),
     (h c Cert.ReferenceIdeal.main_arg9).trans (Cert.ReferenceIdeal.RefValue.arg9_eq _),
     (h c Cert.ReferenceIdeal.main_arg10).trans (Cert.ReferenceIdeal.RefValue.arg10_eq _),
     (h c Cert.ReferenceIdeal.main_arg11).trans (Cert.ReferenceIdeal.RefValue.arg11_eq _),
     (h c Cert.ReferenceIdeal.main_arg12).trans (Cert.ReferenceIdeal.RefValue.arg12_eq _),
     (h c Cert.ReferenceIdeal.main_arg13).trans (Cert.ReferenceIdeal.RefValue.arg13_eq _),
     (h c Cert.ReferenceIdeal.main_arg14).trans (Cert.ReferenceIdeal.RefValue.arg14_eq _),
     (h c Cert.ReferenceIdeal.main_arg15).trans (Cert.ReferenceIdeal.RefValue.arg15_eq _),
     (h c Cert.ReferenceIdeal.main_arg16).trans (Cert.ReferenceIdeal.RefValue.arg16_eq _),
     (h c Cert.ReferenceIdeal.main_arg17).trans (Cert.ReferenceIdeal.RefValue.arg17_eq _)⟩)
    (Cert.ReferenceIdeal.RefRun.run_main (F := Ideal) m ρ)

theorem preserves : Cert.preserves_Kernel_KernelIdeal := trivial

/-- Both idealized programs end with `pooled` and `h4` of the (agreeing) arguments. -/
theorem algebraic : Cert.algebraic_KernelIdeal_ReferenceIdeal := by
  intro m ρ m' ρ' _ hagree
  refine ⟨fun c => Cert.Stages.pooled (Cert.KernelIdeal.KV.X m c), fun c => Cert.Stages.h4 (Cert.KernelIdeal.KV.X m c),
    Cert.KernelIdeal.KV.run m ρ, ?_⟩
  refine (θ_run Cert.ReferenceIdeal.defs _ _).mono (fun r h c => ?_) (Cert.ReferenceIdeal.RefRun.run_main (F := Ideal) m' ρ')
  have hX : (⟨m' ((c.tc : Thread Cert.ReferenceIdeal.nD Cert.ReferenceIdeal.τ).loc Cert.ReferenceIdeal.main_arg0),
      m' ((c.tc : Thread Cert.ReferenceIdeal.nD Cert.ReferenceIdeal.τ).loc Cert.ReferenceIdeal.main_arg1),
      m' ((c.tc : Thread Cert.ReferenceIdeal.nD Cert.ReferenceIdeal.τ).loc Cert.ReferenceIdeal.main_arg2),
      m' ((c.tc : Thread Cert.ReferenceIdeal.nD Cert.ReferenceIdeal.τ).loc Cert.ReferenceIdeal.main_arg3),
      m' ((c.tc : Thread Cert.ReferenceIdeal.nD Cert.ReferenceIdeal.τ).loc Cert.ReferenceIdeal.main_arg4),
      m' ((c.tc : Thread Cert.ReferenceIdeal.nD Cert.ReferenceIdeal.τ).loc Cert.ReferenceIdeal.main_arg5),
      m' ((c.tc : Thread Cert.ReferenceIdeal.nD Cert.ReferenceIdeal.τ).loc Cert.ReferenceIdeal.main_arg6),
      m' ((c.tc : Thread Cert.ReferenceIdeal.nD Cert.ReferenceIdeal.τ).loc Cert.ReferenceIdeal.main_arg7),
      m' ((c.tc : Thread Cert.ReferenceIdeal.nD Cert.ReferenceIdeal.τ).loc Cert.ReferenceIdeal.main_arg8),
      m' ((c.tc : Thread Cert.ReferenceIdeal.nD Cert.ReferenceIdeal.τ).loc Cert.ReferenceIdeal.main_arg9),
      m' ((c.tc : Thread Cert.ReferenceIdeal.nD Cert.ReferenceIdeal.τ).loc Cert.ReferenceIdeal.main_arg10),
      m' ((c.tc : Thread Cert.ReferenceIdeal.nD Cert.ReferenceIdeal.τ).loc Cert.ReferenceIdeal.main_arg11),
      m' ((c.tc : Thread Cert.ReferenceIdeal.nD Cert.ReferenceIdeal.τ).loc Cert.ReferenceIdeal.main_arg12),
      m' ((c.tc : Thread Cert.ReferenceIdeal.nD Cert.ReferenceIdeal.τ).loc Cert.ReferenceIdeal.main_arg13),
      m' ((c.tc : Thread Cert.ReferenceIdeal.nD Cert.ReferenceIdeal.τ).loc Cert.ReferenceIdeal.main_arg14),
      m' ((c.tc : Thread Cert.ReferenceIdeal.nD Cert.ReferenceIdeal.τ).loc Cert.ReferenceIdeal.main_arg15),
      m' ((c.tc : Thread Cert.ReferenceIdeal.nD Cert.ReferenceIdeal.τ).loc Cert.ReferenceIdeal.main_arg16),
      m' ((c.tc : Thread Cert.ReferenceIdeal.nD Cert.ReferenceIdeal.τ).loc Cert.ReferenceIdeal.main_arg17)⟩ : Cert.Stages.Args) = Cert.KernelIdeal.KV.X m c := by
    unfold Cert.KernelIdeal.KV.X
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
  refine ⟨(h c Cert.ReferenceIdeal.main_v247).trans ((Cert.ReferenceIdeal.RefValue.out0_eq _).trans (congrArg Cert.Stages.pooled hX)),
    (h c Cert.ReferenceIdeal.main_v236).trans ((Cert.ReferenceIdeal.RefValue.out1_eq _).trans (congrArg Cert.Stages.h4 hX)),
    (h c Cert.ReferenceIdeal.main_arg0).trans (Cert.ReferenceIdeal.RefValue.arg0_eq _),
    (h c Cert.ReferenceIdeal.main_arg1).trans (Cert.ReferenceIdeal.RefValue.arg1_eq _),
    (h c Cert.ReferenceIdeal.main_arg2).trans (Cert.ReferenceIdeal.RefValue.arg2_eq _),
    (h c Cert.ReferenceIdeal.main_arg3).trans (Cert.ReferenceIdeal.RefValue.arg3_eq _),
    (h c Cert.ReferenceIdeal.main_arg4).trans (Cert.ReferenceIdeal.RefValue.arg4_eq _),
    (h c Cert.ReferenceIdeal.main_arg5).trans (Cert.ReferenceIdeal.RefValue.arg5_eq _),
    (h c Cert.ReferenceIdeal.main_arg6).trans (Cert.ReferenceIdeal.RefValue.arg6_eq _),
    (h c Cert.ReferenceIdeal.main_arg7).trans (Cert.ReferenceIdeal.RefValue.arg7_eq _),
    (h c Cert.ReferenceIdeal.main_arg8).trans (Cert.ReferenceIdeal.RefValue.arg8_eq _),
    (h c Cert.ReferenceIdeal.main_arg9).trans (Cert.ReferenceIdeal.RefValue.arg9_eq _),
    (h c Cert.ReferenceIdeal.main_arg10).trans (Cert.ReferenceIdeal.RefValue.arg10_eq _),
    (h c Cert.ReferenceIdeal.main_arg11).trans (Cert.ReferenceIdeal.RefValue.arg11_eq _),
    (h c Cert.ReferenceIdeal.main_arg12).trans (Cert.ReferenceIdeal.RefValue.arg12_eq _),
    (h c Cert.ReferenceIdeal.main_arg13).trans (Cert.ReferenceIdeal.RefValue.arg13_eq _),
    (h c Cert.ReferenceIdeal.main_arg14).trans (Cert.ReferenceIdeal.RefValue.arg14_eq _),
    (h c Cert.ReferenceIdeal.main_arg15).trans (Cert.ReferenceIdeal.RefValue.arg15_eq _),
    (h c Cert.ReferenceIdeal.main_arg16).trans (Cert.ReferenceIdeal.RefValue.arg16_eq _),
    (h c Cert.ReferenceIdeal.main_arg17).trans (Cert.ReferenceIdeal.RefValue.arg17_eq _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
